-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v189_0)) (v1 : (c : Dev Cert.KernelIdeal.nD) → Buf (Elt Ideal) ((c.tc : Thread Cert.KernelIdeal.nD Cert.KernelIdeal.τ).loc Cert.KernelIdeal.main_v192)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v189_0) = v0 c
          ∧ r.2.mem ((c.tc : Thread Cert.KernelIdeal.nD Cert.KernelIdeal.τ).loc Cert.KernelIdeal.main_v192) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x800000 : Shape := ⟨2, ![2, 800000]⟩
abbrev S16x128 : Shape := ⟨2, ![16, 128]⟩
abbrev S128 : Shape := ⟨1, ![128]⟩
abbrev S4x128x128 : Shape := ⟨3, ![4, 128, 128]⟩
abbrev S4x128 : Shape := ⟨2, ![4, 128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S128 .f32) (main_arg9 : FVec F S128x3 .f32) (main_arg10 : FVec F S3 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x3 .f32 := Host.absf main_arg9
  let main_cst_14 : FVec F S_ .f32 := constant S_ .f32 0x7F800000#32
  let main_v40 : FVec F S128x3 .f32 := broadcastInDim S128x3 ![] bcast_S_S128x3 main_cst_14
  let main_v41 : IVec S128x3 1 := cmpf .olt main_v39 main_v40
  let main_c_15 : IVec S_ 1 := constantI S_ 1 1#1
  let main_v42 : IVec S_ 1 := (fun x v => Host.reduce IntOp.andi x v reducesTo_S128x3_S_d0_1 h_S_) main_v41 main_c_15
  let main_v43 : IVec S_ 1 := andi main_v38 main_v42
  let main_v44 : FVec F S3 .f32 := Host.absf main_arg10
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg5 : FVec F S4x128x128 .f32) (main_arg6 : FVec F S4x128 .f32) (main_arg7 : FVec F S128x128 .f32) (main_arg8 : FVec F S128 .f32) (main_arg9 : FVec F S128x3 .f32) (main_arg10 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128x128 .f32 := Host.absf main_arg5
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x10 .f32) (main_arg1 : FVec F S100000x10 .f32) (main_arg2 : IVec S2x800000 32) (main_arg3 : FVec F S16x128 .f32) (main_arg4 : FVec F S128 .f32) (main_arg5 : FVec F S4x128x128 .f32) (main_arg6 : FVec F S4x128 .f32) (main_arg7 : FVec F S128x128 .f32) (main_arg8 : FVec F S128 .f32) (main_arg9 : FVec F S128x3 .f32) (main_arg10 : FVec F S3 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S100000x10 .f32 := Host.absf main_arg1
  let main_cst_0 : FVec F S_ .f32 := constant S_ .f32 0x7F800000#32
  let main_v5 : FVec F S100000x10 .f32 := broadcastInDim S100000x10 ![] bcast_S_S100000x10 main_cst_0
  let main_v6 : IVec S100000x10 1 := cmpf .olt main_v4 main_v5
  let main_c_1 : IVec S_ 1 := constantI S_ 1 1#1
  let main_v7 : IVec S_ 1 := (fun x v => Host.reduce IntOp.andi x v reducesTo_S100000x10_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x10 : Shape := ⟨2, ![100000, 10]⟩
abbrev S2x800000 : Shape := ⟨2, ![2, 800000]⟩
abbrev S16x128 : Shape := ⟨2, ![16, 128]⟩
abbrev S128 : Shape := ⟨1, ![128]⟩
abbrev S4x128x128 : Shape := ⟨3, ![4, 128, 128]⟩
abbrev S4x128 : Shape := ⟨2, ![4, 128]⟩
abbrev S128x128 : Shape := ⟨2, ![128, 128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x8 : Shape := ⟨2, ![100000, 8]⟩
abbrev S100000x16 : Shape := ⟨2, ![100000, 16]⟩
abbrev S100000x128 : Shape := ⟨2, ![100000, 128]⟩
abbrev S5000x16 : Shape := ⟨2, ![5000, 16]⟩
abbrev S5000x128 : Shape := ⟨2, ![5000, 128]⟩
abbrev S800000x128 : Shape := ⟨2, ![800000, 128]⟩
abbrev S100000x1 : Shape := ⟨2, ![100000, 1]⟩
abbrev S1x128 : Shape := ⟨2, ![1, 128]⟩
abbrev S5000x1 : Shape := ⟨2, ![5000, 1]⟩
abbrev S1x128x128 : Shape := ⟨3, ![1, 128, 128]⟩
abbrev S1x3 : Shape := ⟨2, ![1, 3]⟩
abbrev S100000x3 : Shape := ⟨2, ![100000, 3]⟩
abbrev S5000x3 : Shape := ⟨2, ![5000, 3]⟩

abbrev nBuf : Space → Nat
  | .hbm => 247
  | .vmem => 88
  | .smem => 0
  | _ => 0

abbrev hbmTy0_0 (i : Nat) : BufTy := match i % 128 with
  | 0 => ⟨S100000x10, .f32⟩
  | 1 => ⟨S100000x10, .f32⟩
  | 2 => ⟨S2x800000, .i32⟩
  | 3 => ⟨S16x128, .f32⟩
  | 4 => ⟨S128, .f32⟩
  | 5 => ⟨S4x128x128, .f32⟩
  | 6 => ⟨S4x128, .f32⟩
  | 7 => ⟨S128x128, .f32⟩
  | 8 => ⟨S128, .f32⟩
  | 9 => ⟨S128x3, .f32⟩
  | 10 => ⟨S3, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S100000, .f32⟩
  | 19 => ⟨S800000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x8, .f32⟩
  | 26 => ⟨S100000x8, .f32⟩
  | 27 => ⟨S100000x16, .f32⟩
  | 28 => ⟨S100000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S100000x128, .f32⟩
  | 62 => ⟨S800000x1, .i32⟩
  | 63 => ⟨S100000x128, .f32⟩
  | 64 => ⟨S100000x1, .f32⟩
  | 65 => ⟨S1x128, .f32⟩
  | 66 => ⟨S100000x128, .f32⟩
  | 67 => ⟨S100000x128, .f32⟩
  | 68 => ⟨S1x128x128, .f32⟩
  | 69 => ⟨S128x128, .f32⟩
  | 70 => ⟨S1x128, .f32⟩
  | 71 => ⟨S128, .f32⟩
  | 72 => ⟨S100000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S800000x1, .f32⟩
  | 102 => ⟨S800000x128, .f32⟩
  | 103 => ⟨S800000x128, .f32⟩
  | 104 => ⟨S_, .f32⟩
  | 105 => ⟨S100000x128, .f32⟩
  | 106 => ⟨S800000x1, .i32⟩
  | 107 => ⟨S100000x128, .f32⟩
  | 108 => ⟨S100000x1, .f32⟩
  | 109 => ⟨S1x128, .f32⟩
  | 110 => ⟨S100000x128, .f32⟩
  | 111 => ⟨S100000x128, .f32⟩
  | 112 => ⟨S1x128x128, .f32⟩
  | 113 => ⟨S128x128, .f32⟩
  | 114 => ⟨S1x128, .f32⟩
  | 115 => ⟨S128, .f32⟩
  | 116 => ⟨S100000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S_, .i32⟩
  | 127 => ⟨S800000, .i32⟩
  | _ => ⟨S100000x10, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S800000x1, .f32⟩
  | 18 => ⟨S800000x128, .f32⟩
  | 19 => ⟨S800000x128, .f32⟩
  | 20 => ⟨S_, .f32⟩
  | 21 => ⟨S100000x128, .f32⟩
  | 22 => ⟨S800000x1, .i32⟩
  | 23 => ⟨S100000x128, .f32⟩
  | 24 => ⟨S100000x1, .f32⟩
  | 25 => ⟨S1x128, .f32⟩
  | 26 => ⟨S100000x128, .f32⟩
  | 27 => ⟨S100000x128, .f32⟩
  | 28 => ⟨S1x128x128, .f32⟩
  | 29 => ⟨S128x128, .f32⟩
  | 30 => ⟨S1x128, .f32⟩
  | 31 => ⟨S128, .f32⟩
  | 32 => ⟨S100000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x1, .f32⟩
  | 62 => ⟨S800000x128, .f32⟩
  | 63 => ⟨S800000x128, .f32⟩
  | 64 => ⟨S_, .f32⟩
  | 65 => ⟨S100000x128, .f32⟩
  | 66 => ⟨S800000x1, .i32⟩
  | 67 => ⟨S100000x128, .f32⟩
  | 68 => ⟨S100000x1, .f32⟩
  | 69 => ⟨S1x128, .f32⟩
  | 70 => ⟨S100000x128, .f32⟩
  | 71 => ⟨S100000x128, .f32⟩
  | 72 => ⟨S1x128x128, .f32⟩
  | 73 => ⟨S128x128, .f32⟩
  | 74 => ⟨S1x128, .f32⟩
  | 75 => ⟨S128, .f32⟩
  | 76 => ⟨S100000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000, .f32⟩
  | 95 => ⟨S800000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x1, .f32⟩
  | 106 => ⟨S800000x128, .f32⟩
  | 107 => ⟨S800000x128, .f32⟩
  | 108 => ⟨S_, .f32⟩
  | 109 => ⟨S100000x128, .f32⟩
  | 110 => ⟨S800000x1, .i32⟩
  | 111 => ⟨S100000x128, .f32⟩
  | 112 => ⟨S100000x1, .f32⟩
  | 113 => ⟨S1x128, .f32⟩
  | 114 => ⟨S100000x128, .f32⟩
  | 115 => ⟨S100000x128, .f32⟩
  | 116 => ⟨S1x128, .f32⟩
  | 117 => ⟨S1x3, .f32⟩
  | 118 => ⟨S100000x3, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x1, .f32⟩
  | .local _ .vmem, ⟨42, _⟩ => ⟨S5000x1, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x1, .f32⟩
  | .local _ .vmem, ⟨58, _⟩ => ⟨S5000x1, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S128x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x1, .f32⟩
  | .local _ .vmem, ⟨74, _⟩ => ⟨S5000x1, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S128x128, .f32⟩
  | .local _ .vmem, ⟨83, _⟩ => ⟨S1x128, .f32⟩
  | .local _ .vmem, ⟨84, _⟩ => ⟨S128x3, .f32⟩
  | .local _ .vmem, ⟨85, _⟩ => ⟨S1x3, .f32⟩
  | .local _ .vmem, ⟨86, _⟩ => ⟨S5000x3, .f32⟩
  | .local _ .vmem, ⟨87, _⟩ => ⟨S5000x3, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45_0 : Ref sig .tc := ⟨.hbm, 66, rfl⟩
abbrev main_v45_1 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81_0 : Ref sig .tc := ⟨.hbm, 110, rfl⟩
abbrev main_v81_1 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_15 : Ref sig .tc := ⟨.hbm, 117, rfl⟩
abbrev main_v87 : Ref sig .tc := ⟨.hbm, 118, rfl⟩
abbrev main_v88 : Ref sig .tc := ⟨.hbm, 119, rfl⟩
abbrev main_c_16 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_17 : Ref sig .tc := ⟨.hbm, 126, rfl⟩
abbrev main_v94 : Ref sig .tc := ⟨.hbm, 127, rfl⟩
abbrev main_v95 : Ref sig .tc := ⟨.hbm, 128, rfl⟩
abbrev main_c_18 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_19 : Ref sig .tc := ⟨.hbm, 136, rfl⟩
abbrev main_v102 : Ref sig .tc := ⟨.hbm, 137, rfl⟩
abbrev main_v103 : Ref sig .tc := ⟨.hbm, 138, rfl⟩
abbrev main_c_20 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_21 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117_0 : Ref sig .tc := ⟨.hbm, 154, rfl⟩
abbrev main_v117_1 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_22 : Ref sig .tc := ⟨.hbm, 161, rfl⟩
abbrev main_v123 : Ref sig .tc := ⟨.hbm, 162, rfl⟩
abbrev main_v124 : Ref sig .tc := ⟨.hbm, 163, rfl⟩
abbrev main_c_23 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_c_24 : Ref sig .tc := ⟨.hbm, 170, rfl⟩
abbrev main_v130 : Ref sig .tc := ⟨.hbm, 171, rfl⟩
abbrev main_v131 : Ref sig .tc := ⟨.hbm, 172, rfl⟩
abbrev main_c_25 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_c_26 : Ref sig .tc := ⟨.hbm, 180, rfl⟩
abbrev main_v138 : Ref sig .tc := ⟨.hbm, 181, rfl⟩
abbrev main_v139 : Ref sig .tc := ⟨.hbm, 182, rfl⟩
abbrev main_c_27 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_28 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153_0 : Ref sig .tc := ⟨.hbm, 198, rfl⟩
abbrev main_v153_1 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_c_29 : Ref sig .tc := ⟨.hbm, 205, rfl⟩
abbrev main_v159 : Ref sig .tc := ⟨.hbm, 206, rfl⟩
abbrev main_v160 : Ref sig .tc := ⟨.hbm, 207, rfl⟩
abbrev main_c_30 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_c_31 : Ref sig .tc := ⟨.hbm, 214, rfl⟩
abbrev main_v166 : Ref sig .tc := ⟨.hbm, 215, rfl⟩
abbrev main_v167 : Ref sig .tc := ⟨.hbm, 216, rfl⟩
abbrev main_c_32 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_c_33 : Ref sig .tc := ⟨.hbm, 224, rfl⟩
abbrev main_v174 : Ref sig .tc := ⟨.hbm, 225, rfl⟩
abbrev main_v175 : Ref sig .tc := ⟨.hbm, 226, rfl⟩
abbrev main_c_34 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_cst_35 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189_0 : Ref sig .tc := ⟨.hbm, 242, rfl⟩
abbrev main_v189_1 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg2_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg1_1 : Ref sig .tc := ⟨.vmem, 72, rfl⟩
abbrev cc9_stg2_0 : Ref sig .tc := ⟨.vmem, 73, rfl⟩
abbrev cc9_stg2_1 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg4_1 : Ref sig .tc := ⟨.vmem, 77, rfl⟩
abbrev cc9_stg5_0 : Ref sig .tc := ⟨.vmem, 78, rfl⟩
abbrev cc9_stg5_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg3_0 : Ref sig .tc := ⟨.vmem, 84, rfl⟩
abbrev cc10_stg4_0 : Ref sig .tc := ⟨.vmem, 85, rfl⟩
abbrev cc10_stg5_0 : Ref sig .tc := ⟨.vmem, 86, rfl⟩
abbrev cc10_stg5_1 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem4_1 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem2_1 : DmaSem sig := 68
abbrev cc9_sem0_0 : DmaSem sig := 69
abbrev cc9_sem0_1 : DmaSem sig := 70
abbrev cc9_sem1_0 : DmaSem sig := 71
abbrev cc9_sem1_1 : DmaSem sig := 72
abbrev cc9_sem2_0 : DmaSem sig := 73
abbrev cc9_sem2_1 : DmaSem sig := 74
abbrev cc9_sem3_0 : DmaSem sig := 75
abbrev cc9_sem4_0 : DmaSem sig := 76
abbrev cc9_sem4_1 : DmaSem sig := 77
abbrev cc9_sem5_0 : DmaSem sig := 78
abbrev cc9_sem5_1 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem3_0 : DmaSem sig := 84
abbrev cc10_sem4_0 : DmaSem sig := 85
abbrev cc10_sem5_0 : DmaSem sig := 86
abbrev cc10_sem5_1 : DmaSem sig := 87

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x3 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x3 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x3 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  slices_S100000x10_S100000x8_0_0 : S100000x10.Slices ![0, 0] S100000x8
  concatenates_S100000x8_S100000x8_S100000x16_d1 : Shape.Concatenates [S100000x8, S100000x8] S100000x16 1
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S100000_S800000x1_S800000_n_0_0_1_wf : ScatterDims.WF S100000 S800000x1 S800000 [] [0] [0] 1
  dot_S5000x16_S16x128_S5000x128_1_0_0_1_n_n_wf : DotDims.WF S5000x16 S16x128 S5000x128 [1] [0] [0] [1] [] []
  gather_S100000_S800000x1_S800000_n_0_n_n_0_1_1_wf : GatherDims.WF S100000 S800000x1 S800000 [] [0] [] [0] [] 1 ![1]
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S100000x128.size a
  hwx9_4 : ∀ i : grid9.Coords, EltTy.bits .f32 = 32 ∨ (Rect.block (s := S100000x128) S5000x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S100000x128.size a
  hwx9_5 : ∀ i : grid9.Coords, EltTy.bits .f32 = 32 ∨ (Rect.block (s := S100000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x3.size a ≤ S128x3.size a
  hwx10_3 : ∀ i : grid10.Coords, EltTy.bits .f32 = 32 ∨ (Rect.block (s := S128x3) S128x3.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x3.size a ≤ S1x3.size a
  hwx10_4 : ∀ i : grid10.Coords, EltTy.bits .f32 = 32 ∨ (Rect.block (s := S1x3) S1x3.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x3.size a ≤ S100000x3.size a
  hwx10_5 : ∀ i : grid10.Coords, EltTy.bits .f32 = 32 ∨ (Rect.block (s := S100000x3) S5000x3.size (cc10_transform_5 i) (hinb10_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_v13) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v45_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45_1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v81_1) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81_1) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v114) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v115) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v116) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v117_0) S5000x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v117_1) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v117_1) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v119) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v122) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v150) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v122) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v151) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v152) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v153_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v153_1) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v153_1) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v155) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v158) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v186) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v158) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v187) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v188) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v189_0) S5000x128.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v189_1) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v189_1) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg7) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v190) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg9) S128x3.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v191) S1x3.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v192) S5000x3.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000x10 : Shape := ⟨2, ![100000, 10]⟩
abbrev S2x800000 : Shape := ⟨2, ![2, 800000]⟩
abbrev S16x128 : Shape := ⟨2, ![16, 128]⟩
abbrev S128 : Shape := ⟨1, ![128]⟩
abbrev S4x128x128 : Shape := ⟨3, ![4, 128, 128]⟩
abbrev S4x128 : Shape := ⟨2, ![4, 128]⟩
abbrev S128x128 : Shape := ⟨2, ![128, 128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x8 : Shape := ⟨2, ![100000, 8]⟩
abbrev S100000x16 : Shape := ⟨2, ![100000, 16]⟩
abbrev S100000x128 : Shape := ⟨2, ![100000, 128]⟩
abbrev S800000x128 : Shape := ⟨2, ![800000, 128]⟩
abbrev S100000x1 : Shape := ⟨2, ![100000, 1]⟩
abbrev S1x128 : Shape := ⟨2, ![1, 128]⟩
abbrev S1x128x128 : Shape := ⟨3, ![1, 128, 128]⟩
abbrev S100000x3 : Shape := ⟨2, ![100000, 3]⟩
abbrev S1x3 : Shape := ⟨2, ![1, 3]⟩

abbrev nBuf : Space → Nat
  | .hbm => 290
  | .vmem => 0
  | .smem => 0
  | _ => 0

abbrev hbmTy0_0 (i : Nat) : BufTy := match i % 128 with
  | 0 => ⟨S100000x10, .f32⟩
  | 1 => ⟨S100000x10, .f32⟩
  | 2 => ⟨S2x800000, .i32⟩
  | 3 => ⟨S16x128, .f32⟩
  | 4 => ⟨S128, .f32⟩
  | 5 => ⟨S4x128x128, .f32⟩
  | 6 => ⟨S4x128, .f32⟩
  | 7 => ⟨S128x128, .f32⟩
  | 8 => ⟨S128, .f32⟩
  | 9 => ⟨S128x3, .f32⟩
  | 10 => ⟨S3, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S100000, .f32⟩
  | 19 => ⟨S800000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x8, .f32⟩
  | 26 => ⟨S100000x8, .f32⟩
  | 27 => ⟨S100000x16, .f32⟩
  | 28 => ⟨S100000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S800000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x128, .f32⟩
  | 59 => ⟨S800000x128, .f32⟩
  | 60 => ⟨S_, .f32⟩
  | 61 => ⟨S100000x128, .f32⟩
  | 62 => ⟨S800000x1, .i32⟩
  | 63 => ⟨S100000x128, .f32⟩
  | 64 => ⟨S100000, .f32⟩
  | 65 => ⟨S100000x1, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S1x128x128, .f32⟩
  | 76 => ⟨S128x128, .f32⟩
  | 77 => ⟨S1x128, .f32⟩
  | 78 => ⟨S128, .f32⟩
  | 79 => ⟨S100000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S800000x1, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S800000x128, .f32⟩
  | 110 => ⟨S800000x128, .f32⟩
  | 111 => ⟨S_, .f32⟩
  | 112 => ⟨S100000x128, .f32⟩
  | 113 => ⟨S800000x1, .i32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S1x128x128, .f32⟩
  | 127 => ⟨S128x128, .f32⟩
  | _ => ⟨S100000x10, .f32⟩

abbrev hbmTy0_1 (i : Nat) : BufTy := match i % 128 with
  | 0 => ⟨S1x128, .f32⟩
  | 1 => ⟨S128, .f32⟩
  | 2 => ⟨S100000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S800000, .f32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S800000x128, .f32⟩
  | 33 => ⟨S800000x128, .f32⟩
  | 34 => ⟨S_, .f32⟩
  | 35 => ⟨S100000x128, .f32⟩
  | 36 => ⟨S800000x1, .i32⟩
  | 37 => ⟨S100000x128, .f32⟩
  | 38 => ⟨S100000, .f32⟩
  | 39 => ⟨S100000x1, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S1x128x128, .f32⟩
  | 50 => ⟨S128x128, .f32⟩
  | 51 => ⟨S1x128, .f32⟩
  | 52 => ⟨S128, .f32⟩
  | 53 => ⟨S100000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000, .f32⟩
  | 72 => ⟨S800000, .f32⟩
  | 73 => ⟨S800000x1, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S800000x128, .f32⟩
  | 84 => ⟨S800000x128, .f32⟩
  | 85 => ⟨S_, .f32⟩
  | 86 => ⟨S100000x128, .f32⟩
  | 87 => ⟨S800000x1, .i32⟩
  | 88 => ⟨S100000x128, .f32⟩
  | 89 => ⟨S100000, .f32⟩
  | 90 => ⟨S100000x1, .f32⟩
  | 91 => ⟨S100000x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S1x128x128, .f32⟩
  | 101 => ⟨S128x128, .f32⟩
  | 102 => ⟨S1x128, .f32⟩
  | 103 => ⟨S128, .f32⟩
  | 104 => ⟨S100000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S800000, .f32⟩
  | 124 => ⟨S800000x1, .f32⟩
  | 125 => ⟨S_, .i32⟩
  | 126 => ⟨S800000, .i32⟩
  | 127 => ⟨S800000, .i1⟩
  | _ => ⟨S100000x10, .f32⟩

abbrev hbmTy0_2 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S800000x128, .f32⟩
  | 7 => ⟨S800000x128, .f32⟩
  | 8 => ⟨S_, .f32⟩
  | 9 => ⟨S100000x128, .f32⟩
  | 10 => ⟨S800000x1, .i32⟩
  | 11 => ⟨S100000x128, .f32⟩
  | 12 => ⟨S100000, .f32⟩
  | 13 => ⟨S100000x1, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x3, .f32⟩
  | 31 => ⟨S1x3, .f32⟩
  | 32 => ⟨S100000x3, .f32⟩
  | 33 => ⟨S100000x3, .f32⟩
  | _ => ⟨S100000x10, .f32⟩

abbrev hbmTy (i : Nat) : BufTy := match i / 128 with
  | 0 => hbmTy0_0 i
  | 1 => hbmTy0_1 i
  | 2 => hbmTy0_2 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call0_cst : Ref sig .tc := ⟨.hbm, 72, rfl⟩
abbrev main_call0_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_8 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_10 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_12 : Ref sig .tc := ⟨.hbm, 100, rfl⟩
abbrev main_v73 : Ref sig .tc := ⟨.hbm, 101, rfl⟩
abbrev main_v74 : Ref sig .tc := ⟨.hbm, 102, rfl⟩
abbrev main_c_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_14 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_15 : Ref sig .tc := ⟨.hbm, 131, rfl⟩
abbrev main_v99 : Ref sig .tc := ⟨.hbm, 132, rfl⟩
abbrev main_v100 : Ref sig .tc := ⟨.hbm, 133, rfl⟩
abbrev main_c_16 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_17 : Ref sig .tc := ⟨.hbm, 140, rfl⟩
abbrev main_v106 : Ref sig .tc := ⟨.hbm, 141, rfl⟩
abbrev main_v107 : Ref sig .tc := ⟨.hbm, 142, rfl⟩
abbrev main_c_18 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_19 : Ref sig .tc := ⟨.hbm, 151, rfl⟩
abbrev main_v115 : Ref sig .tc := ⟨.hbm, 152, rfl⟩
abbrev main_v116 : Ref sig .tc := ⟨.hbm, 153, rfl⟩
abbrev main_c_20 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_21 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_call2_cst : Ref sig .tc := ⟨.hbm, 174, rfl⟩
abbrev main_call2_v0 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_c_22 : Ref sig .tc := ⟨.hbm, 182, rfl⟩
abbrev main_v141 : Ref sig .tc := ⟨.hbm, 183, rfl⟩
abbrev main_v142 : Ref sig .tc := ⟨.hbm, 184, rfl⟩
abbrev main_c_23 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_c_24 : Ref sig .tc := ⟨.hbm, 191, rfl⟩
abbrev main_v148 : Ref sig .tc := ⟨.hbm, 192, rfl⟩
abbrev main_v149 : Ref sig .tc := ⟨.hbm, 193, rfl⟩
abbrev main_c_25 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_c_26 : Ref sig .tc := ⟨.hbm, 202, rfl⟩
abbrev main_v157 : Ref sig .tc := ⟨.hbm, 203, rfl⟩
abbrev main_v158 : Ref sig .tc := ⟨.hbm, 204, rfl⟩
abbrev main_c_27 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_28 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_call3_cst : Ref sig .tc := ⟨.hbm, 225, rfl⟩
abbrev main_call3_v0 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_c_29 : Ref sig .tc := ⟨.hbm, 233, rfl⟩
abbrev main_v183 : Ref sig .tc := ⟨.hbm, 234, rfl⟩
abbrev main_v184 : Ref sig .tc := ⟨.hbm, 235, rfl⟩
abbrev main_c_30 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_c_31 : Ref sig .tc := ⟨.hbm, 242, rfl⟩
abbrev main_v190 : Ref sig .tc := ⟨.hbm, 243, rfl⟩
abbrev main_v191 : Ref sig .tc := ⟨.hbm, 244, rfl⟩
abbrev main_c_32 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_c_33 : Ref sig .tc := ⟨.hbm, 253, rfl⟩
abbrev main_v199 : Ref sig .tc := ⟨.hbm, 254, rfl⟩
abbrev main_v200 : Ref sig .tc := ⟨.hbm, 255, rfl⟩
abbrev main_c_34 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_cst_35 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_call4_cst : Ref sig .tc := ⟨.hbm, 276, rfl⟩
abbrev main_call4_v0 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_call5_cst : Ref sig .tc := ⟨.hbm, 283, rfl⟩
abbrev main_call5_v0 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  slices_S100000x10_S100000x8_0_0 : S100000x10.Slices ![0, 0] S100000x8
  concatenates_S100000x8_S100000x8_S100000x16_d1 : Shape.Concatenates [S100000x8, S100000x8] S100000x16 1
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S800000x1_S800000_n_0_0_1_wf : ScatterDims.WF S100000 S800000x1 S800000 [] [0] [0] 1
  dot_S100000x16_S16x128_S100000x128_1_0_0_1_n_n_wf : DotDims.WF S100000x16 S16x128 S100000x128 [1] [0] [0] [1] [] []
  gather_S100000_S800000x1_S800000_n_0_n_n_0_1_1_wf : GatherDims.WF S100000 S800000x1 S800000 [] [0] [] [0] [] 1 ![1]
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.WholeRun.lean ====
/-
  The whole run of the idealized kernel program, read: @main is twenty-two segments, a stretch of host operations and a
  pallas_call alternately. The frame's run carries every buffer of the TensorCore through them: after a stretch a buffer
  holds what the stretch's operations compute from the contents before it, after a call the call's arrays hold what its
  write-backs leave and every other buffer is as it was. So when @main returns, the two result buffers hold the last
  boundary's contents at their references, and each argument its launch contents. This is the frame's run with the
  final reading taken at the results as well as at the arguments.
-/
import proofs.«176345_j15290083574239_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the embedding result and the prediction result end
    at the last boundary's contents, the eleven arguments as launched. -/
theorem run : θ_run defs (onTc (τ := τ) (main (F := F))) ⟨m, fun _ => 0, ρ⟩ (fun r => ∀ c : Dev nD,
      r.2.mem ((c.tc : Thread nD τ).loc main_v189_0) = W22 m ρ c (Proc.devRef .tc main_v189_0)
      ∧ r.2.mem ((c.tc : Thread nD τ).loc main_v192) = W22 m ρ c (Proc.devRef .tc main_v192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v189_0 (by decide)),
       h c _ (mem_uc main_v192 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c)⟩)

end Cert.KernelIdeal.WholeRun

end
-- ==== Proof.Carry.lean ====
/-
  The buffers that no pallas_call writes and that the host stretches only read — the two edge-index vectors, the vector
  of inverse square-root degrees, and the arguments — followed from boundary to boundary of @main's segments: across a
  call a buffer that is none of the call's arrays keeps its contents, and across a stretch of host operations a buffer
  that none of them writes keeps its contents. Each is stated at the reference's own stage of the same name, so that
  the two programs' values meet in one vocabulary.
-/
import proofs.«176345_j15290083574239_1_alg».proof.Proof.Gen.KernelIdeal.Frame
import proofs.«176345_j15290083574239_1_alg».proof.Proof.Gen.ReferenceIdeal.Read
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Carry

open Cert.KernelIdeal Cert.KernelIdeal.Gen Cert.ReferenceIdeal.Read

variable (m : (ℓ : Loc nD τ sig) → Buf (Elt Ideal) ℓ) (ρ : Dev nD → PrngReg) (c : Dev nD)

/-- The arguments' launch contents on core c. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)
abbrev A8 := m ((c.tc : Thread nD τ).loc main_arg8)
abbrev A9 := m ((c.tc : Thread nD τ).loc main_arg9)
abbrev A10 := m ((c.tc : Thread nD τ).loc main_arg10)

/-! ## After the preamble: indices, degrees, the concatenated features -/

/-- The source indices: row 0 of the edge list. -/
theorem W1_src : W1 m ρ c (Proc.devRef .tc main_v1) = val_main_v1 (F := Ideal) (A2 m c) := by
  dsimp only [W1, hostOps0]; after_results_simp <;> rfl
/-- The target indices: row 1 of the edge list. -/
theorem W1_dst : W1 m ρ c (Proc.devRef .tc main_v3) = val_main_v3 (F := Ideal) (A2 m c) := by
  dsimp only [W1, hostOps0]; after_results_simp <;> rfl
/-- The inverse square root of one plus the in-degree. -/
theorem W1_deg : W1 m ρ c (Proc.devRef .tc main_v10) = val_main_v10 (F := Ideal) (A2 m c) := by
  dsimp only [W1, hostOps0]; after_results_simp <;> rfl
/-- The first eight columns of the two feature arguments, side by side. -/
theorem W1_feat : W1 m ρ c (Proc.devRef .tc main_v13) = val_main_v13 (F := Ideal) (A0 m c) (A1 m c) := by
  dsimp only [W1, hostOps0]; after_results_simp <;> rfl
theorem W1_arg3 : W1 m ρ c (Proc.devRef .tc main_arg3) = A3 m c := by
  dsimp only [W1, hostOps0]; after_results_simp <;> rfl
theorem W1_arg4 : W1 m ρ c (Proc.devRef .tc main_arg4) = A4 m c := by
  dsimp only [W1, hostOps0]; after_results_simp <;> rfl
theorem W1_arg5 : W1 m ρ c (Proc.devRef .tc main_arg5) = A5 m c := by
  dsimp only [W1, hostOps0]; after_results_simp <;> rfl
theorem W1_arg6 : W1 m ρ c (Proc.devRef .tc main_arg6) = A6 m c := by
  dsimp only [W1, hostOps0]; after_results_simp <;> rfl
theorem W1_arg7 : W1 m ρ c (Proc.devRef .tc main_arg7) = A7 m c := by
  dsimp only [W1, hostOps0]; after_results_simp <;> rfl
theorem W1_arg8 : W1 m ρ c (Proc.devRef .tc main_arg8) = A8 m c := by
  dsimp only [W1, hostOps0]; after_results_simp <;> rfl
theorem W1_arg9 : W1 m ρ c (Proc.devRef .tc main_arg9) = A9 m c := by
  dsimp only [W1, hostOps0]; after_results_simp <;> rfl
theorem W1_arg10 : W1 m ρ c (Proc.devRef .tc main_arg10) = A10 m c := by
  dsimp only [W1, hostOps0]; after_results_simp <;> rfl

/-! ## Across each call and each later stretch -/
theorem W2_src : W2 m ρ c (Proc.devRef .tc main_v1) = val_main_v1 (F := Ideal) (A2 m c) :=
  (W2_of_ne m ρ c main_v1 (by decide)).trans (W1_src m ρ c)
theorem W4_src : W4 m ρ c (Proc.devRef .tc main_v1) = val_main_v1 (F := Ideal) (A2 m c) :=
  (W4_of_ne m ρ c main_v1 (by decide)).trans (by dsimp only [W3, hostOps1]; after_results; exact W2_src m ρ c)
theorem W6_src : W6 m ρ c (Proc.devRef .tc main_v1) = val_main_v1 (F := Ideal) (A2 m c) :=
  (W6_of_ne m ρ c main_v1 (by decide)).trans (by dsimp only [W5, hostOps2]; after_results; exact W4_src m ρ c)
theorem W8_src : W8 m ρ c (Proc.devRef .tc main_v1) = val_main_v1 (F := Ideal) (A2 m c) :=
  (W8_of_ne m ρ c main_v1 (by decide)).trans (by dsimp only [W7, hostOps3]; after_results; exact W6_src m ρ c)
theorem W10_src : W10 m ρ c (Proc.devRef .tc main_v1) = val_main_v1 (F := Ideal) (A2 m c) :=
  (W10_of_ne m ρ c main_v1 (by decide)).trans (by dsimp only [W9, hostOps4]; after_results; exact W8_src m ρ c)
theorem W12_src : W12 m ρ c (Proc.devRef .tc main_v1) = val_main_v1 (F := Ideal) (A2 m c) :=
  (W12_of_ne m ρ c main_v1 (by decide)).trans (by dsimp only [W11, hostOps5]; after_results; exact W10_src m ρ c)
theorem W14_src : W14 m ρ c (Proc.devRef .tc main_v1) = val_main_v1 (F := Ideal) (A2 m c) :=
  (W14_of_ne m ρ c main_v1 (by decide)).trans (by dsimp only [W13, hostOps6]; after_results; exact W12_src m ρ c)
theorem W16_src : W16 m ρ c (Proc.devRef .tc main_v1) = val_main_v1 (F := Ideal) (A2 m c) :=
  (W16_of_ne m ρ c main_v1 (by decide)).trans (by dsimp only [W15, hostOps7]; after_results; exact W14_src m ρ c)
theorem W18_src : W18 m ρ c (Proc.devRef .tc main_v1) = val_main_v1 (F := Ideal) (A2 m c) :=
  (W18_of_ne m ρ c main_v1 (by decide)).trans (by dsimp only [W17, hostOps8]; after_results; exact W16_src m ρ c)
theorem W2_dst : W2 m ρ c (Proc.devRef .tc main_v3) = val_main_v3 (F := Ideal) (A2 m c) :=
  (W2_of_ne m ρ c main_v3 (by decide)).trans (W1_dst m ρ c)
theorem W4_dst : W4 m ρ c (Proc.devRef .tc main_v3) = val_main_v3 (F := Ideal) (A2 m c) :=
  (W4_of_ne m ρ c main_v3 (by decide)).trans (by dsimp only [W3, hostOps1]; after_results; exact W2_dst m ρ c)
theorem W6_dst : W6 m ρ c (Proc.devRef .tc main_v3) = val_main_v3 (F := Ideal) (A2 m c) :=
  (W6_of_ne m ρ c main_v3 (by decide)).trans (by dsimp only [W5, hostOps2]; after_results; exact W4_dst m ρ c)
theorem W8_dst : W8 m ρ c (Proc.devRef .tc main_v3) = val_main_v3 (F := Ideal) (A2 m c) :=
  (W8_of_ne m ρ c main_v3 (by decide)).trans (by dsimp only [W7, hostOps3]; after_results; exact W6_dst m ρ c)
theorem W10_dst : W10 m ρ c (Proc.devRef .tc main_v3) = val_main_v3 (F := Ideal) (A2 m c) :=
  (W10_of_ne m ρ c main_v3 (by decide)).trans (by dsimp only [W9, hostOps4]; after_results; exact W8_dst m ρ c)
theorem W12_dst : W12 m ρ c (Proc.devRef .tc main_v3) = val_main_v3 (F := Ideal) (A2 m c) :=
  (W12_of_ne m ρ c main_v3 (by decide)).trans (by dsimp only [W11, hostOps5]; after_results; exact W10_dst m ρ c)
theorem W14_dst : W14 m ρ c (Proc.devRef .tc main_v3) = val_main_v3 (F := Ideal) (A2 m c) :=
  (W14_of_ne m ρ c main_v3 (by decide)).trans (by dsimp only [W13, hostOps6]; after_results; exact W12_dst m ρ c)
theorem W16_dst : W16 m ρ c (Proc.devRef .tc main_v3) = val_main_v3 (F := Ideal) (A2 m c) :=
  (W16_of_ne m ρ c main_v3 (by decide)).trans (by dsimp only [W15, hostOps7]; after_results; exact W14_dst m ρ c)
theorem W18_dst : W18 m ρ c (Proc.devRef .tc main_v3) = val_main_v3 (F := Ideal) (A2 m c) :=
  (W18_of_ne m ρ c main_v3 (by decide)).trans (by dsimp only [W17, hostOps8]; after_results; exact W16_dst m ρ c)
theorem W2_deg : W2 m ρ c (Proc.devRef .tc main_v10) = val_main_v10 (F := Ideal) (A2 m c) :=
  (W2_of_ne m ρ c main_v10 (by decide)).trans (W1_deg m ρ c)
theorem W4_deg : W4 m ρ c (Proc.devRef .tc main_v10) = val_main_v10 (F := Ideal) (A2 m c) :=
  (W4_of_ne m ρ c main_v10 (by decide)).trans (by dsimp only [W3, hostOps1]; after_results; exact W2_deg m ρ c)
theorem W6_deg : W6 m ρ c (Proc.devRef .tc main_v10) = val_main_v10 (F := Ideal) (A2 m c) :=
  (W6_of_ne m ρ c main_v10 (by decide)).trans (by dsimp only [W5, hostOps2]; after_results; exact W4_deg m ρ c)
theorem W8_deg : W8 m ρ c (Proc.devRef .tc main_v10) = val_main_v10 (F := Ideal) (A2 m c) :=
  (W8_of_ne m ρ c main_v10 (by decide)).trans (by dsimp only [W7, hostOps3]; after_results; exact W6_deg m ρ c)
theorem W10_deg : W10 m ρ c (Proc.devRef .tc main_v10) = val_main_v10 (F := Ideal) (A2 m c) :=
  (W10_of_ne m ρ c main_v10 (by decide)).trans (by dsimp only [W9, hostOps4]; after_results; exact W8_deg m ρ c)
theorem W12_deg : W12 m ρ c (Proc.devRef .tc main_v10) = val_main_v10 (F := Ideal) (A2 m c) :=
  (W12_of_ne m ρ c main_v10 (by decide)).trans (by dsimp only [W11, hostOps5]; after_results; exact W10_deg m ρ c)
theorem W14_deg : W14 m ρ c (Proc.devRef .tc main_v10) = val_main_v10 (F := Ideal) (A2 m c) :=
  (W14_of_ne m ρ c main_v10 (by decide)).trans (by dsimp only [W13, hostOps6]; after_results; exact W12_deg m ρ c)
theorem W16_deg : W16 m ρ c (Proc.devRef .tc main_v10) = val_main_v10 (F := Ideal) (A2 m c) :=
  (W16_of_ne m ρ c main_v10 (by decide)).trans (by dsimp only [W15, hostOps7]; after_results; exact W14_deg m ρ c)
theorem W18_deg : W18 m ρ c (Proc.devRef .tc main_v10) = val_main_v10 (F := Ideal) (A2 m c) :=
  (W18_of_ne m ρ c main_v10 (by decide)).trans (by dsimp only [W17, hostOps8]; after_results; exact W16_deg m ρ c)
theorem W2_arg4 : W2 m ρ c (Proc.devRef .tc main_arg4) = A4 m c :=
  (W2_of_ne m ρ c main_arg4 (by decide)).trans (W1_arg4 m ρ c)
theorem W2_arg5 : W2 m ρ c (Proc.devRef .tc main_arg5) = A5 m c :=
  (W2_of_ne m ρ c main_arg5 (by decide)).trans (W1_arg5 m ρ c)
theorem W4_arg5 : W4 m ρ c (Proc.devRef .tc main_arg5) = A5 m c :=
  (W4_of_ne m ρ c main_arg5 (by decide)).trans (by dsimp only [W3, hostOps1]; after_results; exact W2_arg5 m ρ c)
theorem W6_arg5 : W6 m ρ c (Proc.devRef .tc main_arg5) = A5 m c :=
  (W6_of_ne m ρ c main_arg5 (by decide)).trans (by dsimp only [W5, hostOps2]; after_results; exact W4_arg5 m ρ c)
theorem W8_arg5 : W8 m ρ c (Proc.devRef .tc main_arg5) = A5 m c :=
  (W8_of_ne m ρ c main_arg5 (by decide)).trans (by dsimp only [W7, hostOps3]; after_results; exact W6_arg5 m ρ c)
theorem W10_arg5 : W10 m ρ c (Proc.devRef .tc main_arg5) = A5 m c :=
  (W10_of_ne m ρ c main_arg5 (by decide)).trans (by dsimp only [W9, hostOps4]; after_results; exact W8_arg5 m ρ c)
theorem W12_arg5 : W12 m ρ c (Proc.devRef .tc main_arg5) = A5 m c :=
  (W12_of_ne m ρ c main_arg5 (by decide)).trans (by dsimp only [W11, hostOps5]; after_results; exact W10_arg5 m ρ c)
theorem W14_arg5 : W14 m ρ c (Proc.devRef .tc main_arg5) = A5 m c :=
  (W14_of_ne m ρ c main_arg5 (by decide)).trans (by dsimp only [W13, hostOps6]; after_results; exact W12_arg5 m ρ c)
theorem W16_arg5 : W16 m ρ c (Proc.devRef .tc main_arg5) = A5 m c :=
  (W16_of_ne m ρ c main_arg5 (by decide)).trans (by dsimp only [W15, hostOps7]; after_results; exact W14_arg5 m ρ c)
theorem W2_arg6 : W2 m ρ c (Proc.devRef .tc main_arg6) = A6 m c :=
  (W2_of_ne m ρ c main_arg6 (by decide)).trans (W1_arg6 m ρ c)
theorem W4_arg6 : W4 m ρ c (Proc.devRef .tc main_arg6) = A6 m c :=
  (W4_of_ne m ρ c main_arg6 (by decide)).trans (by dsimp only [W3, hostOps1]; after_results; exact W2_arg6 m ρ c)
theorem W6_arg6 : W6 m ρ c (Proc.devRef .tc main_arg6) = A6 m c :=
  (W6_of_ne m ρ c main_arg6 (by decide)).trans (by dsimp only [W5, hostOps2]; after_results; exact W4_arg6 m ρ c)
theorem W8_arg6 : W8 m ρ c (Proc.devRef .tc main_arg6) = A6 m c :=
  (W8_of_ne m ρ c main_arg6 (by decide)).trans (by dsimp only [W7, hostOps3]; after_results; exact W6_arg6 m ρ c)
theorem W10_arg6 : W10 m ρ c (Proc.devRef .tc main_arg6) = A6 m c :=
  (W10_of_ne m ρ c main_arg6 (by decide)).trans (by dsimp only [W9, hostOps4]; after_results; exact W8_arg6 m ρ c)
theorem W12_arg6 : W12 m ρ c (Proc.devRef .tc main_arg6) = A6 m c :=
  (W12_of_ne m ρ c main_arg6 (by decide)).trans (by dsimp only [W11, hostOps5]; after_results; exact W10_arg6 m ρ c)
theorem W14_arg6 : W14 m ρ c (Proc.devRef .tc main_arg6) = A6 m c :=
  (W14_of_ne m ρ c main_arg6 (by decide)).trans (by dsimp only [W13, hostOps6]; after_results; exact W12_arg6 m ρ c)
theorem W16_arg6 : W16 m ρ c (Proc.devRef .tc main_arg6) = A6 m c :=
  (W16_of_ne m ρ c main_arg6 (by decide)).trans (by dsimp only [W15, hostOps7]; after_results; exact W14_arg6 m ρ c)
theorem W2_arg7 : W2 m ρ c (Proc.devRef .tc main_arg7) = A7 m c :=
  (W2_of_ne m ρ c main_arg7 (by decide)).trans (W1_arg7 m ρ c)
theorem W4_arg7 : W4 m ρ c (Proc.devRef .tc main_arg7) = A7 m c :=
  (W4_of_ne m ρ c main_arg7 (by decide)).trans (by dsimp only [W3, hostOps1]; after_results; exact W2_arg7 m ρ c)
theorem W6_arg7 : W6 m ρ c (Proc.devRef .tc main_arg7) = A7 m c :=
  (W6_of_ne m ρ c main_arg7 (by decide)).trans (by dsimp only [W5, hostOps2]; after_results; exact W4_arg7 m ρ c)
theorem W8_arg7 : W8 m ρ c (Proc.devRef .tc main_arg7) = A7 m c :=
  (W8_of_ne m ρ c main_arg7 (by decide)).trans (by dsimp only [W7, hostOps3]; after_results; exact W6_arg7 m ρ c)
theorem W10_arg7 : W10 m ρ c (Proc.devRef .tc main_arg7) = A7 m c :=
  (W10_of_ne m ρ c main_arg7 (by decide)).trans (by dsimp only [W9, hostOps4]; after_results; exact W8_arg7 m ρ c)
theorem W12_arg7 : W12 m ρ c (Proc.devRef .tc main_arg7) = A7 m c :=
  (W12_of_ne m ρ c main_arg7 (by decide)).trans (by dsimp only [W11, hostOps5]; after_results; exact W10_arg7 m ρ c)
theorem W14_arg7 : W14 m ρ c (Proc.devRef .tc main_arg7) = A7 m c :=
  (W14_of_ne m ρ c main_arg7 (by decide)).trans (by dsimp only [W13, hostOps6]; after_results; exact W12_arg7 m ρ c)
theorem W16_arg7 : W16 m ρ c (Proc.devRef .tc main_arg7) = A7 m c :=
  (W16_of_ne m ρ c main_arg7 (by decide)).trans (by dsimp only [W15, hostOps7]; after_results; exact W14_arg7 m ρ c)
theorem W18_arg7 : W18 m ρ c (Proc.devRef .tc main_arg7) = A7 m c :=
  (W18_of_ne m ρ c main_arg7 (by decide)).trans (by dsimp only [W17, hostOps8]; after_results; exact W16_arg7 m ρ c)
theorem W20_arg7 : W20 m ρ c (Proc.devRef .tc main_arg7) = A7 m c :=
  (W20_of_ne m ρ c main_arg7 (by decide)).trans (by dsimp only [W19, hostOps9]; after_results; exact W18_arg7 m ρ c)
theorem W2_arg8 : W2 m ρ c (Proc.devRef .tc main_arg8) = A8 m c :=
  (W2_of_ne m ρ c main_arg8 (by decide)).trans (W1_arg8 m ρ c)
theorem W4_arg8 : W4 m ρ c (Proc.devRef .tc main_arg8) = A8 m c :=
  (W4_of_ne m ρ c main_arg8 (by decide)).trans (by dsimp only [W3, hostOps1]; after_results; exact W2_arg8 m ρ c)
theorem W6_arg8 : W6 m ρ c (Proc.devRef .tc main_arg8) = A8 m c :=
  (W6_of_ne m ρ c main_arg8 (by decide)).trans (by dsimp only [W5, hostOps2]; after_results; exact W4_arg8 m ρ c)
theorem W8_arg8 : W8 m ρ c (Proc.devRef .tc main_arg8) = A8 m c :=
  (W8_of_ne m ρ c main_arg8 (by decide)).trans (by dsimp only [W7, hostOps3]; after_results; exact W6_arg8 m ρ c)
theorem W10_arg8 : W10 m ρ c (Proc.devRef .tc main_arg8) = A8 m c :=
  (W10_of_ne m ρ c main_arg8 (by decide)).trans (by dsimp only [W9, hostOps4]; after_results; exact W8_arg8 m ρ c)
theorem W12_arg8 : W12 m ρ c (Proc.devRef .tc main_arg8) = A8 m c :=
  (W12_of_ne m ρ c main_arg8 (by decide)).trans (by dsimp only [W11, hostOps5]; after_results; exact W10_arg8 m ρ c)
theorem W14_arg8 : W14 m ρ c (Proc.devRef .tc main_arg8) = A8 m c :=
  (W14_of_ne m ρ c main_arg8 (by decide)).trans (by dsimp only [W13, hostOps6]; after_results; exact W12_arg8 m ρ c)
theorem W16_arg8 : W16 m ρ c (Proc.devRef .tc main_arg8) = A8 m c :=
  (W16_of_ne m ρ c main_arg8 (by decide)).trans (by dsimp only [W15, hostOps7]; after_results; exact W14_arg8 m ρ c)
theorem W18_arg8 : W18 m ρ c (Proc.devRef .tc main_arg8) = A8 m c :=
  (W18_of_ne m ρ c main_arg8 (by decide)).trans (by dsimp only [W17, hostOps8]; after_results; exact W16_arg8 m ρ c)
theorem W20_arg8 : W20 m ρ c (Proc.devRef .tc main_arg8) = A8 m c :=
  (W20_of_ne m ρ c main_arg8 (by decide)).trans (by dsimp only [W19, hostOps9]; after_results; exact W18_arg8 m ρ c)
theorem W2_arg9 : W2 m ρ c (Proc.devRef .tc main_arg9) = A9 m c :=
  (W2_of_ne m ρ c main_arg9 (by decide)).trans (W1_arg9 m ρ c)
theorem W4_arg9 : W4 m ρ c (Proc.devRef .tc main_arg9) = A9 m c :=
  (W4_of_ne m ρ c main_arg9 (by decide)).trans (by dsimp only [W3, hostOps1]; after_results; exact W2_arg9 m ρ c)
theorem W6_arg9 : W6 m ρ c (Proc.devRef .tc main_arg9) = A9 m c :=
  (W6_of_ne m ρ c main_arg9 (by decide)).trans (by dsimp only [W5, hostOps2]; after_results; exact W4_arg9 m ρ c)
theorem W8_arg9 : W8 m ρ c (Proc.devRef .tc main_arg9) = A9 m c :=
  (W8_of_ne m ρ c main_arg9 (by decide)).trans (by dsimp only [W7, hostOps3]; after_results; exact W6_arg9 m ρ c)
theorem W10_arg9 : W10 m ρ c (Proc.devRef .tc main_arg9) = A9 m c :=
  (W10_of_ne m ρ c main_arg9 (by decide)).trans (by dsimp only [W9, hostOps4]; after_results; exact W8_arg9 m ρ c)
theorem W12_arg9 : W12 m ρ c (Proc.devRef .tc main_arg9) = A9 m c :=
  (W12_of_ne m ρ c main_arg9 (by decide)).trans (by dsimp only [W11, hostOps5]; after_results; exact W10_arg9 m ρ c)
theorem W14_arg9 : W14 m ρ c (Proc.devRef .tc main_arg9) = A9 m c :=
  (W14_of_ne m ρ c main_arg9 (by decide)).trans (by dsimp only [W13, hostOps6]; after_results; exact W12_arg9 m ρ c)
theorem W16_arg9 : W16 m ρ c (Proc.devRef .tc main_arg9) = A9 m c :=
  (W16_of_ne m ρ c main_arg9 (by decide)).trans (by dsimp only [W15, hostOps7]; after_results; exact W14_arg9 m ρ c)
theorem W18_arg9 : W18 m ρ c (Proc.devRef .tc main_arg9) = A9 m c :=
  (W18_of_ne m ρ c main_arg9 (by decide)).trans (by dsimp only [W17, hostOps8]; after_results; exact W16_arg9 m ρ c)
theorem W20_arg9 : W20 m ρ c (Proc.devRef .tc main_arg9) = A9 m c :=
  (W20_of_ne m ρ c main_arg9 (by decide)).trans (by dsimp only [W19, hostOps9]; after_results; exact W18_arg9 m ρ c)
theorem W2_arg10 : W2 m ρ c (Proc.devRef .tc main_arg10) = A10 m c :=
  (W2_of_ne m ρ c main_arg10 (by decide)).trans (W1_arg10 m ρ c)
theorem W4_arg10 : W4 m ρ c (Proc.devRef .tc main_arg10) = A10 m c :=
  (W4_of_ne m ρ c main_arg10 (by decide)).trans (by dsimp only [W3, hostOps1]; after_results; exact W2_arg10 m ρ c)
theorem W6_arg10 : W6 m ρ c (Proc.devRef .tc main_arg10) = A10 m c :=
  (W6_of_ne m ρ c main_arg10 (by decide)).trans (by dsimp only [W5, hostOps2]; after_results; exact W4_arg10 m ρ c)
theorem W8_arg10 : W8 m ρ c (Proc.devRef .tc main_arg10) = A10 m c :=
  (W8_of_ne m ρ c main_arg10 (by decide)).trans (by dsimp only [W7, hostOps3]; after_results; exact W6_arg10 m ρ c)
theorem W10_arg10 : W10 m ρ c (Proc.devRef .tc main_arg10) = A10 m c :=
  (W10_of_ne m ρ c main_arg10 (by decide)).trans (by dsimp only [W9, hostOps4]; after_results; exact W8_arg10 m ρ c)
theorem W12_arg10 : W12 m ρ c (Proc.devRef .tc main_arg10) = A10 m c :=
  (W12_of_ne m ρ c main_arg10 (by decide)).trans (by dsimp only [W11, hostOps5]; after_results; exact W10_arg10 m ρ c)
theorem W14_arg10 : W14 m ρ c (Proc.devRef .tc main_arg10) = A10 m c :=
  (W14_of_ne m ρ c main_arg10 (by decide)).trans (by dsimp only [W13, hostOps6]; after_results; exact W12_arg10 m ρ c)
theorem W16_arg10 : W16 m ρ c (Proc.devRef .tc main_arg10) = A10 m c :=
  (W16_of_ne m ρ c main_arg10 (by decide)).trans (by dsimp only [W15, hostOps7]; after_results; exact W14_arg10 m ρ c)
theorem W18_arg10 : W18 m ρ c (Proc.devRef .tc main_arg10) = A10 m c :=
  (W18_of_ne m ρ c main_arg10 (by decide)).trans (by dsimp only [W17, hostOps8]; after_results; exact W16_arg10 m ρ c)
theorem W20_arg10 : W20 m ρ c (Proc.devRef .tc main_arg10) = A10 m c :=
  (W20_of_ne m ρ c main_arg10 (by decide)).trans (by dsimp only [W19, hostOps9]; after_results; exact W18_arg10 m ρ c)
theorem W21_arg7 : W21 m ρ c (Proc.devRef .tc main_arg7) = A7 m c := by
  dsimp only [W21, hostOps10]; after_results; exact W20_arg7 m ρ c
theorem W21_arg9 : W21 m ρ c (Proc.devRef .tc main_arg9) = A9 m c := by
  dsimp only [W21, hostOps10]; after_results; exact W20_arg9 m ρ c

end Cert.KernelIdeal.Carry

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.DenseIn.lean ====
/-
  The input layer's linear map, as one function of whole arrays: the product of the [100000,16] feature matrix and
  the [16,128] weight, entry (p, j) the sum over q of h (p, q) * w (q, j). The kernel's body is this product on a block
  of 5000 rows (a matmul into a zero accumulator; rounding the operands to another float format is the identity on the
  extended reals), and the host's dot_general over the one contracted axis is the same sum.
-/
import proofs.«176345_j15290083574239_1_alg».proof.KernelIdeal
import proofs.«176345_j15290083574239_1_alg».proof.Proof.Gen.KernelIdeal.Skeleton
import proofs.«176345_j15290083574239_1_alg».proof.Proof.LibPlainDot
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.DenseIn

open Cert.KernelIdeal Cert.KernelIdeal.Gen

/-- The product of a [100000,16] matrix and a [16,128] matrix on the extended reals, entry by entry. -/
def prod (h : S100000x16.Idx → EReal) (w : S16x128.Idx → EReal) : S100000x128.Idx → EReal :=
  fun i => ∑ q : Fin 16, h (ix2 (i 0) q) * w (ix2 q (i 1))

/-- The body's value at entry (p, j) of its block: row p of the loaded rows against column j of the weight. -/
theorem body_apply (x0 : Vec Ideal S5000x16 .f32) (x1 : Vec Ideal S16x128 .f32) (p : Fin 5000) (j : Fin 128) :
    k0_pay1 (F := Ideal) x0 x1 (ix2 p j) = ∑ q : Fin 16, x0 (ix2 p q) * x1 (ix2 q j) := by
  unfold k0_pay1
  simp only [shapeCast_self]
  exact Cert.PlainDot.matmul_zero_ix2 _ rfl none _ _ p j

/-- The host's dot_general of the two matrices is the product. -/
theorem prod_host (D : DotDims S100000x16 S16x128 S100000x128) (hD : D = DotDims.plain 100000 16 128)
    (h : FVec Ideal S100000x16 .f32) (w : FVec Ideal S16x128 .f32) :
    Host.dotGeneral D none h w = prod h w := by
  funext i
  obtain ⟨p, j, rfl⟩ : ∃ (p : Fin 100000) (j : Fin 128), i = ix2 p j := ⟨i 0, i 1, eq_ix2 i⟩
  rw [Cert.PlainDot.dotGeneral_ix2 D hD none h w p j]
  rfl

end Cert.KernelIdeal.DenseIn

end
-- ==== Proof.LinearIn.lean ====
/-
  The input layer's linear map: the pallas_call multiplies the [100000,16] feature matrix by the [16,128] weight, 5000
  rows per grid point. Each point's output block is the product of its rows with the whole weight, the twenty row
  blocks tile the result, so the result array is the whole matrix product of the two arrays as the call finds them.
-/
import proofs.«176345_j15290083574239_1_alg».proof.Proof.Gen.KernelIdeal.Frame
import proofs.«176345_j15290083574239_1_alg».proof.Proof.DenseIn
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.LinearIn

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where the grid's index maps send point t: row block t of the activations and of the result, the whole weight. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row y of point t's feature block is row 5000 t + y of the feature matrix. -/
theorem rows_block (c : Dev nD) (t : Fin cfg0.N) (y : S5000x16.Idx) (k : S100000x16.Idx)
    (hk0 : (k 0).val = t.val * 5000 + (y 0).val) (hk1 : (k 1).val = (y 1).val) :
    (iblk0 V c 0 t : Vec Ideal S5000x16 .f32) y = (V c main_v13 : S100000x16.Idx → EReal) k := by
  have e := index_maps t
  unfold iblk0
  rw [View.read_apply]
  show (V c main_v13 : S100000x16.Idx → EReal) _ = _
  refine congrArg (V c main_v13 : S100000x16.Idx → EReal) (funext fun a => Fin.ext ?_)
  match a with
  | ⟨0, _⟩ => show win0_0.index t 0 * 5000 + 1 * (y 0).val = (k 0).val; rw [e.1, hk0]; omega
  | ⟨1, _⟩ => show win0_0.index t 1 * 16 + 1 * (y 1).val = (k 1).val; rw [e.2.1, hk1]; omega

/-- Every point's weight block is the whole weight. -/
theorem weight_block (c : Dev nD) (t : Fin cfg0.N) (y : S16x128.Idx) (k : S16x128.Idx)
    (hk0 : (k 0).val = (y 0).val) (hk1 : (k 1).val = (y 1).val) :
    (iblk0 V c 1 t : Vec Ideal S16x128 .f32) y = (V c main_arg3 : S16x128.Idx → EReal) k := by
  have e := index_maps t
  unfold iblk0
  rw [View.read_apply]
  show (V c main_arg3 : S16x128.Idx → EReal) _ = _
  refine congrArg (V c main_arg3 : S16x128.Idx → EReal) (funext fun a => Fin.ext ?_)
  match a with
  | ⟨0, _⟩ => show win0_1.index t 0 * 16 + 1 * (y 0).val = (k 0).val; rw [e.2.2.1, hk0]; omega
  | ⟨1, _⟩ => show win0_1.index t 1 * 128 + 1 * (y 1).val = (k 1).val; rw [e.2.2.2.1, hk1]; omega

/-- What point t writes back is block t of the whole product. -/
theorem flushed_eq (c : Dev nD) (t : Fin cfg0.N) :
    (dat0 V c).flushed 2 t = ((cfg0.win 2).blk t).view.read (Elt Ideal) (DenseIn.prod (V c main_v13) (V c main_arg3)) := by
  show (cfg0.win 2).cut (grid0.coords t) ((dat0 V c).after 2 t) = _
  rw [after0_2]
  unfold out0_2
  rw [View.canon_unit_zero zero_offsets]
  simp only [View.ld_unit_zero (S := S5000x16) zero_offsets, View.ld_unit_zero (S := S16x128) zero_offsets]
  have e := index_maps t
  funext y
  rw [View.read_apply]
  have hy : (y : S5000x128.Idx) = ix2 (y 0) (y 1) := eq_ix2 y
  show k0_pay1 (F := Ideal) (iblk0 V c 0 t) (iblk0 V c 1 t) y = DenseIn.prod (V c main_v13) (V c main_arg3) (((cfg0.win 2).blk t).view.emb y)
  rw [hy]
  refine (DenseIn.body_apply _ _ (y 0) (y 1)).trans ?_
  unfold DenseIn.prod
  have hrow : (((cfg0.win 2).blk t).view.emb (ix2 (y 0) (y 1)) 0).val = t.val * 5000 + (y 0).val := by
    show win0_2.index t 0 * 5000 + 1 * (y 0).val = _; rw [e.2.2.2.2.1]; omega
  have hcol : (((cfg0.win 2).blk t).view.emb (ix2 (y 0) (y 1)) 1).val = (y 1).val := by
    show win0_2.index t 1 * 128 + 1 * (y 1).val = _; rw [e.2.2.2.2.2]; omega
  refine Finset.sum_congr rfl fun q _ => ?_
  refine congrArg₂ (· * ·) ?_ ?_
  · exact rows_block V c t _ _ hrow rfl
  · exact weight_block V c t _ _ rfl hcol

/-- An index of the result is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v14).slice (win0_2.rect t)).set ↔ _
  rw [View.set_slice_whole, Rect.mem_set_unit]
  exact Iff.rfl

/-- Row r of the result lies in the block of point r / 5000: the twenty row blocks tile the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have e := index_maps t
  refine ⟨t, flush0_2 t, ?_⟩
  rw [mem_block]
  intro a
  match a with
  | ⟨0, _⟩ => show win0_2.index t 0 * 5000 ≤ (i 0).val ∧ (i 0).val < win0_2.index t 0 * 5000 + 5000; rw [e.2.2.2.2.1]; show (i 0).val / 5000 * 5000 ≤ _ ∧ _ < (i 0).val / 5000 * 5000 + 5000; omega
  | ⟨1, _⟩ => show win0_2.index t 1 * 128 ≤ (i 1).val ∧ (i 1).val < win0_2.index t 1 * 128 + 128; rw [e.2.2.2.2.2]; omega

/-- The result array after the call: the product of the activations and the weight as the call finds them. -/
theorem result (c : Dev nD) :
    (dat0 V c).arrAt 2 cfg0.N = DenseIn.prod (V c main_v13) (V c main_arg3) :=
  (dat0 V c).arrAt_eq_of_cover 2 (DenseIn.prod (V c main_v13) (V c main_arg3)) (fun t _ => flushed_eq V c t) cover

end Cert.KernelIdeal.LinearIn

end
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.LibRowReshape.lean ====
/-
  A vector [b] reshaped to a one-row matrix [1, b], read at an index written by coordinates: the row's entry j is the
  vector's entry j.  General lemma: any element type, any extent.
-/
import Idealize.ShloMosaic.Lib.Pipeline.Value
import Idealize.ShloMosaic.Lib.ValueIdx

namespace Cert.LibRowReshape

open Idealize.ShloMosaic Idealize.ShloMosaic.ValueIdx

/-- A vector reshaped to a one-row matrix reads, at (0, j), the vector's entry j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]
    omega)

end Cert.LibRowReshape
-- ==== Proof.Epilogue.lean ====
/-
  The epilogue of a graph-convolution layer, as one function of whole arrays. With agg the normalized sum over
  incoming edges, hw the transformed features, d the column of inverse square-root degrees and b the bias row, the
  layer's embedding at (p, j) is
      agg (p, j) + hw (p, j) * (d p * d p) + b j
  (the self-loop's weight is the square of the node's inverse root degree), and the activation is its maximum with
  zero. The kernel's body computes exactly this on a block of 5000 rows; the host program computes it with broadcasts
  of the squared vector and of the bias. Both are read here entry by entry.
-/
import proofs.«176345_j15290083574239_1_alg».proof.KernelIdeal
import proofs.«176345_j15290083574239_1_alg».proof.Proof.Gen.KernelIdeal.Skeleton
import proofs.«176345_j15290083574239_1_alg».proof.Proof.LibColBroadcast
import proofs.«176345_j15290083574239_1_alg».proof.Proof.LibRowBroadcast
import proofs.«176345_j15290083574239_1_alg».proof.Proof.LibMatrixLayout
import proofs.«176345_j15290083574239_1_alg».proof.Proof.LibRowReshape
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Epilogue

open Cert.KernelIdeal Cert.KernelIdeal.Gen

/-- The zero the activation is taken against. -/
abbrev zero : EReal := Scalar.ofBits (F := Ideal) .f32 0x00000000#32

/-- The layer's embedding from whole arrays: aggregation, plus the self-loop's share, plus the bias. -/
def emb (agg hw : S100000x128.Idx → EReal) (d : S100000x1.Idx → EReal) (b : S1x128.Idx → EReal) : S100000x128.Idx → EReal :=
  fun i => agg i + hw i * (d (ix2 (i 0) (0 : Fin 1)) * d (ix2 (i 0) (0 : Fin 1))) + b (ix2 (0 : Fin 1) (i 1))

/-- The layer's activation: the embedding's maximum with zero. -/
def act (agg hw : S100000x128.Idx → EReal) (d : S100000x1.Idx → EReal) (b : S1x128.Idx → EReal) : S100000x128.Idx → EReal :=
  fun i => max (emb agg hw d b i) zero

/-- The body's first stored value at entry (p, j) of a 5000-row block. -/
theorem body_emb (v0 : Vec Ideal S5000x1 .f32) (v3 v5 : Vec Ideal S5000x128 .f32) (v10 : Vec Ideal S1x128 .f32)
    (p : Fin 5000) (j : Fin 128) :
    k1_pay1 (F := Ideal) v0 v3 v5 v10 (ix2 p j)
      = v3 (ix2 p j) + v5 (ix2 p j) * (v0 (ix2 p (0 : Fin 1)) * v0 (ix2 p (0 : Fin 1))) + v10 (ix2 (0 : Fin 1) j) := by
  unfold k1_pay1
  simp only [shapeCast_self]
  rw [addf_apply, addf_apply, mulf_apply, Cert.LibColBroadcast.broadcastTo_a1_ab_apply, mulf_apply,
    Cert.LibRowBroadcast.broadcastTo_1b_ab_apply]

/-- The body's second stored value: the first one's maximum with zero. -/
theorem body_act (v0 : Vec Ideal S5000x1 .f32) (v3 v5 : Vec Ideal S5000x128 .f32) (v10 : Vec Ideal S1x128 .f32)
    (p : Fin 5000) (j : Fin 128) :
    k1_pay2 (F := Ideal) v0 v3 v5 v10 (ix2 p j) = max (k1_pay1 (F := Ideal) v0 v3 v5 v10 (ix2 p j)) zero := by
  unfold k1_pay2
  rfl

/-- The host's spelling of the embedding — the squared vector broadcast to a column and across the rows, the bias
    broadcast to a row and down the columns — is `emb` of the vector reshaped to a column and the bias to a row. -/
theorem emb_host (agg hw : FVec Ideal S100000x128 .f32) (dis : FVec Ideal S100000 .f32) (b : FVec Ideal S128 .f32)
    (h1 : S100000.BroadcastsInDim S100000x1 ![0]) (h2 : S100000x1.BroadcastsInDim S100000x128 ![0, 1])
    (h3 : S128.BroadcastsInDim S1x128 ![1]) (h4 : S1x128.BroadcastsInDim S100000x128 ![0, 1])
    (c1 : S100000.ShapeCasts S100000x1) (c2 : S128.ShapeCasts S1x128) :
    addf (addf agg (mulf hw (broadcastInDim S100000x128 ![0, 1] h2 (broadcastInDim S100000x1 ![0] h1 (mulf dis dis)))))
        (broadcastInDim S100000x128 ![0, 1] h4 (broadcastInDim S1x128 ![1] h3 b))
      = emb agg hw (shapeCast S100000x1 dis c1) (shapeCast S1x128 b c2) := by
  funext i
  obtain ⟨p, j, rfl⟩ : ∃ (p : Fin 100000) (j : Fin 128), i = ix2 p j := ⟨i 0, i 1, eq_ix2 i⟩
  unfold emb
  rw [addf_apply, addf_apply, mulf_apply, Cert.LibMatrixLayout.bcast_a1_ab_apply, Cert.LibMatrixLayout.bcast_a_a1_apply,
    mulf_apply, Cert.LibMatrixLayout.bcast_1b_ab_apply, Cert.LibMatrixLayout.bcast_b_1b_apply]
  have e0 : (ix2 p j : S100000x128.Idx) 0 = p := rfl
  have e1 : (ix2 p j : S100000x128.Idx) 1 = j := rfl
  rw [e0, e1, Cert.LibMatrixLayout.shapeCast_a_a1_apply, Cert.LibRowReshape.shapeCast_b_1b_apply]

/-- The host's activation — the maximum with a broadcast zero — is `act`. -/
theorem act_host (agg hw : S100000x128.Idx → EReal) (d : S100000x1.Idx → EReal) (b : S1x128.Idx → EReal)
    (h0 : S_.BroadcastsInDim S100000x128 ![]) :
    maximumf (F := Ideal) (φ := .f32) (emb agg hw d b) (broadcastInDim S100000x128 ![] h0 (constant (F := Ideal) S_ .f32 0x00000000#32))
      = act agg hw d b := by
  funext i
  unfold act
  rw [maximumf_apply, Cert.LibMatrixLayout.bcast_scalar_apply]
  rfl

end Cert.KernelIdeal.Epilogue

end
-- ==== Proof.Epilogue0.lean ====
/-
  Layer 0's epilogue: the pallas_call adds, to the aggregation over incoming edges, each node's own transformed
  features weighted by the square of its inverse root degree, then the bias, and stores that embedding and its maximum
  with zero, 5000 rows per grid point. The row blocks tile both results, so each result array is the epilogue's
  function (`Epilogue.emb`, `Epilogue.act`) of the four arrays as the call finds them.
-/
import proofs.«176345_j15290083574239_1_alg».proof.Proof.Gen.KernelIdeal.Frame
import proofs.«176345_j15290083574239_1_alg».proof.Proof.Epilogue
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Epilogue0

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where the grid's index maps send point t: row block t of the aggregation, of the transformed features, of the
    degree column and of both results; the whole bias row. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row y of point t's aggregation block is row 5000 t + y of the aggregation. -/
theorem agg_block (c : Dev nD) (t : Fin cfg1.N) (y : S5000x128.Idx) (k : S100000x128.Idx)
    (hk0 : (k 0).val = t.val * 5000 + (y 0).val) (hk1 : (k 1).val = (y 1).val) :
    (iblk1 V c 0 t : Vec Ideal S5000x128 .f32) y = (V c main_v42 : S100000x128.Idx → EReal) k := by
  have e := index_maps t
  unfold iblk1
  rw [View.read_apply]
  show (V c main_v42 : S100000x128.Idx → EReal) _ = _
  refine congrArg (V c main_v42 : S100000x128.Idx → EReal) (funext fun a => Fin.ext ?_)
  match a with
  | ⟨0, _⟩ => show win1_0.index t 0 * 5000 + 1 * (y 0).val = (k 0).val; rw [e.1, hk0]; omega
  | ⟨1, _⟩ => show win1_0.index t 1 * 128 + 1 * (y 1).val = (k 1).val; rw [e.2.1, hk1]; omega

/-- Row y of point t's block of transformed features is row 5000 t + y of them. -/
theorem hw_block (c : Dev nD) (t : Fin cfg1.N) (y : S5000x128.Idx) (k : S100000x128.Idx)
    (hk0 : (k 0).val = t.val * 5000 + (y 0).val) (hk1 : (k 1).val = (y 1).val) :
    (iblk1 V c 1 t : Vec Ideal S5000x128 .f32) y = (V c main_v14 : S100000x128.Idx → EReal) k := by
  have e := index_maps t
  unfold iblk1
  rw [View.read_apply]
  show (V c main_v14 : S100000x128.Idx → EReal) _ = _
  refine congrArg (V c main_v14 : S100000x128.Idx → EReal) (funext fun a => Fin.ext ?_)
  match a with
  | ⟨0, _⟩ => show win1_1.index t 0 * 5000 + 1 * (y 0).val = (k 0).val; rw [e.2.2.1, hk0]; omega
  | ⟨1, _⟩ => show win1_1.index t 1 * 128 + 1 * (y 1).val = (k 1).val; rw [e.2.2.2.1, hk1]; omega

/-- Entry y of point t's block of the degree column is entry 5000 t + y of the column. -/
theorem deg_block (c : Dev nD) (t : Fin cfg1.N) (y : S5000x1.Idx) (k : S100000x1.Idx)
    (hk0 : (k 0).val = t.val * 5000 + (y 0).val) (hk1 : (k 1).val = (y 1).val) :
    (iblk1 V c 2 t : Vec Ideal S5000x1 .f32) y = (V c main_v43 : S100000x1.Idx → EReal) k := by
  have e := index_maps t
  unfold iblk1
  rw [View.read_apply]
  show (V c main_v43 : S100000x1.Idx → EReal) _ = _
  refine congrArg (V c main_v43 : S100000x1.Idx → EReal) (funext fun a => Fin.ext ?_)
  match a with
  | ⟨0, _⟩ => show win1_2.index t 0 * 5000 + 1 * (y 0).val = (k 0).val; rw [e.2.2.2.2.1, hk0]; omega
  | ⟨1, _⟩ => show win1_2.index t 1 * 1 + 1 * (y 1).val = (k 1).val; rw [e.2.2.2.2.2.1, hk1]; omega

/-- Every point's bias block is the whole bias row. -/
theorem bias_block (c : Dev nD) (t : Fin cfg1.N) (y : S1x128.Idx) (k : S1x128.Idx)
    (hk0 : (k 0).val = (y 0).val) (hk1 : (k 1).val = (y 1).val) :
    (iblk1 V c 3 t : Vec Ideal S1x128 .f32) y = (V c main_v44 : S1x128.Idx → EReal) k := by
  have e := index_maps t
  unfold iblk1
  rw [View.read_apply]
  show (V c main_v44 : S1x128.Idx → EReal) _ = _
  refine congrArg (V c main_v44 : S1x128.Idx → EReal) (funext fun a => Fin.ext ?_)
  match a with
  | ⟨0, _⟩ => show win1_3.index t 0 * 1 + 1 * (y 0).val = (k 0).val; rw [e.2.2.2.2.2.2.1, hk0]; omega
  | ⟨1, _⟩ => show win1_3.index t 1 * 128 + 1 * (y 1).val = (k 1).val; rw [e.2.2.2.2.2.2.2.1, hk1]; omega

/-- What point t writes back to the embedding is block t of `Epilogue.emb` of the four arrays. -/
theorem flushed_emb (c : Dev nD) (t : Fin cfg1.N) :
    (dat1 V c).flushed 4 t = ((cfg1.win 4).blk t).view.read (Elt Ideal) (Epilogue.emb (V c main_v42) (V c main_v14) (V c main_v43) (V c main_v44)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets, View.ld_unit_zero (S := S1x128) zero_offsets]
  have e := index_maps t
  funext y
  rw [View.read_apply]
  have hy : (y : S5000x128.Idx) = ix2 (y 0) (y 1) := eq_ix2 y
  show k1_pay1 (F := Ideal) (iblk1 V c 2 t) (iblk1 V c 0 t) (iblk1 V c 1 t) (iblk1 V c 3 t) y = Epilogue.emb (V c main_v42) (V c main_v14) (V c main_v43) (V c main_v44) (((cfg1.win 4).blk t).view.emb y)
  rw [hy]
  have hrow : (((cfg1.win 4).blk t).view.emb (ix2 (y 0) (y 1)) 0).val = t.val * 5000 + (y 0).val := by
    show win1_4.index t 0 * 5000 + 1 * (y 0).val = _; rw [e.2.2.2.2.2.2.2.2.1]; omega
  have hcol : (((cfg1.win 4).blk t).view.emb (ix2 (y 0) (y 1)) 1).val = (y 1).val := by
    show win1_4.index t 1 * 128 + 1 * (y 1).val = _; rw [e.2.2.2.2.2.2.2.2.2.1]; omega
  refine (Epilogue.body_emb _ _ _ _ (y 0) (y 1)).trans ?_
  unfold Epilogue.emb
  refine congrArg₂ (· + ·) (congrArg₂ (· + ·) ?_ (congrArg₂ (· * ·) ?_ (congrArg₂ (· * ·) ?_ ?_))) ?_
  · exact agg_block V c t _ _ hrow hcol
  · exact hw_block V c t _ _ hrow hcol
  · exact deg_block V c t _ _ hrow rfl
  · exact deg_block V c t _ _ hrow rfl
  · exact bias_block V c t _ _ rfl hcol

/-- What point t writes back to the activation is block t of `Epilogue.act` of the four arrays. -/
theorem flushed_act (c : Dev nD) (t : Fin cfg1.N) :
    (dat1 V c).flushed 5 t = ((cfg1.win 5).blk t).view.read (Elt Ideal) (Epilogue.act (V c main_v42) (V c main_v14) (V c main_v43) (V c main_v44)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S5000x1) zero_offsets, View.ld_unit_zero (S := S1x128) zero_offsets]
  have e := index_maps t
  funext y
  rw [View.read_apply]
  have hy : (y : S5000x128.Idx) = ix2 (y 0) (y 1) := eq_ix2 y
  show k1_pay2 (F := Ideal) (iblk1 V c 2 t) (iblk1 V c 0 t) (iblk1 V c 1 t) (iblk1 V c 3 t) y = Epilogue.act (V c main_v42) (V c main_v14) (V c main_v43) (V c main_v44) (((cfg1.win 5).blk t).view.emb y)
  rw [hy]
  have hrow : (((cfg1.win 5).blk t).view.emb (ix2 (y 0) (y 1)) 0).val = t.val * 5000 + (y 0).val := by
    show win1_5.index t 0 * 5000 + 1 * (y 0).val = _; rw [e.2.2.2.2.2.2.2.2.2.2.1]; omega
  have hcol : (((cfg1.win 5).blk t).view.emb (ix2 (y 0) (y 1)) 1).val = (y 1).val := by
    show win1_5.index t 1 * 128 + 1 * (y 1).val = _; rw [e.2.2.2.2.2.2.2.2.2.2.2]; omega
  refine (Epilogue.body_act _ _ _ _ (y 0) (y 1)).trans ?_
  unfold Epilogue.act
  refine congrArg₂ max ?_ rfl
  refine (Epilogue.body_emb _ _ _ _ (y 0) (y 1)).trans ?_
  unfold Epilogue.emb
  refine congrArg₂ (· + ·) (congrArg₂ (· + ·) ?_ (congrArg₂ (· * ·) ?_ (congrArg₂ (· * ·) ?_ ?_))) ?_
  · exact agg_block V c t _ _ hrow hcol
  · exact hw_block V c t _ _ hrow hcol
  · exact deg_block V c t _ _ hrow rfl
  · exact deg_block V c t _ _ hrow rfl
  · exact bias_block V c t _ _ rfl hcol

/-- An index of the result is in point t's block iff each coordinate is in the block's range on its axis. -/
theorem mem_block_emb (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v45_0).slice (win1_4.rect t)).set ↔ _
  rw [View.set_slice_whole, Rect.mem_set_unit]
  exact Iff.rfl

/-- Row r of the result lies in the block of point r / 5000: the twenty row blocks tile the array. -/
theorem cover_emb (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have e := index_maps t
  refine ⟨t, flush1_4 t, ?_⟩
  rw [mem_block_emb]
  intro a
  match a with
  | ⟨0, _⟩ => show win1_4.index t 0 * 5000 ≤ (i 0).val ∧ (i 0).val < win1_4.index t 0 * 5000 + 5000; rw [e.2.2.2.2.2.2.2.2.1]; show (i 0).val / 5000 * 5000 ≤ _ ∧ _ < (i 0).val / 5000 * 5000 + 5000; omega
  | ⟨1, _⟩ => show win1_4.index t 1 * 128 ≤ (i 1).val ∧ (i 1).val < win1_4.index t 1 * 128 + 128; rw [e.2.2.2.2.2.2.2.2.2.1]; omega

/-- An index of the result is in point t's block iff each coordinate is in the block's range on its axis. -/
theorem mem_block_act (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45_1).slice (win1_5.rect t)).set ↔ _
  rw [View.set_slice_whole, Rect.mem_set_unit]
  exact Iff.rfl

/-- Row r of the result lies in the block of point r / 5000: the twenty row blocks tile the array. -/
theorem cover_act (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have e := index_maps t
  refine ⟨t, flush1_5 t, ?_⟩
  rw [mem_block_act]
  intro a
  match a with
  | ⟨0, _⟩ => show win1_5.index t 0 * 5000 ≤ (i 0).val ∧ (i 0).val < win1_5.index t 0 * 5000 + 5000; rw [e.2.2.2.2.2.2.2.2.2.2.1]; show (i 0).val / 5000 * 5000 ≤ _ ∧ _ < (i 0).val / 5000 * 5000 + 5000; omega
  | ⟨1, _⟩ => show win1_5.index t 1 * 128 ≤ (i 1).val ∧ (i 1).val < win1_5.index t 1 * 128 + 128; rw [e.2.2.2.2.2.2.2.2.2.2.2]; omega

/-- The embedding array after the call. -/
theorem result_emb (c : Dev nD) :
    (dat1 V c).arrAt 4 cfg1.N = Epilogue.emb (V c main_v42) (V c main_v14) (V c main_v43) (V c main_v44) :=
  (dat1 V c).arrAt_eq_of_cover 4 _ (fun t _ => flushed_emb V c t) cover_emb

/-- The activation array after the call. -/
theorem result_act (c : Dev nD) :
    (dat1 V c).arrAt 5 cfg1.N = Epilogue.act (V c main_v42) (V c main_v14) (V c main_v43) (V c main_v44) :=
  (dat1 V c).arrAt_eq_of_cover 5 _ (fun t _ => flushed_act V c t) cover_act

end Cert.KernelIdeal.Epilogue0

end
-- ==== Proof.EpilogueHost.lean ====
/-
  The host's activation of a layer, spelt in full — the maximum with a broadcast zero of the aggregation plus the
  self-loop share plus the bias — is the epilogue's activation function of the degree vector reshaped to a column and the
  bias reshaped to a row.
-/
import proofs.«176345_j15290083574239_1_alg».proof.Proof.Epilogue

noncomputable section

open Idealize.ShloMosaic Idealize.ShloMosaic.ValueIdx

namespace Cert.KernelIdeal.Epilogue

open Cert.KernelIdeal

theorem act_of_host (agg hw : FVec Ideal S100000x128 .f32) (dis : FVec Ideal S100000 .f32) (b : FVec Ideal S128 .f32)
    (h1 : S100000.BroadcastsInDim S100000x1 ![0]) (h2 : S100000x1.BroadcastsInDim S100000x128 ![0, 1])
    (h3 : S128.BroadcastsInDim S1x128 ![1]) (h4 : S1x128.BroadcastsInDim S100000x128 ![0, 1])
    (c1 : S100000.ShapeCasts S100000x1) (c2 : S128.ShapeCasts S1x128) (h0 : S_.BroadcastsInDim S100000x128 ![]) :
    maximumf (F := Ideal) (φ := .f32)
        (addf (addf agg (mulf hw (broadcastInDim S100000x128 ![0, 1] h2 (broadcastInDim S100000x1 ![0] h1 (mulf dis dis)))))
          (broadcastInDim S100000x128 ![0, 1] h4 (broadcastInDim S1x128 ![1] h3 b)))
        (broadcastInDim S100000x128 ![] h0 (constant (F := Ideal) S_ .f32 0x00000000#32))
      = act agg hw (shapeCast S100000x1 dis c1) (shapeCast S1x128 b c2) := by
  rw [emb_host agg hw dis b h1 h2 h3 h4 c1 c2]
  exact act_host _ _ _ _ h0

end Cert.KernelIdeal.Epilogue

end
-- ==== Proof.Layer0.lean ====
/-
  Layer 0 of the network in the kernel program, value by value: the linear call's product, the aggregation the host
  computes from it over the edges, the epilogue call's embedding and activation. Each is shown equal to the reference
  program's stage of the same computation: the host operations are the same operations on equal operands, a linear
  call's result array is the host's dot_general, and an epilogue call's two result arrays are the host's broadcasts,
  products, sums and maximum.
-/
import proofs.«176345_j15290083574239_1_alg».proof.Proof.Gen.KernelIdeal.Frame
import proofs.«176345_j15290083574239_1_alg».proof.Proof.Gen.ReferenceIdeal.Read
import proofs.«176345_j15290083574239_1_alg».proof.Proof.Carry
import proofs.«176345_j15290083574239_1_alg».proof.Proof.LinearIn
import proofs.«176345_j15290083574239_1_alg».proof.Proof.Epilogue0
import proofs.«176345_j15290083574239_1_alg».proof.Proof.EpilogueHost
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Layer0

open Cert.KernelIdeal Cert.KernelIdeal.Gen Cert.ReferenceIdeal.Read
open Cert.KernelIdeal.Carry

variable (m : (ℓ : Loc nD τ sig) → Buf (Elt Ideal) ℓ) (ρ : Dev nD → PrngReg) (c : Dev nD)

/-- The linear call's two operands as it finds them. -/
theorem entry_in : W1 m ρ c (Proc.devRef .tc main_v13) = val_main_v13 (F := Ideal) (A0 m c) (A1 m c) := W1_feat m ρ c
theorem entry_weight : W1 m ρ c (Proc.devRef .tc main_arg3) = A3 m c := W1_arg3 m ρ c
theorem exit_bias : W2 m ρ c (Proc.devRef .tc main_arg4) = A4 m c := W2_arg4 m ρ c

/-- The linear call's result array is the reference's dot_general of the same operands. -/
theorem exit_hw : W2 m ρ c (Proc.devRef .tc main_v14) = val_main_v14 (F := Ideal) (A0 m c) (A1 m c) (A3 m c) := by
  refine (W2_arr m ρ c 2).trans ?_
  refine (LinearIn.result (V1 m ρ) c).trans ?_
  dsimp only [V1]
  rw [entry_in m ρ c, entry_weight m ρ c]
  exact (DenseIn.prod_host _ rfl _ _).symm

/-- The aggregation over incoming edges, computed by the host from the call's result: the same gathers, products and
    scatter-add as the reference's, on equal operands. -/
theorem agg_eq : W3 m ρ c (Proc.devRef .tc main_v42) = val_main_v42 (F := Ideal) (A0 m c) (A1 m c) (A2 m c) (A3 m c) := by
  dsimp only [W3, hostOps1]; after_results_simp
  simp only [W2_src m ρ c, W2_dst m ρ c, W2_deg m ρ c, exit_hw m ρ c]
  rfl
/-- The call's result reaches the epilogue unchanged. -/
theorem hw_eq : W3 m ρ c (Proc.devRef .tc main_v14) = val_main_v14 (F := Ideal) (A0 m c) (A1 m c) (A3 m c) := by
  dsimp only [W3, hostOps1]; after_results; exact exit_hw m ρ c
/-- The degree vector as a column. -/
theorem deg_col : W3 m ρ c (Proc.devRef .tc main_v43) = shapeCast S100000x1 (val_main_v10 (F := Ideal) (A2 m c)) shapeCasts_S100000_S100000x1 := by
  dsimp only [W3, hostOps1]; after_results; rw [W2_deg m ρ c]; rfl
/-- The bias as a row. -/
theorem bias_row : W3 m ρ c (Proc.devRef .tc main_v44) = shapeCast S1x128 (A4 m c) shapeCasts_S128_S1x128 := by
  dsimp only [W3, hostOps1]; after_results; rw [exit_bias m ρ c]; rfl

/-- The epilogue call's embedding array is the reference's embedding of the layer. -/
theorem exit_emb : W4 m ρ c (Proc.devRef .tc main_v45_0) = val_main_v50 (F := Ideal) (A0 m c) (A1 m c) (A2 m c) (A3 m c) (A4 m c) := by
  refine (W4_arr m ρ c 4).trans ?_
  refine (Epilogue0.result_emb (V3 m ρ) c).trans ?_
  dsimp only [V3]
  rw [agg_eq m ρ c, hw_eq m ρ c, deg_col m ρ c, bias_row m ρ c]
  exact (Epilogue.emb_host (val_main_v42 (F := Ideal) (A0 m c) (A1 m c) (A2 m c) (A3 m c)) (val_main_v14 (F := Ideal) (A0 m c) (A1 m c) (A3 m c)) (val_main_v10 (F := Ideal) (A2 m c)) (A4 m c) _ _ _ _ _ _).symm

/-- The epilogue call's activation array is the reference's activation of the layer. -/
theorem exit_act : W4 m ρ c (Proc.devRef .tc main_v45_1) = val_main_v51 (F := Ideal) (A0 m c) (A1 m c) (A2 m c) (A3 m c) (A4 m c) := by
  refine (W4_arr m ρ c 5).trans ?_
  refine (Epilogue0.result_act (V3 m ρ) c).trans ?_
  dsimp only [V3]
  rw [agg_eq m ρ c, hw_eq m ρ c, deg_col m ρ c, bias_row m ρ c]
  exact (Epilogue.act_of_host (val_main_v42 (F := Ideal) (A0 m c) (A1 m c) (A2 m c) (A3 m c)) (val_main_v14 (F := Ideal) (A0 m c) (A1 m c) (A3 m c)) (val_main_v10 (F := Ideal) (A2 m c)) (A4 m c) _ _ _ _ _ _ _).symm

end Cert.KernelIdeal.Layer0

end
-- ==== Proof.Dense.lean ====
/-
  A hidden layer's linear map, as one function of whole arrays: the product of the [100000,128] activations and a
  [128,128] weight, entry (p, j) the sum over q of h (p, q) * w (q, j). The kernel's body is this product on a block of
  5000 rows (a matmul into a zero accumulator; rounding the operands to another float format is the identity on the
  extended reals), and the host's dot_general over the one contracted axis is the same sum.
-/
import proofs.«176345_j15290083574239_1_alg».proof.KernelIdeal
import proofs.«176345_j15290083574239_1_alg».proof.Proof.Gen.KernelIdeal.Skeleton
import proofs.«176345_j15290083574239_1_alg».proof.Proof.LibPlainDot
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Dense

open Cert.KernelIdeal Cert.KernelIdeal.Gen

/-- The product of a [100000,128] matrix and a [128,128] matrix on the extended reals, entry by entry. -/
def prod (h : S100000x128.Idx → EReal) (w : S128x128.Idx → EReal) : S100000x128.Idx → EReal :=
  fun i => ∑ q : Fin 128, h (ix2 (i 0) q) * w (ix2 q (i 1))

/-- The body's value at entry (p, j) of its block: row p of the loaded rows against column j of the weight. -/
theorem body_apply (x0 : Vec Ideal S5000x128 .f32) (x1 : Vec Ideal S128x128 .f32) (p : Fin 5000) (j : Fin 128) :
    k2_pay1 (F := Ideal) x0 x1 (ix2 p j) = ∑ q : Fin 128, x0 (ix2 p q) * x1 (ix2 q j) := by
  unfold k2_pay1
  simp only [shapeCast_self]
  exact Cert.PlainDot.matmul_zero_ix2 _ rfl none _ _ p j

/-- The host's dot_general of the two matrices is the product. -/
theorem prod_host (D : DotDims S100000x128 S128x128 S100000x128) (hD : D = DotDims.plain 100000 128 128)
    (h : FVec Ideal S100000x128 .f32) (w : FVec Ideal S128x128 .f32) :
    Host.dotGeneral D none h w = prod h w := by
  funext i
  obtain ⟨p, j, rfl⟩ : ∃ (p : Fin 100000) (j : Fin 128), i = ix2 p j := ⟨i 0, i 1, eq_ix2 i⟩
  rw [Cert.PlainDot.dotGeneral_ix2 D hD none h w p j]
  rfl

end Cert.KernelIdeal.Dense

end
-- ==== Proof.Linear1.lean ====
/-
  Layer 1's linear map: the pallas_call multiplies the [100000,128] activations by the layer's [128,128] weight, 5000
  rows per grid point. Each point's output block is the product of its rows with the whole weight, the twenty row
  blocks tile the result, so the result array is the whole matrix product of the two arrays as the call finds them.
-/
import proofs.«176345_j15290083574239_1_alg».proof.Proof.Gen.KernelIdeal.Frame
import proofs.«176345_j15290083574239_1_alg».proof.Proof.Dense
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Linear1

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where the grid's index maps send point t: row block t of the activations and of the result, the whole weight. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row y of point t's activation block is row 5000 t + y of the activations. -/
theorem rows_block (c : Dev nD) (t : Fin cfg2.N) (y : S5000x128.Idx) (k : S100000x128.Idx)
    (hk0 : (k 0).val = t.val * 5000 + (y 0).val) (hk1 : (k 1).val = (y 1).val) :
    (iblk2 V c 0 t : Vec Ideal S5000x128 .f32) y = (V c main_v45_1 : S100000x128.Idx → EReal) k := by
  have e := index_maps t
  unfold iblk2
  rw [View.read_apply]
  show (V c main_v45_1 : S100000x128.Idx → EReal) _ = _
  refine congrArg (V c main_v45_1 : S100000x128.Idx → EReal) (funext fun a => Fin.ext ?_)
  match a with
  | ⟨0, _⟩ => show win2_0.index t 0 * 5000 + 1 * (y 0).val = (k 0).val; rw [e.1, hk0]; omega
  | ⟨1, _⟩ => show win2_0.index t 1 * 128 + 1 * (y 1).val = (k 1).val; rw [e.2.1, hk1]; omega

/-- Every point's weight block is the whole weight. -/
theorem weight_block (c : Dev nD) (t : Fin cfg2.N) (y : S128x128.Idx) (k : S128x128.Idx)
    (hk0 : (k 0).val = (y 0).val) (hk1 : (k 1).val = (y 1).val) :
    (iblk2 V c 1 t : Vec Ideal S128x128 .f32) y = (V c main_v47 : S128x128.Idx → EReal) k := by
  have e := index_maps t
  unfold iblk2
  rw [View.read_apply]
  show (V c main_v47 : S128x128.Idx → EReal) _ = _
  refine congrArg (V c main_v47 : S128x128.Idx → EReal) (funext fun a => Fin.ext ?_)
  match a with
  | ⟨0, _⟩ => show win2_1.index t 0 * 128 + 1 * (y 0).val = (k 0).val; rw [e.2.2.1, hk0]; omega
  | ⟨1, _⟩ => show win2_1.index t 1 * 128 + 1 * (y 1).val = (k 1).val; rw [e.2.2.2.1, hk1]; omega

/-- What point t writes back is block t of the whole product. -/
theorem flushed_eq (c : Dev nD) (t : Fin cfg2.N) :
    (dat2 V c).flushed 2 t = ((cfg2.win 2).blk t).view.read (Elt Ideal) (Dense.prod (V c main_v45_1) (V c main_v47)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  have e := index_maps t
  funext y
  rw [View.read_apply]
  have hy : (y : S5000x128.Idx) = ix2 (y 0) (y 1) := eq_ix2 y
  show k2_pay1 (F := Ideal) (iblk2 V c 0 t) (iblk2 V c 1 t) y = Dense.prod (V c main_v45_1) (V c main_v47) (((cfg2.win 2).blk t).view.emb y)
  rw [hy]
  refine (Dense.body_apply _ _ (y 0) (y 1)).trans ?_
  unfold Dense.prod
  have hrow : (((cfg2.win 2).blk t).view.emb (ix2 (y 0) (y 1)) 0).val = t.val * 5000 + (y 0).val := by
    show win2_2.index t 0 * 5000 + 1 * (y 0).val = _; rw [e.2.2.2.2.1]; omega
  have hcol : (((cfg2.win 2).blk t).view.emb (ix2 (y 0) (y 1)) 1).val = (y 1).val := by
    show win2_2.index t 1 * 128 + 1 * (y 1).val = _; rw [e.2.2.2.2.2]; omega
  refine Finset.sum_congr rfl fun q _ => ?_
  refine congrArg₂ (· * ·) ?_ ?_
  · exact rows_block V c t _ _ hrow rfl
  · exact weight_block V c t _ _ rfl hcol

/-- An index of the result is in point t's block iff each coordinate is in the block's range on its axis. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- Row r of the result lies in the block of point r / 5000: the twenty row blocks tile the array. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have e := index_maps t
  refine ⟨t, flush2_2 t, ?_⟩
  rw [mem_block]
  intro a
  match a with
  | ⟨0, _⟩ => show win2_2.index t 0 * 5000 ≤ (i 0).val ∧ (i 0).val < win2_2.index t 0 * 5000 + 5000; rw [e.2.2.2.2.1]; show (i 0).val / 5000 * 5000 ≤ _ ∧ _ < (i 0).val / 5000 * 5000 + 5000; omega
  | ⟨1, _⟩ => show win2_2.index t 1 * 128 ≤ (i 1).val ∧ (i 1).val < win2_2.index t 1 * 128 + 128; rw [e.2.2.2.2.2]; omega

/-- The result array after the call: the product of the activations and the weight as the call finds them. -/
theorem result (c : Dev nD) :
    (dat2 V c).arrAt 2 cfg2.N = Dense.prod (V c main_v45_1) (V c main_v47) :=
  (dat2 V c).arrAt_eq_of_cover 2 (Dense.prod (V c main_v45_1) (V c main_v47)) (fun t _ => flushed_eq V c t) cover

end Cert.KernelIdeal.Linear1

end
-- ==== Proof.Epilogue1.lean ====
/-
  Layer 1's epilogue: the pallas_call adds, to the aggregation over incoming edges, each node's own transformed
  features weighted by the square of its inverse root degree, then the bias, and stores that embedding and its maximum
  with zero, 5000 rows per grid point. The row blocks tile both results, so each result array is the epilogue's
  function (`Epilogue.emb`, `Epilogue.act`) of the four arrays as the call finds them.
-/
import proofs.«176345_j15290083574239_1_alg».proof.Proof.Gen.KernelIdeal.Frame
import proofs.«176345_j15290083574239_1_alg».proof.Proof.Epilogue
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Epilogue1

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where the grid's index maps send point t: row block t of the aggregation, of the transformed features, of the
    degree column and of both results; the whole bias row. -/
theorem index_maps : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Row y of point t's aggregation block is row 5000 t + y of the aggregation. -/
theorem agg_block (c : Dev nD) (t : Fin cfg3.N) (y : S5000x128.Idx) (k : S100000x128.Idx)
    (hk0 : (k 0).val = t.val * 5000 + (y 0).val) (hk1 : (k 1).val = (y 1).val) :
    (iblk3 V c 0 t : Vec Ideal S5000x128 .f32) y = (V c main_v78 : S100000x128.Idx → EReal) k := by
  have e := index_maps t
  unfold iblk3
  rw [View.read_apply]
  show (V c main_v78 : S100000x128.Idx → EReal) _ = _
  refine congrArg (V c main_v78 : S100000x128.Idx → EReal) (funext fun a => Fin.ext ?_)
  match a with
  | ⟨0, _⟩ => show win3_0.index t 0 * 5000 + 1 * (y 0).val = (k 0).val; rw [e.1, hk0]; omega
  | ⟨1, _⟩ => show win3_0.index t 1 * 128 + 1 * (y 1).val = (k 1).val; rw [e.2.1, hk1]; omega

/-- Row y of point t's block of transformed features is row 5000 t + y of them. -/
theorem hw_block (c : Dev nD) (t : Fin cfg3.N) (y : S5000x128.Idx) (k : S100000x128.Idx)
    (hk0 : (k 0).val = t.val * 5000 + (y 0).val) (hk1 : (k 1).val = (y 1).val) :
    (iblk3 V c 1 t : Vec Ideal S5000x128 .f32) y = (V c main_v50 : S100000x128.Idx → EReal) k := by
  have e := index_maps t
  unfold iblk3
  rw [View.read_apply]
  show (V c main_v50 : S100000x128.Idx → EReal) _ = _
  refine congrArg (V c main_v50 : S100000x128.Idx → EReal) (funext fun a => Fin.ext ?_)
  match a with
  | ⟨0, _⟩ => show win3_1.index t 0 * 5000 + 1 * (y 0).val = (k 0).val; rw [e.2.2.1, hk0]; omega
  | ⟨1, _⟩ => show win3_1.index t 1 * 128 + 1 * (y 1).val = (k 1).val; rw [e.2.2.2.1, hk1]; omega

/-- Entry y of point t's block of the degree column is entry 5000 t + y of the column. -/
theorem deg_block (c : Dev nD) (t : Fin cfg3.N) (y : S5000x1.Idx) (k : S100000x1.Idx)
    (hk0 : (k 0).val = t.val * 5000 + (y 0).val) (hk1 : (k 1).val = (y 1).val) :
    (iblk3 V c 2 t : Vec Ideal S5000x1 .f32) y = (V c main_v79 : S100000x1.Idx → EReal) k := by
  have e := index_maps t
  unfold iblk3
  rw [View.read_apply]
  show (V c main_v79 : S100000x1.Idx → EReal) _ = _
  refine congrArg (V c main_v79 : S100000x1.Idx → EReal) (funext fun a => Fin.ext ?_)
  match a with
  | ⟨0, _⟩ => show win3_2.index t 0 * 5000 + 1 * (y 0).val = (k 0).val; rw [e.2.2.2.2.1, hk0]; omega
  | ⟨1, _⟩ => show win3_2.index t 1 * 1 + 1 * (y 1).val = (k 1).val; rw [e.2.2.2.2.2.1, hk1]; omega

/-- Every point's bias block is the whole bias row. -/
theorem bias_block (c : Dev nD) (t : Fin cfg3.N) (y : S1x128.Idx) (k : S1x128.Idx)
    (hk0 : (k 0).val = (y 0).val) (hk1 : (k 1).val = (y 1).val) :
    (iblk3 V c 3 t : Vec Ideal S1x128 .f32) y = (V c main_v80 : S1x128.Idx → EReal) k := by
  have e := index_maps t
  unfold iblk3
  rw [View.read_apply]
  show (V c main_v80 : S1x128.Idx → EReal) _ = _
  refine congrArg (V c main_v80 : S1x128.Idx → EReal) (funext fun a => Fin.ext ?_)
  match a with
  | ⟨0, _⟩ => show win3_3.index t 0 * 1 + 1 * (y 0).val = (k 0).val; rw [e.2.2.2.2.2.2.1, hk0]; omega
  | ⟨1, _⟩ => show win3_3.index t 1 * 128 + 1 * (y 1).val = (k 1).val; rw [e.2.2.2.2.2.2.2.1, hk1]; omega

/-- What point t writes back to the embedding is block t of `Epilogue.emb` of the four arrays. -/
theorem flushed_emb (c : Dev nD) (t : Fin cfg3.N) :
    (dat3 V c).flushed 4 t = ((cfg3.win 4).blk t).view.read (Elt Ideal) (Epilogue.emb (V c main_v78) (V c main_v50) (V c main_v79) (V c main_v80)) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S5000x1) zero_offsets, View.ld_unit_zero (S := S1x128) zero_offsets]
  have e := index_maps t
  funext y
  rw [View.read_apply]
  have hy : (y : S5000x128.Idx) = ix2 (y 0) (y 1) := eq_ix2 y
  show k3_pay1 (F := Ideal) (iblk3 V c 2 t) (iblk3 V c 0 t) (iblk3 V c 1 t) (iblk3 V c 3 t) y = Epilogue.emb (V c main_v78) (V c main_v50) (V c main_v79) (V c main_v80) (((cfg3.win 4).blk t).view.emb y)
  rw [hy]
  have hrow : (((cfg3.win 4).blk t).view.emb (ix2 (y 0) (y 1)) 0).val = t.val * 5000 + (y 0).val := by
    show win3_4.index t 0 * 5000 + 1 * (y 0).val = _; rw [e.2.2.2.2.2.2.2.2.1]; omega
  have hcol : (((cfg3.win 4).blk t).view.emb (ix2 (y 0) (y 1)) 1).val = (y 1).val := by
    show win3_4.index t 1 * 128 + 1 * (y 1).val = _; rw [e.2.2.2.2.2.2.2.2.2.1]; omega
  refine (Epilogue.body_emb _ _ _ _ (y 0) (y 1)).trans ?_
  unfold Epilogue.emb
  refine congrArg₂ (· + ·) (congrArg₂ (· + ·) ?_ (congrArg₂ (· * ·) ?_ (congrArg₂ (· * ·) ?_ ?_))) ?_
  · exact agg_block V c t _ _ hrow hcol
  · exact hw_block V c t _ _ hrow hcol
  · exact deg_block V c t _ _ hrow rfl
  · exact deg_block V c t _ _ hrow rfl
  · exact bias_block V c t _ _ rfl hcol

/-- What point t writes back to the activation is block t of `Epilogue.act` of the four arrays. -/
theorem flushed_act (c : Dev nD) (t : Fin cfg3.N) :
    (dat3 V c).flushed 5 t = ((cfg3.win 5).blk t).view.read (Elt Ideal) (Epilogue.act (V c main_v78) (V c main_v50) (V c main_v79) (V c main_v80)) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S5000x1) zero_offsets, View.ld_unit_zero (S := S1x128) zero_offsets]
  have e := index_maps t
  funext y
  rw [View.read_apply]
  have hy : (y : S5000x128.Idx) = ix2 (y 0) (y 1) := eq_ix2 y
  show k3_pay2 (F := Ideal) (iblk3 V c 2 t) (iblk3 V c 0 t) (iblk3 V c 1 t) (iblk3 V c 3 t) y = Epilogue.act (V c main_v78) (V c main_v50) (V c main_v79) (V c main_v80) (((cfg3.win 5).blk t).view.emb y)
  rw [hy]
  have hrow : (((cfg3.win 5).blk t).view.emb (ix2 (y 0) (y 1)) 0).val = t.val * 5000 + (y 0).val := by
    show win3_5.index t 0 * 5000 + 1 * (y 0).val = _; rw [e.2.2.2.2.2.2.2.2.2.2.1]; omega
  have hcol : (((cfg3.win 5).blk t).view.emb (ix2 (y 0) (y 1)) 1).val = (y 1).val := by
    show win3_5.index t 1 * 128 + 1 * (y 1).val = _; rw [e.2.2.2.2.2.2.2.2.2.2.2]; omega
  refine (Epilogue.body_act _ _ _ _ (y 0) (y 1)).trans ?_
  unfold Epilogue.act
  refine congrArg₂ max ?_ rfl
  refine (Epilogue.body_emb _ _ _ _ (y 0) (y 1)).trans ?_
  unfold Epilogue.emb
  refine congrArg₂ (· + ·) (congrArg₂ (· + ·) ?_ (congrArg₂ (· * ·) ?_ (congrArg₂ (· * ·) ?_ ?_))) ?_
  · exact agg_block V c t _ _ hrow hcol
  · exact hw_block V c t _ _ hrow hcol
  · exact deg_block V c t _ _ hrow rfl
  · exact deg_block V c t _ _ hrow rfl
  · exact bias_block V c t _ _ rfl hcol

/-- An index of the result is in point t's block iff each coordinate is in the block's range on its axis. -/
theorem mem_block_emb (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v81_0).slice (win3_4.rect t)).set ↔ _
  rw [View.set_slice_whole, Rect.mem_set_unit]
  exact Iff.rfl

/-- Row r of the result lies in the block of point r / 5000: the twenty row blocks tile the array. -/
theorem cover_emb (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have e := index_maps t
  refine ⟨t, flush3_4 t, ?_⟩
  rw [mem_block_emb]
  intro a
  match a with
  | ⟨0, _⟩ => show win3_4.index t 0 * 5000 ≤ (i 0).val ∧ (i 0).val < win3_4.index t 0 * 5000 + 5000; rw [e.2.2.2.2.2.2.2.2.1]; show (i 0).val / 5000 * 5000 ≤ _ ∧ _ < (i 0).val / 5000 * 5000 + 5000; omega
  | ⟨1, _⟩ => show win3_4.index t 1 * 128 ≤ (i 1).val ∧ (i 1).val < win3_4.index t 1 * 128 + 128; rw [e.2.2.2.2.2.2.2.2.2.1]; omega

/-- An index of the result is in point t's block iff each coordinate is in the block's range on its axis. -/
theorem mem_block_act (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v81_1).slice (win3_5.rect t)).set ↔ _
  rw [View.set_slice_whole, Rect.mem_set_unit]
  exact Iff.rfl

/-- Row r of the result lies in the block of point r / 5000: the twenty row blocks tile the array. -/
theorem cover_act (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have e := index_maps t
  refine ⟨t, flush3_5 t, ?_⟩
  rw [mem_block_act]
  intro a
  match a with
  | ⟨0, _⟩ => show win3_5.index t 0 * 5000 ≤ (i 0).val ∧ (i 0).val < win3_5.index t 0 * 5000 + 5000; rw [e.2.2.2.2.2.2.2.2.2.2.1]; show (i 0).val / 5000 * 5000 ≤ _ ∧ _ < (i 0).val / 5000 * 5000 + 5000; omega
  | ⟨1, _⟩ => show win3_5.index t 1 * 128 ≤ (i 1).val ∧ (i 1).val < win3_5.index t 1 * 128 + 128; rw [e.2.2.2.2.2.2.2.2.2.2.2]; omega

/-- The embedding array after the call. -/
theorem result_emb (c : Dev nD) :
    (dat3 V c).arrAt 4 cfg3.N = Epilogue.emb (V c main_v78) (V c main_v50) (V c main_v79) (V c main_v80) :=
  (dat3 V c).arrAt_eq_of_cover 4 _ (fun t _ => flushed_emb V c t) cover_emb

/-- The activation array after the call. -/
theorem result_act (c : Dev nD) :
    (dat3 V c).arrAt 5 cfg3.N = Epilogue.act (V c main_v78) (V c main_v50) (V c main_v79) (V c main_v80) :=
  (dat3 V c).arrAt_eq_of_cover 5 _ (fun t _ => flushed_act V c t) cover_act

end Cert.KernelIdeal.Epilogue1

end
-- ==== Proof.Layer1.lean ====
/-
  Layer 1 of the network in the kernel program, value by value: the linear call's product, the aggregation the host
  computes from it over the edges, the epilogue call's embedding and activation. Each is shown equal to the reference
  program's stage of the same computation: the host operations are the same operations on equal operands, a linear
  call's result array is the host's dot_general, and an epilogue call's two result arrays are the host's broadcasts,
  products, sums and maximum.
-/
import proofs.«176345_j15290083574239_1_alg».proof.Proof.Gen.KernelIdeal.Frame
import proofs.«176345_j15290083574239_1_alg».proof.Proof.Gen.ReferenceIdeal.Read
import proofs.«176345_j15290083574239_1_alg».proof.Proof.Carry
import proofs.«176345_j15290083574239_1_alg».proof.Proof.Layer0
import proofs.«176345_j15290083574239_1_alg».proof.Proof.Linear1
import proofs.«176345_j15290083574239_1_alg».proof.Proof.Epilogue1
import proofs.«176345_j15290083574239_1_alg».proof.Proof.EpilogueHost
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Layer1

open Cert.KernelIdeal Cert.KernelIdeal.Gen Cert.ReferenceIdeal.Read
open Cert.KernelIdeal.Carry

variable (m : (ℓ : Loc nD τ sig) → Buf (Elt Ideal) ℓ) (ρ : Dev nD → PrngReg) (c : Dev nD)

/-- The previous layer's activation reaches the linear call unchanged: the stretch before it only slices the weights. -/
theorem entry_in : W5 m ρ c (Proc.devRef .tc main_v45_1) = val_main_v51 (F := Ideal) (A0 m c) (A1 m c) (A2 m c) (A3 m c) (A4 m c) := by
  dsimp only [W5, hostOps2]; after_results; exact Layer0.exit_act m ρ c
/-- The layer's weight: its slice of the stacked weights, reshaped to a matrix. -/
theorem entry_weight : W5 m ρ c (Proc.devRef .tc main_v47) = val_main_v53 (F := Ideal) (A5 m c) := by
  dsimp only [W5, hostOps2]; after_results; rw [W4_arg5 m ρ c]; rfl
/-- The layer's bias: its row of the stacked biases, reshaped to a vector. -/
theorem entry_bias : W5 m ρ c (Proc.devRef .tc main_v49) = val_main_v55 (F := Ideal) (A6 m c) := by
  dsimp only [W5, hostOps2]; after_results; rw [W4_arg6 m ρ c]; rfl
theorem exit_bias : W6 m ρ c (Proc.devRef .tc main_v49) = val_main_v55 (F := Ideal) (A6 m c) :=
  (W6_of_ne m ρ c main_v49 (by decide)).trans (entry_bias m ρ c)

/-- The linear call's result array is the reference's dot_general of the same operands. -/
theorem exit_hw : W6 m ρ c (Proc.devRef .tc main_v50) = val_main_v56 (F := Ideal) (A0 m c) (A1 m c) (A2 m c) (A3 m c) (A4 m c) (A5 m c) := by
  refine (W6_arr m ρ c 2).trans ?_
  refine (Linear1.result (V5 m ρ) c).trans ?_
  dsimp only [V5]
  rw [entry_in m ρ c, entry_weight m ρ c]
  exact (Dense.prod_host _ rfl _ _).symm

/-- The aggregation over incoming edges, computed by the host from the call's result: the same gathers, products and
    scatter-add as the reference's, on equal operands. -/
theorem agg_eq : W7 m ρ c (Proc.devRef .tc main_v78) = val_main_v84 (F := Ideal) (A0 m c) (A1 m c) (A2 m c) (A3 m c) (A4 m c) (A5 m c) := by
  dsimp only [W7, hostOps3]; after_results_simp
  simp only [W6_src m ρ c, W6_dst m ρ c, W6_deg m ρ c, exit_hw m ρ c]
  rfl
/-- The call's result reaches the epilogue unchanged. -/
theorem hw_eq : W7 m ρ c (Proc.devRef .tc main_v50) = val_main_v56 (F := Ideal) (A0 m c) (A1 m c) (A2 m c) (A3 m c) (A4 m c) (A5 m c) := by
  dsimp only [W7, hostOps3]; after_results; exact exit_hw m ρ c
/-- The degree vector as a column. -/
theorem deg_col : W7 m ρ c (Proc.devRef .tc main_v79) = shapeCast S100000x1 (val_main_v10 (F := Ideal) (A2 m c)) shapeCasts_S100000_S100000x1 := by
  dsimp only [W7, hostOps3]; after_results; rw [W6_deg m ρ c]; rfl
/-- The bias as a row. -/
theorem bias_row : W7 m ρ c (Proc.devRef .tc main_v80) = shapeCast S1x128 (val_main_v55 (F := Ideal) (A6 m c)) shapeCasts_S128_S1x128 := by
  dsimp only [W7, hostOps3]; after_results; rw [exit_bias m ρ c]; rfl

/-- The epilogue call's embedding array is the reference's embedding of the layer. -/
theorem exit_emb : W8 m ρ c (Proc.devRef .tc main_v81_0) = val_main_v92 (F := Ideal) (A0 m c) (A1 m c) (A2 m c) (A3 m c) (A4 m c) (A5 m c) (A6 m c) := by
  refine (W8_arr m ρ c 4).trans ?_
  refine (Epilogue1.result_emb (V7 m ρ) c).trans ?_
  dsimp only [V7]
  rw [agg_eq m ρ c, hw_eq m ρ c, deg_col m ρ c, bias_row m ρ c]
  exact (Epilogue.emb_host (val_main_v84 (F := Ideal) (A0 m c) (A1 m c) (A2 m c) (A3 m c) (A4 m c) (A5 m c)) (val_main_v56 (F := Ideal) (A0 m c) (A1 m c) (A2 m c) (A3 m c) (A4 m c) (A5 m c)) (val_main_v10 (F := Ideal) (A2 m c)) (val_main_v55 (F := Ideal) (A6 m c)) _ _ _ _ _ _).symm

/-- The epilogue call's activation array is the reference's activation of the layer. -/
theorem exit_act : W8 m ρ c (Proc.devRef .tc main_v81_1) = val_main_v93 (F := Ideal) (A0 m c) (A1 m c) (A2 m c) (A3 m c) (A4 m c) (A5 m c) (A6 m c) := by
  refine (W8_arr m ρ c 5).trans ?_
  refine (Epilogue1.result_act (V7 m ρ) c).trans ?_
  dsimp only [V7]
  rw [agg_eq m ρ c, hw_eq m ρ c, deg_col m ρ c, bias_row m ρ c]
  exact (Epilogue.act_of_host (val_main_v84 (F := Ideal) (A0 m c) (A1 m c) (A2 m c) (A3 m c) (A4 m c) (A5 m c)) (val_main_v56 (F := Ideal) (A0 m c) (A1 m c) (A2 m c) (A3 m c) (A4 m c) (A5 m c)) (val_main_v10 (F := Ideal) (A2 m c)) (val_main_v55 (F := Ideal) (A6 m c)) _ _ _ _ _ _ _).symm

end Cert.KernelIdeal.Layer1

end
-- ==== Proof.Linear2.lean ====
/-
  Layer 2's linear map: the pallas_call multiplies the [100000,128] activations by the layer's [128,128] weight, 5000
  rows per grid point. Each point's output block is the product of its rows with the whole weight, the twenty row
  blocks tile the result, so the result array is the whole matrix product of the two arrays as the call finds them.
-/
import proofs.«176345_j15290083574239_1_alg».proof.Proof.Gen.KernelIdeal.Frame
import proofs.«176345_j15290083574239_1_alg».proof.Proof.Dense
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Linear2

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where the grid's index maps send point t: row block t of the activations and of the result, the whole weight. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row y of point t's activation block is row 5000 t + y of the activations. -/
theorem rows_block (c : Dev nD) (t : Fin cfg4.N) (y : S5000x128.Idx) (k : S100000x128.Idx)
    (hk0 : (k 0).val = t.val * 5000 + (y 0).val) (hk1 : (k 1).val = (y 1).val) :
    (iblk4 V c 0 t : Vec Ideal S5000x128 .f32) y = (V c main_v81_1 : S100000x128.Idx → EReal) k := by
  have e := index_maps t
  unfold iblk4
  rw [View.read_apply]
  show (V c main_v81_1 : S100000x128.Idx → EReal) _ = _
  refine congrArg (V c main_v81_1 : S100000x128.Idx → EReal) (funext fun a => Fin.ext ?_)
  match a with
  | ⟨0, _⟩ => show win4_0.index t 0 * 5000 + 1 * (y 0).val = (k 0).val; rw [e.1, hk0]; omega
  | ⟨1, _⟩ => show win4_0.index t 1 * 128 + 1 * (y 1).val = (k 1).val; rw [e.2.1, hk1]; omega

/-- Every point's weight block is the whole weight. -/
theorem weight_block (c : Dev nD) (t : Fin cfg4.N) (y : S128x128.Idx) (k : S128x128.Idx)
    (hk0 : (k 0).val = (y 0).val) (hk1 : (k 1).val = (y 1).val) :
    (iblk4 V c 1 t : Vec Ideal S128x128 .f32) y = (V c main_v83 : S128x128.Idx → EReal) k := by
  have e := index_maps t
  unfold iblk4
  rw [View.read_apply]
  show (V c main_v83 : S128x128.Idx → EReal) _ = _
  refine congrArg (V c main_v83 : S128x128.Idx → EReal) (funext fun a => Fin.ext ?_)
  match a with
  | ⟨0, _⟩ => show win4_1.index t 0 * 128 + 1 * (y 0).val = (k 0).val; rw [e.2.2.1, hk0]; omega
  | ⟨1, _⟩ => show win4_1.index t 1 * 128 + 1 * (y 1).val = (k 1).val; rw [e.2.2.2.1, hk1]; omega

/-- What point t writes back is block t of the whole product. -/
theorem flushed_eq (c : Dev nD) (t : Fin cfg4.N) :
    (dat4 V c).flushed 2 t = ((cfg4.win 2).blk t).view.read (Elt Ideal) (Dense.prod (V c main_v81_1) (V c main_v83)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  have e := index_maps t
  funext y
  rw [View.read_apply]
  have hy : (y : S5000x128.Idx) = ix2 (y 0) (y 1) := eq_ix2 y
  show k4_pay1 (F := Ideal) (iblk4 V c 0 t) (iblk4 V c 1 t) y = Dense.prod (V c main_v81_1) (V c main_v83) (((cfg4.win 2).blk t).view.emb y)
  rw [hy]
  refine (Dense.body_apply _ _ (y 0) (y 1)).trans ?_
  unfold Dense.prod
  have hrow : (((cfg4.win 2).blk t).view.emb (ix2 (y 0) (y 1)) 0).val = t.val * 5000 + (y 0).val := by
    show win4_2.index t 0 * 5000 + 1 * (y 0).val = _; rw [e.2.2.2.2.1]; omega
  have hcol : (((cfg4.win 2).blk t).view.emb (ix2 (y 0) (y 1)) 1).val = (y 1).val := by
    show win4_2.index t 1 * 128 + 1 * (y 1).val = _; rw [e.2.2.2.2.2]; omega
  refine Finset.sum_congr rfl fun q _ => ?_
  refine congrArg₂ (· * ·) ?_ ?_
  · exact rows_block V c t _ _ hrow rfl
  · exact weight_block V c t _ _ rfl hcol

/-- An index of the result is in point t's block iff each coordinate is in the block's range on its axis. -/
theorem mem_block (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v86).slice (win4_2.rect t)).set ↔ _
  rw [View.set_slice_whole, Rect.mem_set_unit]
  exact Iff.rfl

/-- Row r of the result lies in the block of point r / 5000: the twenty row blocks tile the array. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  have e := index_maps t
  refine ⟨t, flush4_2 t, ?_⟩
  rw [mem_block]
  intro a
  match a with
  | ⟨0, _⟩ => show win4_2.index t 0 * 5000 ≤ (i 0).val ∧ (i 0).val < win4_2.index t 0 * 5000 + 5000; rw [e.2.2.2.2.1]; show (i 0).val / 5000 * 5000 ≤ _ ∧ _ < (i 0).val / 5000 * 5000 + 5000; omega
  | ⟨1, _⟩ => show win4_2.index t 1 * 128 ≤ (i 1).val ∧ (i 1).val < win4_2.index t 1 * 128 + 128; rw [e.2.2.2.2.2]; omega

/-- The result array after the call: the product of the activations and the weight as the call finds them. -/
theorem result (c : Dev nD) :
    (dat4 V c).arrAt 2 cfg4.N = Dense.prod (V c main_v81_1) (V c main_v83) :=
  (dat4 V c).arrAt_eq_of_cover 2 (Dense.prod (V c main_v81_1) (V c main_v83)) (fun t _ => flushed_eq V c t) cover

end Cert.KernelIdeal.Linear2

end
-- ==== Proof.Epilogue2.lean ====
/-
  Layer 2's epilogue: the pallas_call adds, to the aggregation over incoming edges, each node's own transformed
  features weighted by the square of its inverse root degree, then the bias, and stores that embedding and its maximum
  with zero, 5000 rows per grid point. The row blocks tile both results, so each result array is the epilogue's
  function (`Epilogue.emb`, `Epilogue.act`) of the four arrays as the call finds them.
-/
import proofs.«176345_j15290083574239_1_alg».proof.Proof.Gen.KernelIdeal.Frame
import proofs.«176345_j15290083574239_1_alg».proof.Proof.Epilogue
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Epilogue2

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where the grid's index maps send point t: row block t of the aggregation, of the transformed features, of the
    degree column and of both results; the whole bias row. -/
theorem index_maps : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- Row y of point t's aggregation block is row 5000 t + y of the aggregation. -/
theorem agg_block (c : Dev nD) (t : Fin cfg5.N) (y : S5000x128.Idx) (k : S100000x128.Idx)
    (hk0 : (k 0).val = t.val * 5000 + (y 0).val) (hk1 : (k 1).val = (y 1).val) :
    (iblk5 V c 0 t : Vec Ideal S5000x128 .f32) y = (V c main_v114 : S100000x128.Idx → EReal) k := by
  have e := index_maps t
  unfold iblk5
  rw [View.read_apply]
  show (V c main_v114 : S100000x128.Idx → EReal) _ = _
  refine congrArg (V c main_v114 : S100000x128.Idx → EReal) (funext fun a => Fin.ext ?_)
  match a with
  | ⟨0, _⟩ => show win5_0.index t 0 * 5000 + 1 * (y 0).val = (k 0).val; rw [e.1, hk0]; omega
  | ⟨1, _⟩ => show win5_0.index t 1 * 128 + 1 * (y 1).val = (k 1).val; rw [e.2.1, hk1]; omega

/-- Row y of point t's block of transformed features is row 5000 t + y of them. -/
theorem hw_block (c : Dev nD) (t : Fin cfg5.N) (y : S5000x128.Idx) (k : S100000x128.Idx)
    (hk0 : (k 0).val = t.val * 5000 + (y 0).val) (hk1 : (k 1).val = (y 1).val) :
    (iblk5 V c 1 t : Vec Ideal S5000x128 .f32) y = (V c main_v86 : S100000x128.Idx → EReal) k := by
  have e := index_maps t
  unfold iblk5
  rw [View.read_apply]
  show (V c main_v86 : S100000x128.Idx → EReal) _ = _
  refine congrArg (V c main_v86 : S100000x128.Idx → EReal) (funext fun a => Fin.ext ?_)
  match a with
  | ⟨0, _⟩ => show win5_1.index t 0 * 5000 + 1 * (y 0).val = (k 0).val; rw [e.2.2.1, hk0]; omega
  | ⟨1, _⟩ => show win5_1.index t 1 * 128 + 1 * (y 1).val = (k 1).val; rw [e.2.2.2.1, hk1]; omega

/-- Entry y of point t's block of the degree column is entry 5000 t + y of the column. -/
theorem deg_block (c : Dev nD) (t : Fin cfg5.N) (y : S5000x1.Idx) (k : S100000x1.Idx)
    (hk0 : (k 0).val = t.val * 5000 + (y 0).val) (hk1 : (k 1).val = (y 1).val) :
    (iblk5 V c 2 t : Vec Ideal S5000x1 .f32) y = (V c main_v115 : S100000x1.Idx → EReal) k := by
  have e := index_maps t
  unfold iblk5
  rw [View.read_apply]
  show (V c main_v115 : S100000x1.Idx → EReal) _ = _
  refine congrArg (V c main_v115 : S100000x1.Idx → EReal) (funext fun a => Fin.ext ?_)
  match a with
  | ⟨0, _⟩ => show win5_2.index t 0 * 5000 + 1 * (y 0).val = (k 0).val; rw [e.2.2.2.2.1, hk0]; omega
  | ⟨1, _⟩ => show win5_2.index t 1 * 1 + 1 * (y 1).val = (k 1).val; rw [e.2.2.2.2.2.1, hk1]; omega

/-- Every point's bias block is the whole bias row. -/
theorem bias_block (c : Dev nD) (t : Fin cfg5.N) (y : S1x128.Idx) (k : S1x128.Idx)
    (hk0 : (k 0).val = (y 0).val) (hk1 : (k 1).val = (y 1).val) :
    (iblk5 V c 3 t : Vec Ideal S1x128 .f32) y = (V c main_v116 : S1x128.Idx → EReal) k := by
  have e := index_maps t
  unfold iblk5
  rw [View.read_apply]
  show (V c main_v116 : S1x128.Idx → EReal) _ = _
  refine congrArg (V c main_v116 : S1x128.Idx → EReal) (funext fun a => Fin.ext ?_)
  match a with
  | ⟨0, _⟩ => show win5_3.index t 0 * 1 + 1 * (y 0).val = (k 0).val; rw [e.2.2.2.2.2.2.1, hk0]; omega
  | ⟨1, _⟩ => show win5_3.index t 1 * 128 + 1 * (y 1).val = (k 1).val; rw [e.2.2.2.2.2.2.2.1, hk1]; omega

/-- What point t writes back to the embedding is block t of `Epilogue.emb` of the four arrays. -/
theorem flushed_emb (c : Dev nD) (t : Fin cfg5.N) :
    (dat5 V c).flushed 4 t = ((cfg5.win 4).blk t).view.read (Elt Ideal) (Epilogue.emb (V c main_v114) (V c main_v86) (V c main_v115) (V c main_v116)) := by
  show (cfg5.win 4).cut (grid5.coords t) ((dat5 V c).after 4 t) = _
  rw [after5_4]
  unfold out5_4
  rw [View.canon_unit_zero zero_offsets]
  simp only [View.ld_unit_zero (S := S5000x128) zero_offsets, View.ld_unit_zero (S := S5000x1) zero_offsets, View.ld_unit_zero (S := S1x128) zero_offsets]
  have e := index_maps t
  funext y
  rw [View.read_apply]
  have hy : (y : S5000x128.Idx) = ix2 (y 0) (y 1) := eq_ix2 y
  show k5_pay1 (F := Ideal) (iblk5 V c 2 t) (iblk5 V c 0 t) (iblk5 V c 1 t) (iblk5 V c 3 t) y = Epilogue.emb (V c main_v114) (V c main_v86) (V c main_v115) (V c main_v116) (((cfg5.win 4).blk t).view.emb y)
  rw [hy]
  have hrow : (((cfg5.win 4).blk t).view.emb (ix2 (y 0) (y 1)) 0).val = t.val * 5000 + (y 0).val := by
    show win5_4.index t 0 * 5000 + 1 * (y 0).val = _; rw [e.2.2.2.2.2.2.2.2.1]; omega
  have hcol : (((cfg5.win 4).blk t).view.emb (ix2 (y 0) (y 1)) 1).val = (y 1).val := by
    show win5_4.index t 1 * 128 + 1 * (y 1).val = _; rw [e.2.2.2.2.2.2.2.2.2.1]; omega
  refine (Epilogue.body_emb _ _ _ _ (y 0) (y 1)).trans ?_
  unfold Epilogue.emb
  refine congrArg₂ (· + ·) (congrArg₂ (· + ·) ?_ (congrArg₂ (· * ·) ?_ (congrArg₂ (· * ·) ?_ ?_))) ?_
  · exact agg_block V c t _ _ hrow hcol
  · exact hw_block V c t _ _ hrow hcol
  · exact deg_block V c t _ _ hrow rfl
  · exact deg_block V c t _ _ hrow rfl
  · exact bias_block V c t _ _ rfl hcol

/-- What point t writes back to the activation is block t of `Epilogue.act` of the four arrays. -/
theorem flushed_act (c : Dev nD) (t : Fin cfg5.N) :
    (dat5 V c).flushed 5 t = ((cfg5.win 5).blk t).view.read (Elt Ideal) (Epilogue.act (V c main_v114) (V c main_v86) (V c main_v115) (V c main_v116)) := by
  show (cfg5.win 5).cut (grid5.coords t) ((dat5 V c).after 5 t) = _
  rw [after5_5]
  unfold out5_5
  rw [View.canon_unit_zero zero_offsets]
  simp only [View.ld_unit_zero (S := S5000x128) zero_offsets, View.ld_unit_zero (S := S5000x1) zero_offsets, View.ld_unit_zero (S := S1x128) zero_offsets]
  have e := index_maps t
  funext y
  rw [View.read_apply]
  have hy : (y : S5000x128.Idx) = ix2 (y 0) (y 1) := eq_ix2 y
  show k5_pay2 (F := Ideal) (iblk5 V c 2 t) (iblk5 V c 0 t) (iblk5 V c 1 t) (iblk5 V c 3 t) y = Epilogue.act (V c main_v114) (V c main_v86) (V c main_v115) (V c main_v116) (((cfg5.win 5).blk t).view.emb y)
  rw [hy]
  have hrow : (((cfg5.win 5).blk t).view.emb (ix2 (y 0) (y 1)) 0).val = t.val * 5000 + (y 0).val := by
    show win5_5.index t 0 * 5000 + 1 * (y 0).val = _; rw [e.2.2.2.2.2.2.2.2.2.2.1]; omega
  have hcol : (((cfg5.win 5).blk t).view.emb (ix2 (y 0) (y 1)) 1).val = (y 1).val := by
    show win5_5.index t 1 * 128 + 1 * (y 1).val = _; rw [e.2.2.2.2.2.2.2.2.2.2.2]; omega
  refine (Epilogue.body_act _ _ _ _ (y 0) (y 1)).trans ?_
  unfold Epilogue.act
  refine congrArg₂ max ?_ rfl
  refine (Epilogue.body_emb _ _ _ _ (y 0) (y 1)).trans ?_
  unfold Epilogue.emb
  refine congrArg₂ (· + ·) (congrArg₂ (· + ·) ?_ (congrArg₂ (· * ·) ?_ (congrArg₂ (· * ·) ?_ ?_))) ?_
  · exact agg_block V c t _ _ hrow hcol
  · exact hw_block V c t _ _ hrow hcol
  · exact deg_block V c t _ _ hrow rfl
  · exact deg_block V c t _ _ hrow rfl
  · exact bias_block V c t _ _ rfl hcol

/-- An index of the result is in point t's block iff each coordinate is in the block's range on its axis. -/
theorem mem_block_emb (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v117_0).slice (win5_4.rect t)).set ↔ _
  rw [View.set_slice_whole, Rect.mem_set_unit]
  exact Iff.rfl

/-- Row r of the result lies in the block of point r / 5000: the twenty row blocks tile the array. -/
theorem cover_emb (i : S100000x128.Idx) : ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  have e := index_maps t
  refine ⟨t, flush5_4 t, ?_⟩
  rw [mem_block_emb]
  intro a
  match a with
  | ⟨0, _⟩ => show win5_4.index t 0 * 5000 ≤ (i 0).val ∧ (i 0).val < win5_4.index t 0 * 5000 + 5000; rw [e.2.2.2.2.2.2.2.2.1]; show (i 0).val / 5000 * 5000 ≤ _ ∧ _ < (i 0).val / 5000 * 5000 + 5000; omega
  | ⟨1, _⟩ => show win5_4.index t 1 * 128 ≤ (i 1).val ∧ (i 1).val < win5_4.index t 1 * 128 + 128; rw [e.2.2.2.2.2.2.2.2.2.1]; omega

/-- An index of the result is in point t's block iff each coordinate is in the block's range on its axis. -/
theorem mem_block_act (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v117_1).slice (win5_5.rect t)).set ↔ _
  rw [View.set_slice_whole, Rect.mem_set_unit]
  exact Iff.rfl

/-- Row r of the result lies in the block of point r / 5000: the twenty row blocks tile the array. -/
theorem cover_act (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  have e := index_maps t
  refine ⟨t, flush5_5 t, ?_⟩
  rw [mem_block_act]
  intro a
  match a with
  | ⟨0, _⟩ => show win5_5.index t 0 * 5000 ≤ (i 0).val ∧ (i 0).val < win5_5.index t 0 * 5000 + 5000; rw [e.2.2.2.2.2.2.2.2.2.2.1]; show (i 0).val / 5000 * 5000 ≤ _ ∧ _ < (i 0).val / 5000 * 5000 + 5000; omega
  | ⟨1, _⟩ => show win5_5.index t 1 * 128 ≤ (i 1).val ∧ (i 1).val < win5_5.index t 1 * 128 + 128; rw [e.2.2.2.2.2.2.2.2.2.2.2]; omega

/-- The embedding array after the call. -/
theorem result_emb (c : Dev nD) :
    (dat5 V c).arrAt 4 cfg5.N = Epilogue.emb (V c main_v114) (V c main_v86) (V c main_v115) (V c main_v116) :=
  (dat5 V c).arrAt_eq_of_cover 4 _ (fun t _ => flushed_emb V c t) cover_emb

/-- The activation array after the call. -/
theorem result_act (c : Dev nD) :
    (dat5 V c).arrAt 5 cfg5.N = Epilogue.act (V c main_v114) (V c main_v86) (V c main_v115) (V c main_v116) :=
  (dat5 V c).arrAt_eq_of_cover 5 _ (fun t _ => flushed_act V c t) cover_act

end Cert.KernelIdeal.Epilogue2

end
-- ==== Proof.Layer2.lean ====
/-
  Layer 2 of the network in the kernel program, value by value: the linear call's product, the aggregation the host
  computes from it over the edges, the epilogue call's embedding and activation. Each is shown equal to the reference
  program's stage of the same computation: the host operations are the same operations on equal operands, a linear
  call's result array is the host's dot_general, and an epilogue call's two result arrays are the host's broadcasts,
  products, sums and maximum.
-/
import proofs.«176345_j15290083574239_1_alg».proof.Proof.Gen.KernelIdeal.Frame
import proofs.«176345_j15290083574239_1_alg».proof.Proof.Gen.ReferenceIdeal.Read
import proofs.«176345_j15290083574239_1_alg».proof.Proof.Carry
import proofs.«176345_j15290083574239_1_alg».proof.Proof.Layer1
import proofs.«176345_j15290083574239_1_alg».proof.Proof.Linear2
import proofs.«176345_j15290083574239_1_alg».proof.Proof.Epilogue2
import proofs.«176345_j15290083574239_1_alg».proof.Proof.EpilogueHost
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Layer2

open Cert.KernelIdeal Cert.KernelIdeal.Gen Cert.ReferenceIdeal.Read
open Cert.KernelIdeal.Carry

variable (m : (ℓ : Loc nD τ sig) → Buf (Elt Ideal) ℓ) (ρ : Dev nD → PrngReg) (c : Dev nD)

/-- The previous layer's activation reaches the linear call unchanged: the stretch before it only slices the weights. -/
theorem entry_in : W9 m ρ c (Proc.devRef .tc main_v81_1) = val_main_v93 (F := Ideal) (A0 m c) (A1 m c) (A2 m c) (A3 m c) (A4 m c) (A5 m c) (A6 m c) := by
  dsimp only [W9, hostOps4]; after_results; exact Layer1.exit_act m ρ c
/-- The layer's weight: its slice of the stacked weights, reshaped to a matrix. -/
theorem entry_weight : W9 m ρ c (Proc.devRef .tc main_v83) = val_main_v95 (F := Ideal) (A5 m c) := by
  dsimp only [W9, hostOps4]; after_results; rw [W8_arg5 m ρ c]; rfl
/-- The layer's bias: its row of the stacked biases, reshaped to a vector. -/
theorem entry_bias : W9 m ρ c (Proc.devRef .tc main_v85) = val_main_v97 (F := Ideal) (A6 m c) := by
  dsimp only [W9, hostOps4]; after_results; rw [W8_arg6 m ρ c]; rfl
theorem exit_bias : W10 m ρ c (Proc.devRef .tc main_v85) = val_main_v97 (F := Ideal) (A6 m c) :=
  (W10_of_ne m ρ c main_v85 (by decide)).trans (entry_bias m ρ c)

/-- The linear call's result array is the reference's dot_general of the same operands. -/
theorem exit_hw : W10 m ρ c (Proc.devRef .tc main_v86) = val_main_v98 (F := Ideal) (A0 m c) (A1 m c) (A2 m c) (A3 m c) (A4 m c) (A5 m c) (A6 m c) := by
  refine (W10_arr m ρ c 2).trans ?_
  refine (Linear2.result (V9 m ρ) c).trans ?_
  dsimp only [V9]
  rw [entry_in m ρ c, entry_weight m ρ c]
  exact (Dense.prod_host _ rfl _ _).symm

/-- The aggregation over incoming edges, computed by the host from the call's result: the same gathers, products and
    scatter-add as the reference's, on equal operands. -/
theorem agg_eq : W11 m ρ c (Proc.devRef .tc main_v114) = val_main_v126 (F := Ideal) (A0 m c) (A1 m c) (A2 m c) (A3 m c) (A4 m c) (A5 m c) (A6 m c) := by
  dsimp only [W11, hostOps5]; after_results_simp
  simp only [W10_src m ρ c, W10_dst m ρ c, W10_deg m ρ c, exit_hw m ρ c]
  rfl
/-- The call's result reaches the epilogue unchanged. -/
theorem hw_eq : W11 m ρ c (Proc.devRef .tc main_v86) = val_main_v98 (F := Ideal) (A0 m c) (A1 m c) (A2 m c) (A3 m c) (A4 m c) (A5 m c) (A6 m c) := by
  dsimp only [W11, hostOps5]; after_results; exact exit_hw m ρ c
/-- The degree vector as a column. -/
theorem deg_col : W11 m ρ c (Proc.devRef .tc main_v115) = shapeCast S100000x1 (val_main_v10 (F := Ideal) (A2 m c)) shapeCasts_S100000_S100000x1 := by
  dsimp only [W11, hostOps5]; after_results; rw [W10_deg m ρ c]; rfl
/-- The bias as a row. -/
theorem bias_row : W11 m ρ c (Proc.devRef .tc main_v116) = shapeCast S1x128 (val_main_v97 (F := Ideal) (A6 m c)) shapeCasts_S128_S1x128 := by
  dsimp only [W11, hostOps5]; after_results; rw [exit_bias m ρ c]; rfl

/-- The epilogue call's embedding array is the reference's embedding of the layer. -/
theorem exit_emb : W12 m ρ c (Proc.devRef .tc main_v117_0) = val_main_v134 (F := Ideal) (A0 m c) (A1 m c) (A2 m c) (A3 m c) (A4 m c) (A5 m c) (A6 m c) := by
  refine (W12_arr m ρ c 4).trans ?_
  refine (Epilogue2.result_emb (V11 m ρ) c).trans ?_
  dsimp only [V11]
  rw [agg_eq m ρ c, hw_eq m ρ c, deg_col m ρ c, bias_row m ρ c]
  exact (Epilogue.emb_host (val_main_v126 (F := Ideal) (A0 m c) (A1 m c) (A2 m c) (A3 m c) (A4 m c) (A5 m c) (A6 m c)) (val_main_v98 (F := Ideal) (A0 m c) (A1 m c) (A2 m c) (A3 m c) (A4 m c) (A5 m c) (A6 m c)) (val_main_v10 (F := Ideal) (A2 m c)) (val_main_v97 (F := Ideal) (A6 m c)) _ _ _ _ _ _).symm

/-- The epilogue call's activation array is the reference's activation of the layer. -/
theorem exit_act : W12 m ρ c (Proc.devRef .tc main_v117_1) = val_main_v135 (F := Ideal) (A0 m c) (A1 m c) (A2 m c) (A3 m c) (A4 m c) (A5 m c) (A6 m c) := by
  refine (W12_arr m ρ c 5).trans ?_
  refine (Epilogue2.result_act (V11 m ρ) c).trans ?_
  dsimp only [V11]
  rw [agg_eq m ρ c, hw_eq m ρ c, deg_col m ρ c, bias_row m ρ c]
  exact (Epilogue.act_of_host (val_main_v126 (F := Ideal) (A0 m c) (A1 m c) (A2 m c) (A3 m c) (A4 m c) (A5 m c) (A6 m c)) (val_main_v98 (F := Ideal) (A0 m c) (A1 m c) (A2 m c) (A3 m c) (A4 m c) (A5 m c) (A6 m c)) (val_main_v10 (F := Ideal) (A2 m c)) (val_main_v97 (F := Ideal) (A6 m c)) _ _ _ _ _ _ _).symm

end Cert.KernelIdeal.Layer2

end
-- ==== Proof.Linear3.lean ====
/-
  Layer 3's linear map: the pallas_call multiplies the [100000,128] activations by the layer's [128,128] weight, 5000
  rows per grid point. Each point's output block is the product of its rows with the whole weight, the twenty row
  blocks tile the result, so the result array is the whole matrix product of the two arrays as the call finds them.
-/
import proofs.«176345_j15290083574239_1_alg».proof.Proof.Gen.KernelIdeal.Frame
import proofs.«176345_j15290083574239_1_alg».proof.Proof.Dense
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Linear3

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where the grid's index maps send point t: row block t of the activations and of the result, the whole weight. -/
theorem index_maps : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row y of point t's activation block is row 5000 t + y of the activations. -/
theorem rows_block (c : Dev nD) (t : Fin cfg6.N) (y : S5000x128.Idx) (k : S100000x128.Idx)
    (hk0 : (k 0).val = t.val * 5000 + (y 0).val) (hk1 : (k 1).val = (y 1).val) :
    (iblk6 V c 0 t : Vec Ideal S5000x128 .f32) y = (V c main_v117_1 : S100000x128.Idx → EReal) k := by
  have e := index_maps t
  unfold iblk6
  rw [View.read_apply]
  show (V c main_v117_1 : S100000x128.Idx → EReal) _ = _
  refine congrArg (V c main_v117_1 : S100000x128.Idx → EReal) (funext fun a => Fin.ext ?_)
  match a with
  | ⟨0, _⟩ => show win6_0.index t 0 * 5000 + 1 * (y 0).val = (k 0).val; rw [e.1, hk0]; omega
  | ⟨1, _⟩ => show win6_0.index t 1 * 128 + 1 * (y 1).val = (k 1).val; rw [e.2.1, hk1]; omega

/-- Every point's weight block is the whole weight. -/
theorem weight_block (c : Dev nD) (t : Fin cfg6.N) (y : S128x128.Idx) (k : S128x128.Idx)
    (hk0 : (k 0).val = (y 0).val) (hk1 : (k 1).val = (y 1).val) :
    (iblk6 V c 1 t : Vec Ideal S128x128 .f32) y = (V c main_v119 : S128x128.Idx → EReal) k := by
  have e := index_maps t
  unfold iblk6
  rw [View.read_apply]
  show (V c main_v119 : S128x128.Idx → EReal) _ = _
  refine congrArg (V c main_v119 : S128x128.Idx → EReal) (funext fun a => Fin.ext ?_)
  match a with
  | ⟨0, _⟩ => show win6_1.index t 0 * 128 + 1 * (y 0).val = (k 0).val; rw [e.2.2.1, hk0]; omega
  | ⟨1, _⟩ => show win6_1.index t 1 * 128 + 1 * (y 1).val = (k 1).val; rw [e.2.2.2.1, hk1]; omega

/-- What point t writes back is block t of the whole product. -/
theorem flushed_eq (c : Dev nD) (t : Fin cfg6.N) :
    (dat6 V c).flushed 2 t = ((cfg6.win 2).blk t).view.read (Elt Ideal) (Dense.prod (V c main_v117_1) (V c main_v119)) := by
  show (cfg6.win 2).cut (grid6.coords t) ((dat6 V c).after 2 t) = _
  rw [after6_2]
  unfold out6_2
  rw [View.canon_unit_zero zero_offsets]
  simp only [View.ld_unit_zero (S := S5000x128) zero_offsets, View.ld_unit_zero (S := S128x128) zero_offsets]
  have e := index_maps t
  funext y
  rw [View.read_apply]
  have hy : (y : S5000x128.Idx) = ix2 (y 0) (y 1) := eq_ix2 y
  show k6_pay1 (F := Ideal) (iblk6 V c 0 t) (iblk6 V c 1 t) y = Dense.prod (V c main_v117_1) (V c main_v119) (((cfg6.win 2).blk t).view.emb y)
  rw [hy]
  refine (Dense.body_apply _ _ (y 0) (y 1)).trans ?_
  unfold Dense.prod
  have hrow : (((cfg6.win 2).blk t).view.emb (ix2 (y 0) (y 1)) 0).val = t.val * 5000 + (y 0).val := by
    show win6_2.index t 0 * 5000 + 1 * (y 0).val = _; rw [e.2.2.2.2.1]; omega
  have hcol : (((cfg6.win 2).blk t).view.emb (ix2 (y 0) (y 1)) 1).val = (y 1).val := by
    show win6_2.index t 1 * 128 + 1 * (y 1).val = _; rw [e.2.2.2.2.2]; omega
  refine Finset.sum_congr rfl fun q _ => ?_
  refine congrArg₂ (· * ·) ?_ ?_
  · exact rows_block V c t _ _ hrow rfl
  · exact weight_block V c t _ _ rfl hcol

/-- An index of the result is in point t's block iff each coordinate is in the block's range on its axis. -/
theorem mem_block (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v122).slice (win6_2.rect t)).set ↔ _
  rw [View.set_slice_whole, Rect.mem_set_unit]
  exact Iff.rfl

/-- Row r of the result lies in the block of point r / 5000: the twenty row blocks tile the array. -/
theorem cover (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  have e := index_maps t
  refine ⟨t, flush6_2 t, ?_⟩
  rw [mem_block]
  intro a
  match a with
  | ⟨0, _⟩ => show win6_2.index t 0 * 5000 ≤ (i 0).val ∧ (i 0).val < win6_2.index t 0 * 5000 + 5000; rw [e.2.2.2.2.1]; show (i 0).val / 5000 * 5000 ≤ _ ∧ _ < (i 0).val / 5000 * 5000 + 5000; omega
  | ⟨1, _⟩ => show win6_2.index t 1 * 128 ≤ (i 1).val ∧ (i 1).val < win6_2.index t 1 * 128 + 128; rw [e.2.2.2.2.2]; omega

/-- The result array after the call: the product of the activations and the weight as the call finds them. -/
theorem result (c : Dev nD) :
    (dat6 V c).arrAt 2 cfg6.N = Dense.prod (V c main_v117_1) (V c main_v119) :=
  (dat6 V c).arrAt_eq_of_cover 2 (Dense.prod (V c main_v117_1) (V c main_v119)) (fun t _ => flushed_eq V c t) cover

end Cert.KernelIdeal.Linear3

end
-- ==== Proof.Epilogue3.lean ====
/-
  Layer 3's epilogue: the pallas_call adds, to the aggregation over incoming edges, each node's own transformed
  features weighted by the square of its inverse root degree, then the bias, and stores that embedding and its maximum
  with zero, 5000 rows per grid point. The row blocks tile both results, so each result array is the epilogue's
  function (`Epilogue.emb`, `Epilogue.act`) of the four arrays as the call finds them.
-/
import proofs.«176345_j15290083574239_1_alg».proof.Proof.Gen.KernelIdeal.Frame
import proofs.«176345_j15290083574239_1_alg».proof.Proof.Epilogue
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Epilogue3

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where the grid's index maps send point t: row block t of the aggregation, of the transformed features, of the
    degree column and of both results; the whole bias row. -/
theorem index_maps : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

/-- Row y of point t's aggregation block is row 5000 t + y of the aggregation. -/
theorem agg_block (c : Dev nD) (t : Fin cfg7.N) (y : S5000x128.Idx) (k : S100000x128.Idx)
    (hk0 : (k 0).val = t.val * 5000 + (y 0).val) (hk1 : (k 1).val = (y 1).val) :
    (iblk7 V c 0 t : Vec Ideal S5000x128 .f32) y = (V c main_v150 : S100000x128.Idx → EReal) k := by
  have e := index_maps t
  unfold iblk7
  rw [View.read_apply]
  show (V c main_v150 : S100000x128.Idx → EReal) _ = _
  refine congrArg (V c main_v150 : S100000x128.Idx → EReal) (funext fun a => Fin.ext ?_)
  match a with
  | ⟨0, _⟩ => show win7_0.index t 0 * 5000 + 1 * (y 0).val = (k 0).val; rw [e.1, hk0]; omega
  | ⟨1, _⟩ => show win7_0.index t 1 * 128 + 1 * (y 1).val = (k 1).val; rw [e.2.1, hk1]; omega

/-- Row y of point t's block of transformed features is row 5000 t + y of them. -/
theorem hw_block (c : Dev nD) (t : Fin cfg7.N) (y : S5000x128.Idx) (k : S100000x128.Idx)
    (hk0 : (k 0).val = t.val * 5000 + (y 0).val) (hk1 : (k 1).val = (y 1).val) :
    (iblk7 V c 1 t : Vec Ideal S5000x128 .f32) y = (V c main_v122 : S100000x128.Idx → EReal) k := by
  have e := index_maps t
  unfold iblk7
  rw [View.read_apply]
  show (V c main_v122 : S100000x128.Idx → EReal) _ = _
  refine congrArg (V c main_v122 : S100000x128.Idx → EReal) (funext fun a => Fin.ext ?_)
  match a with
  | ⟨0, _⟩ => show win7_1.index t 0 * 5000 + 1 * (y 0).val = (k 0).val; rw [e.2.2.1, hk0]; omega
  | ⟨1, _⟩ => show win7_1.index t 1 * 128 + 1 * (y 1).val = (k 1).val; rw [e.2.2.2.1, hk1]; omega

/-- Entry y of point t's block of the degree column is entry 5000 t + y of the column. -/
theorem deg_block (c : Dev nD) (t : Fin cfg7.N) (y : S5000x1.Idx) (k : S100000x1.Idx)
    (hk0 : (k 0).val = t.val * 5000 + (y 0).val) (hk1 : (k 1).val = (y 1).val) :
    (iblk7 V c 2 t : Vec Ideal S5000x1 .f32) y = (V c main_v151 : S100000x1.Idx → EReal) k := by
  have e := index_maps t
  unfold iblk7
  rw [View.read_apply]
  show (V c main_v151 : S100000x1.Idx → EReal) _ = _
  refine congrArg (V c main_v151 : S100000x1.Idx → EReal) (funext fun a => Fin.ext ?_)
  match a with
  | ⟨0, _⟩ => show win7_2.index t 0 * 5000 + 1 * (y 0).val = (k 0).val; rw [e.2.2.2.2.1, hk0]; omega
  | ⟨1, _⟩ => show win7_2.index t 1 * 1 + 1 * (y 1).val = (k 1).val; rw [e.2.2.2.2.2.1, hk1]; omega

/-- Every point's bias block is the whole bias row. -/
theorem bias_block (c : Dev nD) (t : Fin cfg7.N) (y : S1x128.Idx) (k : S1x128.Idx)
    (hk0 : (k 0).val = (y 0).val) (hk1 : (k 1).val = (y 1).val) :
    (iblk7 V c 3 t : Vec Ideal S1x128 .f32) y = (V c main_v152 : S1x128.Idx → EReal) k := by
  have e := index_maps t
  unfold iblk7
  rw [View.read_apply]
  show (V c main_v152 : S1x128.Idx → EReal) _ = _
  refine congrArg (V c main_v152 : S1x128.Idx → EReal) (funext fun a => Fin.ext ?_)
  match a with
  | ⟨0, _⟩ => show win7_3.index t 0 * 1 + 1 * (y 0).val = (k 0).val; rw [e.2.2.2.2.2.2.1, hk0]; omega
  | ⟨1, _⟩ => show win7_3.index t 1 * 128 + 1 * (y 1).val = (k 1).val; rw [e.2.2.2.2.2.2.2.1, hk1]; omega

/-- What point t writes back to the embedding is block t of `Epilogue.emb` of the four arrays. -/
theorem flushed_emb (c : Dev nD) (t : Fin cfg7.N) :
    (dat7 V c).flushed 4 t = ((cfg7.win 4).blk t).view.read (Elt Ideal) (Epilogue.emb (V c main_v150) (V c main_v122) (V c main_v151) (V c main_v152)) := by
  show (cfg7.win 4).cut (grid7.coords t) ((dat7 V c).after 4 t) = _
  rw [after7_4]
  unfold out7_4
  rw [View.canon_unit_zero zero_offsets]
  simp only [View.ld_unit_zero (S := S5000x128) zero_offsets, View.ld_unit_zero (S := S5000x1) zero_offsets, View.ld_unit_zero (S := S1x128) zero_offsets]
  have e := index_maps t
  funext y
  rw [View.read_apply]
  have hy : (y : S5000x128.Idx) = ix2 (y 0) (y 1) := eq_ix2 y
  show k7_pay1 (F := Ideal) (iblk7 V c 2 t) (iblk7 V c 0 t) (iblk7 V c 1 t) (iblk7 V c 3 t) y = Epilogue.emb (V c main_v150) (V c main_v122) (V c main_v151) (V c main_v152) (((cfg7.win 4).blk t).view.emb y)
  rw [hy]
  have hrow : (((cfg7.win 4).blk t).view.emb (ix2 (y 0) (y 1)) 0).val = t.val * 5000 + (y 0).val := by
    show win7_4.index t 0 * 5000 + 1 * (y 0).val = _; rw [e.2.2.2.2.2.2.2.2.1]; omega
  have hcol : (((cfg7.win 4).blk t).view.emb (ix2 (y 0) (y 1)) 1).val = (y 1).val := by
    show win7_4.index t 1 * 128 + 1 * (y 1).val = _; rw [e.2.2.2.2.2.2.2.2.2.1]; omega
  refine (Epilogue.body_emb _ _ _ _ (y 0) (y 1)).trans ?_
  unfold Epilogue.emb
  refine congrArg₂ (· + ·) (congrArg₂ (· + ·) ?_ (congrArg₂ (· * ·) ?_ (congrArg₂ (· * ·) ?_ ?_))) ?_
  · exact agg_block V c t _ _ hrow hcol
  · exact hw_block V c t _ _ hrow hcol
  · exact deg_block V c t _ _ hrow rfl
  · exact deg_block V c t _ _ hrow rfl
  · exact bias_block V c t _ _ rfl hcol

/-- What point t writes back to the activation is block t of `Epilogue.act` of the four arrays. -/
theorem flushed_act (c : Dev nD) (t : Fin cfg7.N) :
    (dat7 V c).flushed 5 t = ((cfg7.win 5).blk t).view.read (Elt Ideal) (Epilogue.act (V c main_v150) (V c main_v122) (V c main_v151) (V c main_v152)) := by
  show (cfg7.win 5).cut (grid7.coords t) ((dat7 V c).after 5 t) = _
  rw [after7_5]
  unfold out7_5
  rw [View.canon_unit_zero zero_offsets]
  simp only [View.ld_unit_zero (S := S5000x128) zero_offsets, View.ld_unit_zero (S := S5000x1) zero_offsets, View.ld_unit_zero (S := S1x128) zero_offsets]
  have e := index_maps t
  funext y
  rw [View.read_apply]
  have hy : (y : S5000x128.Idx) = ix2 (y 0) (y 1) := eq_ix2 y
  show k7_pay2 (F := Ideal) (iblk7 V c 2 t) (iblk7 V c 0 t) (iblk7 V c 1 t) (iblk7 V c 3 t) y = Epilogue.act (V c main_v150) (V c main_v122) (V c main_v151) (V c main_v152) (((cfg7.win 5).blk t).view.emb y)
  rw [hy]
  have hrow : (((cfg7.win 5).blk t).view.emb (ix2 (y 0) (y 1)) 0).val = t.val * 5000 + (y 0).val := by
    show win7_5.index t 0 * 5000 + 1 * (y 0).val = _; rw [e.2.2.2.2.2.2.2.2.2.2.1]; omega
  have hcol : (((cfg7.win 5).blk t).view.emb (ix2 (y 0) (y 1)) 1).val = (y 1).val := by
    show win7_5.index t 1 * 128 + 1 * (y 1).val = _; rw [e.2.2.2.2.2.2.2.2.2.2.2]; omega
  refine (Epilogue.body_act _ _ _ _ (y 0) (y 1)).trans ?_
  unfold Epilogue.act
  refine congrArg₂ max ?_ rfl
  refine (Epilogue.body_emb _ _ _ _ (y 0) (y 1)).trans ?_
  unfold Epilogue.emb
  refine congrArg₂ (· + ·) (congrArg₂ (· + ·) ?_ (congrArg₂ (· * ·) ?_ (congrArg₂ (· * ·) ?_ ?_))) ?_
  · exact agg_block V c t _ _ hrow hcol
  · exact hw_block V c t _ _ hrow hcol
  · exact deg_block V c t _ _ hrow rfl
  · exact deg_block V c t _ _ hrow rfl
  · exact bias_block V c t _ _ rfl hcol

/-- An index of the result is in point t's block iff each coordinate is in the block's range on its axis. -/
theorem mem_block_emb (t : Fin cfg7.N) (i : S100000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole main_v153_0).slice (win7_4.rect t)).set ↔ _
  rw [View.set_slice_whole, Rect.mem_set_unit]
  exact Iff.rfl

/-- Row r of the result lies in the block of point r / 5000: the twenty row blocks tile the array. -/
theorem cover_emb (i : S100000x128.Idx) : ∃ t : Fin cfg7.N, (cfg7.win 4).flush t = true ∧ i ∈ ((cfg7.win 4).blk t).view.set := by
  have hi0 : (i 0).val < 100000 := (i 0).isLt
  have hi1 : (i 1).val < 128 := (i 1).isLt
  have hN : cfg7.N = 20 := N_7
  let t : Fin cfg7.N := ⟨(i 0).val / 5000, by rw [hN]; omega⟩
  have e := index_maps t
  refine ⟨t, flush7_4 t, ?_⟩
  rw [mem_block_emb]
  intro a
  match a with
  | ⟨0, _⟩ => show win7_4.index t 0 * 5000 ≤ (i 0).val ∧ (i 0).val < win7_4.index t 0 * 5000 + 5000; rw [e.2.2.2.2.2.2.2.2.1]; show (i 0).val / 5000 * 5000 ≤ _ ∧ _ < (i 0).val / 5000 * 5000 + 5000; omega
  | ⟨1, _⟩ => show win7_4.index t 1 * 128 ≤ (i 1).val ∧ (i 1).val < win7_4.index t 1 * 128 + 128; rw [e.2.2.2.2.2.2.2.2.2.1]; omega

/-- An index of the result is in point t's block iff each coordinate is in the block's range on its axis. -/
theorem mem_block_act (t : Fin cfg7.N) (i : S100000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v153_1).slice (win7_5.rect t)).set ↔ _
  rw [View.set_slice_whole, Rect.mem_set_unit]
  exact Iff.rfl

/-- Row r of the result lies in the block of point r / 5000: the twenty row blocks tile the array. -/
theorem cover_act (i : S100000x128.Idx) : ∃ t : Fin cfg7.N, (cfg7.win 5).flush t = true ∧ i ∈ ((cfg7.win 5).blk t).view.set := by
  have hi0 : (i 0).val < 100000 := (i 0).isLt
  have hi1 : (i 1).val < 128 := (i 1).isLt
  have hN : cfg7.N = 20 := N_7
  let t : Fin cfg7.N := ⟨(i 0).val / 5000, by rw [hN]; omega⟩
  have e := index_maps t
  refine ⟨t, flush7_5 t, ?_⟩
  rw [mem_block_act]
  intro a
  match a with
  | ⟨0, _⟩ => show win7_5.index t 0 * 5000 ≤ (i 0).val ∧ (i 0).val < win7_5.index t 0 * 5000 + 5000; rw [e.2.2.2.2.2.2.2.2.2.2.1]; show (i 0).val / 5000 * 5000 ≤ _ ∧ _ < (i 0).val / 5000 * 5000 + 5000; omega
  | ⟨1, _⟩ => show win7_5.index t 1 * 128 ≤ (i 1).val ∧ (i 1).val < win7_5.index t 1 * 128 + 128; rw [e.2.2.2.2.2.2.2.2.2.2.2]; omega

/-- The embedding array after the call. -/
theorem result_emb (c : Dev nD) :
    (dat7 V c).arrAt 4 cfg7.N = Epilogue.emb (V c main_v150) (V c main_v122) (V c main_v151) (V c main_v152) :=
  (dat7 V c).arrAt_eq_of_cover 4 _ (fun t _ => flushed_emb V c t) cover_emb

/-- The activation array after the call. -/
theorem result_act (c : Dev nD) :
    (dat7 V c).arrAt 5 cfg7.N = Epilogue.act (V c main_v150) (V c main_v122) (V c main_v151) (V c main_v152) :=
  (dat7 V c).arrAt_eq_of_cover 5 _ (fun t _ => flushed_act V c t) cover_act

end Cert.KernelIdeal.Epilogue3

end
-- ==== Proof.Layer3.lean ====
/-
  Layer 3 of the network in the kernel program, value by value: the linear call's product, the aggregation the host
  computes from it over the edges, the epilogue call's embedding and activation. Each is shown equal to the reference
  program's stage of the same computation: the host operations are the same operations on equal operands, a linear
  call's result array is the host's dot_general, and an epilogue call's two result arrays are the host's broadcasts,
  products, sums and maximum.
-/
import proofs.«176345_j15290083574239_1_alg».proof.Proof.Gen.KernelIdeal.Frame
import proofs.«176345_j15290083574239_1_alg».proof.Proof.Gen.ReferenceIdeal.Read
import proofs.«176345_j15290083574239_1_alg».proof.Proof.Carry
import proofs.«176345_j15290083574239_1_alg».proof.Proof.Layer2
import proofs.«176345_j15290083574239_1_alg».proof.Proof.Linear3
import proofs.«176345_j15290083574239_1_alg».proof.Proof.Epilogue3
import proofs.«176345_j15290083574239_1_alg».proof.Proof.EpilogueHost
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Layer3

open Cert.KernelIdeal Cert.KernelIdeal.Gen Cert.ReferenceIdeal.Read
open Cert.KernelIdeal.Carry

variable (m : (ℓ : Loc nD τ sig) → Buf (Elt Ideal) ℓ) (ρ : Dev nD → PrngReg) (c : Dev nD)

/-- The previous layer's activation reaches the linear call unchanged: the stretch before it only slices the weights. -/
theorem entry_in : W13 m ρ c (Proc.devRef .tc main_v117_1) = val_main_v135 (F := Ideal) (A0 m c) (A1 m c) (A2 m c) (A3 m c) (A4 m c) (A5 m c) (A6 m c) := by
  dsimp only [W13, hostOps6]; after_results; exact Layer2.exit_act m ρ c
/-- The layer's weight: its slice of the stacked weights, reshaped to a matrix. -/
theorem entry_weight : W13 m ρ c (Proc.devRef .tc main_v119) = val_main_v137 (F := Ideal) (A5 m c) := by
  dsimp only [W13, hostOps6]; after_results; rw [W12_arg5 m ρ c]; rfl
/-- The layer's bias: its row of the stacked biases, reshaped to a vector. -/
theorem entry_bias : W13 m ρ c (Proc.devRef .tc main_v121) = val_main_v139 (F := Ideal) (A6 m c) := by
  dsimp only [W13, hostOps6]; after_results; rw [W12_arg6 m ρ c]; rfl
theorem exit_bias : W14 m ρ c (Proc.devRef .tc main_v121) = val_main_v139 (F := Ideal) (A6 m c) :=
  (W14_of_ne m ρ c main_v121 (by decide)).trans (entry_bias m ρ c)

/-- The linear call's result array is the reference's dot_general of the same operands. -/
theorem exit_hw : W14 m ρ c (Proc.devRef .tc main_v122) = val_main_v140 (F := Ideal) (A0 m c) (A1 m c) (A2 m c) (A3 m c) (A4 m c) (A5 m c) (A6 m c) := by
  refine (W14_arr m ρ c 2).trans ?_
  refine (Linear3.result (V13 m ρ) c).trans ?_
  dsimp only [V13]
  rw [entry_in m ρ c, entry_weight m ρ c]
  exact (Dense.prod_host _ rfl _ _).symm

/-- The aggregation over incoming edges, computed by the host from the call's result: the same gathers, products and
    scatter-add as the reference's, on equal operands. -/
theorem agg_eq : W15 m ρ c (Proc.devRef .tc main_v150) = val_main_v168 (F := Ideal) (A0 m c) (A1 m c) (A2 m c) (A3 m c) (A4 m c) (A5 m c) (A6 m c) := by
  dsimp only [W15, hostOps7]; after_results_simp
  simp only [W14_src m ρ c, W14_dst m ρ c, W14_deg m ρ c, exit_hw m ρ c]
  rfl
/-- The call's result reaches the epilogue unchanged. -/
theorem hw_eq : W15 m ρ c (Proc.devRef .tc main_v122) = val_main_v140 (F := Ideal) (A0 m c) (A1 m c) (A2 m c) (A3 m c) (A4 m c) (A5 m c) (A6 m c) := by
  dsimp only [W15, hostOps7]; after_results; exact exit_hw m ρ c
/-- The degree vector as a column. -/
theorem deg_col : W15 m ρ c (Proc.devRef .tc main_v151) = shapeCast S100000x1 (val_main_v10 (F := Ideal) (A2 m c)) shapeCasts_S100000_S100000x1 := by
  dsimp only [W15, hostOps7]; after_results; rw [W14_deg m ρ c]; rfl
/-- The bias as a row. -/
theorem bias_row : W15 m ρ c (Proc.devRef .tc main_v152) = shapeCast S1x128 (val_main_v139 (F := Ideal) (A6 m c)) shapeCasts_S128_S1x128 := by
  dsimp only [W15, hostOps7]; after_results; rw [exit_bias m ρ c]; rfl

/-- The epilogue call's embedding array is the reference's embedding of the layer. -/
theorem exit_emb : W16 m ρ c (Proc.devRef .tc main_v153_0) = val_main_v176 (F := Ideal) (A0 m c) (A1 m c) (A2 m c) (A3 m c) (A4 m c) (A5 m c) (A6 m c) := by
  refine (W16_arr m ρ c 4).trans ?_
  refine (Epilogue3.result_emb (V15 m ρ) c).trans ?_
  dsimp only [V15]
  rw [agg_eq m ρ c, hw_eq m ρ c, deg_col m ρ c, bias_row m ρ c]
  exact (Epilogue.emb_host (val_main_v168 (F := Ideal) (A0 m c) (A1 m c) (A2 m c) (A3 m c) (A4 m c) (A5 m c) (A6 m c)) (val_main_v140 (F := Ideal) (A0 m c) (A1 m c) (A2 m c) (A3 m c) (A4 m c) (A5 m c) (A6 m c)) (val_main_v10 (F := Ideal) (A2 m c)) (val_main_v139 (F := Ideal) (A6 m c)) _ _ _ _ _ _).symm

/-- The epilogue call's activation array is the reference's activation of the layer. -/
theorem exit_act : W16 m ρ c (Proc.devRef .tc main_v153_1) = val_main_v177 (F := Ideal) (A0 m c) (A1 m c) (A2 m c) (A3 m c) (A4 m c) (A5 m c) (A6 m c) := by
  refine (W16_arr m ρ c 5).trans ?_
  refine (Epilogue3.result_act (V15 m ρ) c).trans ?_
  dsimp only [V15]
  rw [agg_eq m ρ c, hw_eq m ρ c, deg_col m ρ c, bias_row m ρ c]
  exact (Epilogue.act_of_host (val_main_v168 (F := Ideal) (A0 m c) (A1 m c) (A2 m c) (A3 m c) (A4 m c) (A5 m c) (A6 m c)) (val_main_v140 (F := Ideal) (A0 m c) (A1 m c) (A2 m c) (A3 m c) (A4 m c) (A5 m c) (A6 m c)) (val_main_v10 (F := Ideal) (A2 m c)) (val_main_v139 (F := Ideal) (A6 m c)) _ _ _ _ _ _ _).symm

end Cert.KernelIdeal.Layer3

end
-- ==== Proof.Linear4.lean ====
/-
  Layer 4's linear map: the pallas_call multiplies the [100000,128] activations by the layer's [128,128] weight, 5000
  rows per grid point. Each point's output block is the product of its rows with the whole weight, the twenty row
  blocks tile the result, so the result array is the whole matrix product of the two arrays as the call finds them.
-/
import proofs.«176345_j15290083574239_1_alg».proof.Proof.Gen.KernelIdeal.Frame
import proofs.«176345_j15290083574239_1_alg».proof.Proof.Dense
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Linear4

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where the grid's index maps send point t: row block t of the activations and of the result, the whole weight. -/
theorem index_maps : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Row y of point t's activation block is row 5000 t + y of the activations. -/
theorem rows_block (c : Dev nD) (t : Fin cfg8.N) (y : S5000x128.Idx) (k : S100000x128.Idx)
    (hk0 : (k 0).val = t.val * 5000 + (y 0).val) (hk1 : (k 1).val = (y 1).val) :
    (iblk8 V c 0 t : Vec Ideal S5000x128 .f32) y = (V c main_v153_1 : S100000x128.Idx → EReal) k := by
  have e := index_maps t
  unfold iblk8
  rw [View.read_apply]
  show (V c main_v153_1 : S100000x128.Idx → EReal) _ = _
  refine congrArg (V c main_v153_1 : S100000x128.Idx → EReal) (funext fun a => Fin.ext ?_)
  match a with
  | ⟨0, _⟩ => show win8_0.index t 0 * 5000 + 1 * (y 0).val = (k 0).val; rw [e.1, hk0]; omega
  | ⟨1, _⟩ => show win8_0.index t 1 * 128 + 1 * (y 1).val = (k 1).val; rw [e.2.1, hk1]; omega

/-- Every point's weight block is the whole weight. -/
theorem weight_block (c : Dev nD) (t : Fin cfg8.N) (y : S128x128.Idx) (k : S128x128.Idx)
    (hk0 : (k 0).val = (y 0).val) (hk1 : (k 1).val = (y 1).val) :
    (iblk8 V c 1 t : Vec Ideal S128x128 .f32) y = (V c main_v155 : S128x128.Idx → EReal) k := by
  have e := index_maps t
  unfold iblk8
  rw [View.read_apply]
  show (V c main_v155 : S128x128.Idx → EReal) _ = _
  refine congrArg (V c main_v155 : S128x128.Idx → EReal) (funext fun a => Fin.ext ?_)
  match a with
  | ⟨0, _⟩ => show win8_1.index t 0 * 128 + 1 * (y 0).val = (k 0).val; rw [e.2.2.1, hk0]; omega
  | ⟨1, _⟩ => show win8_1.index t 1 * 128 + 1 * (y 1).val = (k 1).val; rw [e.2.2.2.1, hk1]; omega

/-- What point t writes back is block t of the whole product. -/
theorem flushed_eq (c : Dev nD) (t : Fin cfg8.N) :
    (dat8 V c).flushed 2 t = ((cfg8.win 2).blk t).view.read (Elt Ideal) (Dense.prod (V c main_v153_1) (V c main_v155)) := by
  show (cfg8.win 2).cut (grid8.coords t) ((dat8 V c).after 2 t) = _
  rw [after8_2]
  unfold out8_2
  rw [View.canon_unit_zero zero_offsets]
  simp only [View.ld_unit_zero (S := S5000x128) zero_offsets, View.ld_unit_zero (S := S128x128) zero_offsets]
  have e := index_maps t
  funext y
  rw [View.read_apply]
  have hy : (y : S5000x128.Idx) = ix2 (y 0) (y 1) := eq_ix2 y
  show k8_pay1 (F := Ideal) (iblk8 V c 0 t) (iblk8 V c 1 t) y = Dense.prod (V c main_v153_1) (V c main_v155) (((cfg8.win 2).blk t).view.emb y)
  rw [hy]
  refine (Dense.body_apply _ _ (y 0) (y 1)).trans ?_
  unfold Dense.prod
  have hrow : (((cfg8.win 2).blk t).view.emb (ix2 (y 0) (y 1)) 0).val = t.val * 5000 + (y 0).val := by
    show win8_2.index t 0 * 5000 + 1 * (y 0).val = _; rw [e.2.2.2.2.1]; omega
  have hcol : (((cfg8.win 2).blk t).view.emb (ix2 (y 0) (y 1)) 1).val = (y 1).val := by
    show win8_2.index t 1 * 128 + 1 * (y 1).val = _; rw [e.2.2.2.2.2]; omega
  refine Finset.sum_congr rfl fun q _ => ?_
  refine congrArg₂ (· * ·) ?_ ?_
  · exact rows_block V c t _ _ hrow rfl
  · exact weight_block V c t _ _ rfl hcol

/-- An index of the result is in point t's block iff each coordinate is in the block's range on its axis. -/
theorem mem_block (t : Fin cfg8.N) (i : S100000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v158).slice (win8_2.rect t)).set ↔ _
  rw [View.set_slice_whole, Rect.mem_set_unit]
  exact Iff.rfl

/-- Row r of the result lies in the block of point r / 5000: the twenty row blocks tile the array. -/
theorem cover (i : S100000x128.Idx) : ∃ t : Fin cfg8.N, (cfg8.win 2).flush t = true ∧ i ∈ ((cfg8.win 2).blk t).view.set := by
  have hi0 : (i 0).val < 100000 := (i 0).isLt
  have hi1 : (i 1).val < 128 := (i 1).isLt
  have hN : cfg8.N = 20 := N_8
  let t : Fin cfg8.N := ⟨(i 0).val / 5000, by rw [hN]; omega⟩
  have e := index_maps t
  refine ⟨t, flush8_2 t, ?_⟩
  rw [mem_block]
  intro a
  match a with
  | ⟨0, _⟩ => show win8_2.index t 0 * 5000 ≤ (i 0).val ∧ (i 0).val < win8_2.index t 0 * 5000 + 5000; rw [e.2.2.2.2.1]; show (i 0).val / 5000 * 5000 ≤ _ ∧ _ < (i 0).val / 5000 * 5000 + 5000; omega
  | ⟨1, _⟩ => show win8_2.index t 1 * 128 ≤ (i 1).val ∧ (i 1).val < win8_2.index t 1 * 128 + 128; rw [e.2.2.2.2.2]; omega

/-- The result array after the call: the product of the activations and the weight as the call finds them. -/
theorem result (c : Dev nD) :
    (dat8 V c).arrAt 2 cfg8.N = Dense.prod (V c main_v153_1) (V c main_v155) :=
  (dat8 V c).arrAt_eq_of_cover 2 (Dense.prod (V c main_v153_1) (V c main_v155)) (fun t _ => flushed_eq V c t) cover

end Cert.KernelIdeal.Linear4

end
-- ==== Proof.Epilogue4.lean ====
/-
  Layer 4's epilogue: the pallas_call adds, to the aggregation over incoming edges, each node's own transformed
  features weighted by the square of its inverse root degree, then the bias, and stores that embedding and its maximum
  with zero, 5000 rows per grid point. The row blocks tile both results, so each result array is the epilogue's
  function (`Epilogue.emb`, `Epilogue.act`) of the four arrays as the call finds them.
-/
import proofs.«176345_j15290083574239_1_alg».proof.Proof.Gen.KernelIdeal.Frame
import proofs.«176345_j15290083574239_1_alg».proof.Proof.Epilogue
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Epilogue4

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where the grid's index maps send point t: row block t of the aggregation, of the transformed features, of the
    degree column and of both results; the whole bias row. -/
theorem index_maps : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0 :=
  (by decide +kernel : ∀ t : Fin grid9.N, _)

/-- Row y of point t's aggregation block is row 5000 t + y of the aggregation. -/
theorem agg_block (c : Dev nD) (t : Fin cfg9.N) (y : S5000x128.Idx) (k : S100000x128.Idx)
    (hk0 : (k 0).val = t.val * 5000 + (y 0).val) (hk1 : (k 1).val = (y 1).val) :
    (iblk9 V c 0 t : Vec Ideal S5000x128 .f32) y = (V c main_v186 : S100000x128.Idx → EReal) k := by
  have e := index_maps t
  unfold iblk9
  rw [View.read_apply]
  show (V c main_v186 : S100000x128.Idx → EReal) _ = _
  refine congrArg (V c main_v186 : S100000x128.Idx → EReal) (funext fun a => Fin.ext ?_)
  match a with
  | ⟨0, _⟩ => show win9_0.index t 0 * 5000 + 1 * (y 0).val = (k 0).val; rw [e.1, hk0]; omega
  | ⟨1, _⟩ => show win9_0.index t 1 * 128 + 1 * (y 1).val = (k 1).val; rw [e.2.1, hk1]; omega

/-- Row y of point t's block of transformed features is row 5000 t + y of them. -/
theorem hw_block (c : Dev nD) (t : Fin cfg9.N) (y : S5000x128.Idx) (k : S100000x128.Idx)
    (hk0 : (k 0).val = t.val * 5000 + (y 0).val) (hk1 : (k 1).val = (y 1).val) :
    (iblk9 V c 1 t : Vec Ideal S5000x128 .f32) y = (V c main_v158 : S100000x128.Idx → EReal) k := by
  have e := index_maps t
  unfold iblk9
  rw [View.read_apply]
  show (V c main_v158 : S100000x128.Idx → EReal) _ = _
  refine congrArg (V c main_v158 : S100000x128.Idx → EReal) (funext fun a => Fin.ext ?_)
  match a with
  | ⟨0, _⟩ => show win9_1.index t 0 * 5000 + 1 * (y 0).val = (k 0).val; rw [e.2.2.1, hk0]; omega
  | ⟨1, _⟩ => show win9_1.index t 1 * 128 + 1 * (y 1).val = (k 1).val; rw [e.2.2.2.1, hk1]; omega

/-- Entry y of point t's block of the degree column is entry 5000 t + y of the column. -/
theorem deg_block (c : Dev nD) (t : Fin cfg9.N) (y : S5000x1.Idx) (k : S100000x1.Idx)
    (hk0 : (k 0).val = t.val * 5000 + (y 0).val) (hk1 : (k 1).val = (y 1).val) :
    (iblk9 V c 2 t : Vec Ideal S5000x1 .f32) y = (V c main_v187 : S100000x1.Idx → EReal) k := by
  have e := index_maps t
  unfold iblk9
  rw [View.read_apply]
  show (V c main_v187 : S100000x1.Idx → EReal) _ = _
  refine congrArg (V c main_v187 : S100000x1.Idx → EReal) (funext fun a => Fin.ext ?_)
  match a with
  | ⟨0, _⟩ => show win9_2.index t 0 * 5000 + 1 * (y 0).val = (k 0).val; rw [e.2.2.2.2.1, hk0]; omega
  | ⟨1, _⟩ => show win9_2.index t 1 * 1 + 1 * (y 1).val = (k 1).val; rw [e.2.2.2.2.2.1, hk1]; omega

/-- Every point's bias block is the whole bias row. -/
theorem bias_block (c : Dev nD) (t : Fin cfg9.N) (y : S1x128.Idx) (k : S1x128.Idx)
    (hk0 : (k 0).val = (y 0).val) (hk1 : (k 1).val = (y 1).val) :
    (iblk9 V c 3 t : Vec Ideal S1x128 .f32) y = (V c main_v188 : S1x128.Idx → EReal) k := by
  have e := index_maps t
  unfold iblk9
  rw [View.read_apply]
  show (V c main_v188 : S1x128.Idx → EReal) _ = _
  refine congrArg (V c main_v188 : S1x128.Idx → EReal) (funext fun a => Fin.ext ?_)
  match a with
  | ⟨0, _⟩ => show win9_3.index t 0 * 1 + 1 * (y 0).val = (k 0).val; rw [e.2.2.2.2.2.2.1, hk0]; omega
  | ⟨1, _⟩ => show win9_3.index t 1 * 128 + 1 * (y 1).val = (k 1).val; rw [e.2.2.2.2.2.2.2.1, hk1]; omega

/-- What point t writes back to the embedding is block t of `Epilogue.emb` of the four arrays. -/
theorem flushed_emb (c : Dev nD) (t : Fin cfg9.N) :
    (dat9 V c).flushed 4 t = ((cfg9.win 4).blk t).view.read (Elt Ideal) (Epilogue.emb (V c main_v186) (V c main_v158) (V c main_v187) (V c main_v188)) := by
  show (cfg9.win 4).cut (grid9.coords t) ((dat9 V c).after 4 t) = _
  rw [after9_4]
  unfold out9_4
  rw [View.canon_unit_zero zero_offsets]
  simp only [View.ld_unit_zero (S := S5000x128) zero_offsets, View.ld_unit_zero (S := S5000x1) zero_offsets, View.ld_unit_zero (S := S1x128) zero_offsets]
  have e := index_maps t
  funext y
  rw [View.read_apply]
  have hy : (y : S5000x128.Idx) = ix2 (y 0) (y 1) := eq_ix2 y
  show k9_pay1 (F := Ideal) (iblk9 V c 2 t) (iblk9 V c 0 t) (iblk9 V c 1 t) (iblk9 V c 3 t) y = Epilogue.emb (V c main_v186) (V c main_v158) (V c main_v187) (V c main_v188) (((cfg9.win 4).blk t).view.emb y)
  rw [hy]
  have hrow : (((cfg9.win 4).blk t).view.emb (ix2 (y 0) (y 1)) 0).val = t.val * 5000 + (y 0).val := by
    show win9_4.index t 0 * 5000 + 1 * (y 0).val = _; rw [e.2.2.2.2.2.2.2.2.1]; omega
  have hcol : (((cfg9.win 4).blk t).view.emb (ix2 (y 0) (y 1)) 1).val = (y 1).val := by
    show win9_4.index t 1 * 128 + 1 * (y 1).val = _; rw [e.2.2.2.2.2.2.2.2.2.1]; omega
  refine (Epilogue.body_emb _ _ _ _ (y 0) (y 1)).trans ?_
  unfold Epilogue.emb
  refine congrArg₂ (· + ·) (congrArg₂ (· + ·) ?_ (congrArg₂ (· * ·) ?_ (congrArg₂ (· * ·) ?_ ?_))) ?_
  · exact agg_block V c t _ _ hrow hcol
  · exact hw_block V c t _ _ hrow hcol
  · exact deg_block V c t _ _ hrow rfl
  · exact deg_block V c t _ _ hrow rfl
  · exact bias_block V c t _ _ rfl hcol

/-- What point t writes back to the activation is block t of `Epilogue.act` of the four arrays. -/
theorem flushed_act (c : Dev nD) (t : Fin cfg9.N) :
    (dat9 V c).flushed 5 t = ((cfg9.win 5).blk t).view.read (Elt Ideal) (Epilogue.act (V c main_v186) (V c main_v158) (V c main_v187) (V c main_v188)) := by
  show (cfg9.win 5).cut (grid9.coords t) ((dat9 V c).after 5 t) = _
  rw [after9_5]
  unfold out9_5
  rw [View.canon_unit_zero zero_offsets]
  simp only [View.ld_unit_zero (S := S5000x128) zero_offsets, View.ld_unit_zero (S := S5000x1) zero_offsets, View.ld_unit_zero (S := S1x128) zero_offsets]
  have e := index_maps t
  funext y
  rw [View.read_apply]
  have hy : (y : S5000x128.Idx) = ix2 (y 0) (y 1) := eq_ix2 y
  show k9_pay2 (F := Ideal) (iblk9 V c 2 t) (iblk9 V c 0 t) (iblk9 V c 1 t) (iblk9 V c 3 t) y = Epilogue.act (V c main_v186) (V c main_v158) (V c main_v187) (V c main_v188) (((cfg9.win 5).blk t).view.emb y)
  rw [hy]
  have hrow : (((cfg9.win 5).blk t).view.emb (ix2 (y 0) (y 1)) 0).val = t.val * 5000 + (y 0).val := by
    show win9_5.index t 0 * 5000 + 1 * (y 0).val = _; rw [e.2.2.2.2.2.2.2.2.2.2.1]; omega
  have hcol : (((cfg9.win 5).blk t).view.emb (ix2 (y 0) (y 1)) 1).val = (y 1).val := by
    show win9_5.index t 1 * 128 + 1 * (y 1).val = _; rw [e.2.2.2.2.2.2.2.2.2.2.2]; omega
  refine (Epilogue.body_act _ _ _ _ (y 0) (y 1)).trans ?_
  unfold Epilogue.act
  refine congrArg₂ max ?_ rfl
  refine (Epilogue.body_emb _ _ _ _ (y 0) (y 1)).trans ?_
  unfold Epilogue.emb
  refine congrArg₂ (· + ·) (congrArg₂ (· + ·) ?_ (congrArg₂ (· * ·) ?_ (congrArg₂ (· * ·) ?_ ?_))) ?_
  · exact agg_block V c t _ _ hrow hcol
  · exact hw_block V c t _ _ hrow hcol
  · exact deg_block V c t _ _ hrow rfl
  · exact deg_block V c t _ _ hrow rfl
  · exact bias_block V c t _ _ rfl hcol

/-- An index of the result is in point t's block iff each coordinate is in the block's range on its axis. -/
theorem mem_block_emb (t : Fin cfg9.N) (i : S100000x128.Idx) :
    i ∈ ((cfg9.win 4).blk t).view.set ↔ ∀ a : Fin 2, win9_4.index t a * S5000x128.size a ≤ (i a).val ∧ (i a).val < win9_4.index t a * S5000x128.size a + S5000x128.size a := by
  show i ∈ ((View.whole main_v189_0).slice (win9_4.rect t)).set ↔ _
  rw [View.set_slice_whole, Rect.mem_set_unit]
  exact Iff.rfl

/-- Row r of the result lies in the block of point r / 5000: the twenty row blocks tile the array. -/
theorem cover_emb (i : S100000x128.Idx) : ∃ t : Fin cfg9.N, (cfg9.win 4).flush t = true ∧ i ∈ ((cfg9.win 4).blk t).view.set := by
  have hi0 : (i 0).val < 100000 := (i 0).isLt
  have hi1 : (i 1).val < 128 := (i 1).isLt
  have hN : cfg9.N = 20 := N_9
  let t : Fin cfg9.N := ⟨(i 0).val / 5000, by rw [hN]; omega⟩
  have e := index_maps t
  refine ⟨t, flush9_4 t, ?_⟩
  rw [mem_block_emb]
  intro a
  match a with
  | ⟨0, _⟩ => show win9_4.index t 0 * 5000 ≤ (i 0).val ∧ (i 0).val < win9_4.index t 0 * 5000 + 5000; rw [e.2.2.2.2.2.2.2.2.1]; show (i 0).val / 5000 * 5000 ≤ _ ∧ _ < (i 0).val / 5000 * 5000 + 5000; omega
  | ⟨1, _⟩ => show win9_4.index t 1 * 128 ≤ (i 1).val ∧ (i 1).val < win9_4.index t 1 * 128 + 128; rw [e.2.2.2.2.2.2.2.2.2.1]; omega

/-- An index of the result is in point t's block iff each coordinate is in the block's range on its axis. -/
theorem mem_block_act (t : Fin cfg9.N) (i : S100000x128.Idx) :
    i ∈ ((cfg9.win 5).blk t).view.set ↔ ∀ a : Fin 2, win9_5.index t a * S5000x128.size a ≤ (i a).val ∧ (i a).val < win9_5.index t a * S5000x128.size a + S5000x128.size a := by
  show i ∈ ((View.whole main_v189_1).slice (win9_5.rect t)).set ↔ _
  rw [View.set_slice_whole, Rect.mem_set_unit]
  exact Iff.rfl

/-- Row r of the result lies in the block of point r / 5000: the twenty row blocks tile the array. -/
theorem cover_act (i : S100000x128.Idx) : ∃ t : Fin cfg9.N, (cfg9.win 5).flush t = true ∧ i ∈ ((cfg9.win 5).blk t).view.set := by
  have hi0 : (i 0).val < 100000 := (i 0).isLt
  have hi1 : (i 1).val < 128 := (i 1).isLt
  have hN : cfg9.N = 20 := N_9
  let t : Fin cfg9.N := ⟨(i 0).val / 5000, by rw [hN]; omega⟩
  have e := index_maps t
  refine ⟨t, flush9_5 t, ?_⟩
  rw [mem_block_act]
  intro a
  match a with
  | ⟨0, _⟩ => show win9_5.index t 0 * 5000 ≤ (i 0).val ∧ (i 0).val < win9_5.index t 0 * 5000 + 5000; rw [e.2.2.2.2.2.2.2.2.2.2.1]; show (i 0).val / 5000 * 5000 ≤ _ ∧ _ < (i 0).val / 5000 * 5000 + 5000; omega
  | ⟨1, _⟩ => show win9_5.index t 1 * 128 ≤ (i 1).val ∧ (i 1).val < win9_5.index t 1 * 128 + 128; rw [e.2.2.2.2.2.2.2.2.2.2.2]; omega

/-- The embedding array after the call. -/
theorem result_emb (c : Dev nD) :
    (dat9 V c).arrAt 4 cfg9.N = Epilogue.emb (V c main_v186) (V c main_v158) (V c main_v187) (V c main_v188) :=
  (dat9 V c).arrAt_eq_of_cover 4 _ (fun t _ => flushed_emb V c t) cover_emb

/-- The activation array after the call. -/
theorem result_act (c : Dev nD) :
    (dat9 V c).arrAt 5 cfg9.N = Epilogue.act (V c main_v186) (V c main_v158) (V c main_v187) (V c main_v188) :=
  (dat9 V c).arrAt_eq_of_cover 5 _ (fun t _ => flushed_act V c t) cover_act

end Cert.KernelIdeal.Epilogue4

end
-- ==== Proof.Layer4.lean ====
/-
  Layer 4 of the network in the kernel program, value by value: the linear call's product, the aggregation the host
  computes from it over the edges, the epilogue call's embedding and activation. Each is shown equal to the reference
  program's stage of the same computation: the host operations are the same operations on equal operands, a linear
  call's result array is the host's dot_general, and an epilogue call's two result arrays are the host's broadcasts,
  products, sums and maximum.
-/
import proofs.«176345_j15290083574239_1_alg».proof.Proof.Gen.KernelIdeal.Frame
import proofs.«176345_j15290083574239_1_alg».proof.Proof.Gen.ReferenceIdeal.Read
import proofs.«176345_j15290083574239_1_alg».proof.Proof.Carry
import proofs.«176345_j15290083574239_1_alg».proof.Proof.Layer3
import proofs.«176345_j15290083574239_1_alg».proof.Proof.Linear4
import proofs.«176345_j15290083574239_1_alg».proof.Proof.Epilogue4
import proofs.«176345_j15290083574239_1_alg».proof.Proof.EpilogueHost
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Layer4

open Cert.KernelIdeal Cert.KernelIdeal.Gen Cert.ReferenceIdeal.Read
open Cert.KernelIdeal.Carry

variable (m : (ℓ : Loc nD τ sig) → Buf (Elt Ideal) ℓ) (ρ : Dev nD → PrngReg) (c : Dev nD)

/-- The previous layer's activation reaches the linear call unchanged: the stretch before it only slices the weights. -/
theorem entry_in : W17 m ρ c (Proc.devRef .tc main_v153_1) = val_main_v177 (F := Ideal) (A0 m c) (A1 m c) (A2 m c) (A3 m c) (A4 m c) (A5 m c) (A6 m c) := by
  dsimp only [W17, hostOps8]; after_results; exact Layer3.exit_act m ρ c
/-- The layer's weight: its slice of the stacked weights, reshaped to a matrix. -/
theorem entry_weight : W17 m ρ c (Proc.devRef .tc main_v155) = val_main_v179 (F := Ideal) (A5 m c) := by
  dsimp only [W17, hostOps8]; after_results; rw [W16_arg5 m ρ c]; rfl
/-- The layer's bias: its row of the stacked biases, reshaped to a vector. -/
theorem entry_bias : W17 m ρ c (Proc.devRef .tc main_v157) = val_main_v181 (F := Ideal) (A6 m c) := by
  dsimp only [W17, hostOps8]; after_results; rw [W16_arg6 m ρ c]; rfl
theorem exit_bias : W18 m ρ c (Proc.devRef .tc main_v157) = val_main_v181 (F := Ideal) (A6 m c) :=
  (W18_of_ne m ρ c main_v157 (by decide)).trans (entry_bias m ρ c)

/-- The linear call's result array is the reference's dot_general of the same operands. -/
theorem exit_hw : W18 m ρ c (Proc.devRef .tc main_v158) = val_main_v182 (F := Ideal) (A0 m c) (A1 m c) (A2 m c) (A3 m c) (A4 m c) (A5 m c) (A6 m c) := by
  refine (W18_arr m ρ c 2).trans ?_
  refine (Linear4.result (V17 m ρ) c).trans ?_
  dsimp only [V17]
  rw [entry_in m ρ c, entry_weight m ρ c]
  exact (Dense.prod_host _ rfl _ _).symm

/-- The aggregation over incoming edges, computed by the host from the call's result: the same gathers, products and
    scatter-add as the reference's, on equal operands. -/
theorem agg_eq : W19 m ρ c (Proc.devRef .tc main_v186) = val_main_v210 (F := Ideal) (A0 m c) (A1 m c) (A2 m c) (A3 m c) (A4 m c) (A5 m c) (A6 m c) := by
  dsimp only [W19, hostOps9]; after_results_simp
  simp only [W18_src m ρ c, W18_dst m ρ c, W18_deg m ρ c, exit_hw m ρ c]
  rfl
/-- The call's result reaches the epilogue unchanged. -/
theorem hw_eq : W19 m ρ c (Proc.devRef .tc main_v158) = val_main_v182 (F := Ideal) (A0 m c) (A1 m c) (A2 m c) (A3 m c) (A4 m c) (A5 m c) (A6 m c) := by
  dsimp only [W19, hostOps9]; after_results; exact exit_hw m ρ c
/-- The degree vector as a column. -/
theorem deg_col : W19 m ρ c (Proc.devRef .tc main_v187) = shapeCast S100000x1 (val_main_v10 (F := Ideal) (A2 m c)) shapeCasts_S100000_S100000x1 := by
  dsimp only [W19, hostOps9]; after_results; rw [W18_deg m ρ c]; rfl
/-- The bias as a row. -/
theorem bias_row : W19 m ρ c (Proc.devRef .tc main_v188) = shapeCast S1x128 (val_main_v181 (F := Ideal) (A6 m c)) shapeCasts_S128_S1x128 := by
  dsimp only [W19, hostOps9]; after_results; rw [exit_bias m ρ c]; rfl

/-- The epilogue call's embedding array is the reference's embedding of the layer. -/
theorem exit_emb : W20 m ρ c (Proc.devRef .tc main_v189_0) = val_main_v218 (F := Ideal) (A0 m c) (A1 m c) (A2 m c) (A3 m c) (A4 m c) (A5 m c) (A6 m c) := by
  refine (W20_arr m ρ c 4).trans ?_
  refine (Epilogue4.result_emb (V19 m ρ) c).trans ?_
  dsimp only [V19]
  rw [agg_eq m ρ c, hw_eq m ρ c, deg_col m ρ c, bias_row m ρ c]
  exact (Epilogue.emb_host (val_main_v210 (F := Ideal) (A0 m c) (A1 m c) (A2 m c) (A3 m c) (A4 m c) (A5 m c) (A6 m c)) (val_main_v182 (F := Ideal) (A0 m c) (A1 m c) (A2 m c) (A3 m c) (A4 m c) (A5 m c) (A6 m c)) (val_main_v10 (F := Ideal) (A2 m c)) (val_main_v181 (F := Ideal) (A6 m c)) _ _ _ _ _ _).symm

/-- The epilogue call's activation array is the reference's activation of the layer. -/
theorem exit_act : W20 m ρ c (Proc.devRef .tc main_v189_1) = val_main_v219 (F := Ideal) (A0 m c) (A1 m c) (A2 m c) (A3 m c) (A4 m c) (A5 m c) (A6 m c) := by
  refine (W20_arr m ρ c 5).trans ?_
  refine (Epilogue4.result_act (V19 m ρ) c).trans ?_
  dsimp only [V19]
  rw [agg_eq m ρ c, hw_eq m ρ c, deg_col m ρ c, bias_row m ρ c]
  exact (Epilogue.act_of_host (val_main_v210 (F := Ideal) (A0 m c) (A1 m c) (A2 m c) (A3 m c) (A4 m c) (A5 m c) (A6 m c)) (val_main_v182 (F := Ideal) (A0 m c) (A1 m c) (A2 m c) (A3 m c) (A4 m c) (A5 m c) (A6 m c)) (val_main_v10 (F := Ideal) (A2 m c)) (val_main_v181 (F := Ideal) (A6 m c)) _ _ _ _ _ _ _).symm

end Cert.KernelIdeal.Layer4

end
-- ==== Proof.Head.lean ====
/-
  The regression head, as one function of whole arrays: a 128-wide hidden layer with bias and activation, then a
  projection to three outputs with bias. Entry (p, j) of the prediction is
      (sum over q of max ((sum over r of h (p, r) * w1 (r, q)) + b1 q, 0) * w2 (q, j)) + b2 j.
  The kernel's body computes this on a block of 5000 rows with two matmuls into zero accumulators (the roundings to
  another float format being the identity on the extended reals); the host computes it with two dot_generals, broadcast
  biases and a maximum with a broadcast zero.
-/
import proofs.«176345_j15290083574239_1_alg».proof.KernelIdeal
import proofs.«176345_j15290083574239_1_alg».proof.Proof.Gen.KernelIdeal.Skeleton
import proofs.«176345_j15290083574239_1_alg».proof.Proof.LibPlainDot
import proofs.«176345_j15290083574239_1_alg».proof.Proof.LibRowBroadcast
import proofs.«176345_j15290083574239_1_alg».proof.Proof.LibMatrixLayout
import proofs.«176345_j15290083574239_1_alg».proof.Proof.LibRowReshape
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Head

open Cert.KernelIdeal Cert.KernelIdeal.Gen

/-- The zero the activation is taken against. -/
abbrev zero : EReal := Scalar.ofBits (F := Ideal) .f32 0x00000000#32

/-- The hidden layer of the head at (p, q): activations against the first weight, plus the bias, cut at zero. -/
def hidden (h : S100000x128.Idx → EReal) (w1 : S128x128.Idx → EReal) (b1 : S1x128.Idx → EReal) : S100000x128.Idx → EReal :=
  fun i => max ((∑ r : Fin 128, h (ix2 (i 0) r) * w1 (ix2 r (i 1))) + b1 (ix2 (0 : Fin 1) (i 1))) zero

/-- The prediction at (p, j): the hidden layer against the second weight, plus the bias. -/
def pred (h : S100000x128.Idx → EReal) (w1 : S128x128.Idx → EReal) (b1 : S1x128.Idx → EReal)
    (w2 : S128x3.Idx → EReal) (b2 : S1x3.Idx → EReal) : S100000x3.Idx → EReal :=
  fun i => (∑ q : Fin 128, hidden h w1 b1 (ix2 (i 0) q) * w2 (ix2 q (i 1))) + b2 (ix2 (0 : Fin 1) (i 1))

/-- The body's value at entry (p, j) of its block of 5000 rows. -/
theorem body_apply (v0 : Vec Ideal S5000x128 .f32) (v3 : Vec Ideal S128x128 .f32) (v6 : Vec Ideal S1x128 .f32)
    (v13 : Vec Ideal S128x3 .f32) (v16 : Vec Ideal S1x3 .f32) (p : Fin 5000) (j : Fin 3) :
    k10_pay1 (F := Ideal) v0 v3 v6 v13 v16 (ix2 p j)
      = (∑ q : Fin 128, max ((∑ r : Fin 128, v0 (ix2 p r) * v3 (ix2 r q)) + v6 (ix2 (0 : Fin 1) q)) zero * v13 (ix2 q j))
        + v16 (ix2 (0 : Fin 1) j) := by
  unfold k10_pay1
  simp only [shapeCast_self]
  rw [addf_apply, Cert.LibRowBroadcast.broadcastTo_1b_ab_apply]
  refine congrArg (· + v16 (ix2 (0 : Fin 1) j)) ?_
  refine (Cert.PlainDot.matmul_zero_ix2 _ rfl none _ _ p j).trans ?_
  refine Finset.sum_congr rfl fun q _ => ?_
  refine congrArg (· * v13 (ix2 q j)) ?_
  show max (_ + _) _ = _
  refine congrArg₂ max (congrArg₂ (· + ·) ?_ ?_) rfl
  · exact Cert.PlainDot.matmul_zero_ix2 _ rfl none _ _ p q
  · exact Cert.LibRowBroadcast.broadcastTo_1b_ab_apply _ _ p q

/-- The host's spelling of the head is `pred` of the two biases reshaped to rows. -/
theorem pred_host (D1 : DotDims S100000x128 S128x128 S100000x128) (hD1 : D1 = DotDims.plain 100000 128 128)
    (D2 : DotDims S100000x128 S128x3 S100000x3) (hD2 : D2 = DotDims.plain 100000 128 3)
    (h : FVec Ideal S100000x128 .f32) (w1 : FVec Ideal S128x128 .f32) (b1 : FVec Ideal S128 .f32)
    (w2 : FVec Ideal S128x3 .f32) (b2 : FVec Ideal S3 .f32)
    (g1 : S128.BroadcastsInDim S1x128 ![1]) (g2 : S1x128.BroadcastsInDim S100000x128 ![0, 1])
    (g3 : S3.BroadcastsInDim S1x3 ![1]) (g4 : S1x3.BroadcastsInDim S100000x3 ![0, 1])
    (g0 : S_.BroadcastsInDim S100000x128 ![])
    (c1 : S128.ShapeCasts S1x128) (c2 : S3.ShapeCasts S1x3) :
    addf (Host.dotGeneral D2 none
          (maximumf (addf (Host.dotGeneral D1 none h w1) (broadcastInDim S100000x128 ![0, 1] g2 (broadcastInDim S1x128 ![1] g1 b1)))
            (broadcastInDim S100000x128 ![] g0 (constant (F := Ideal) S_ .f32 0x00000000#32))) w2)
        (broadcastInDim S100000x3 ![0, 1] g4 (broadcastInDim S1x3 ![1] g3 b2))
      = pred h w1 (shapeCast S1x128 b1 c1) w2 (shapeCast S1x3 b2 c2) := by
  funext i
  obtain ⟨p, j, rfl⟩ : ∃ (p : Fin 100000) (j : Fin 3), i = ix2 p j := ⟨i 0, i 1, eq_ix2 i⟩
  unfold pred
  have e0 : (ix2 p j : S100000x3.Idx) 0 = p := rfl
  have e1 : (ix2 p j : S100000x3.Idx) 1 = j := rfl
  rw [addf_apply, Cert.LibMatrixLayout.bcast_1b_ab_apply, Cert.LibMatrixLayout.bcast_b_1b_apply, e0, e1,
    Cert.LibRowReshape.shapeCast_b_1b_apply]
  refine congrArg (· + b2 (ix1 j)) ?_
  refine (Cert.PlainDot.dotGeneral_ix2 D2 hD2 none _ w2 p j).trans ?_
  refine Finset.sum_congr rfl fun q _ => ?_
  refine congrArg (· * w2 (ix2 q j)) ?_
  unfold hidden
  have f0 : (ix2 p q : S100000x128.Idx) 0 = p := rfl
  have f1 : (ix2 p q : S100000x128.Idx) 1 = q := rfl
  rw [maximumf_apply, addf_apply, Cert.LibMatrixLayout.bcast_scalar_apply, Cert.LibMatrixLayout.bcast_1b_ab_apply,
    Cert.LibMatrixLayout.bcast_b_1b_apply, f0, f1, Cert.LibRowReshape.shapeCast_b_1b_apply,
    Cert.PlainDot.dotGeneral_ix2 D1 hD1 none h w1 p q]
  rfl

end Cert.KernelIdeal.Head

end
-- ==== Proof.HeadCall.lean ====
/-
  The regression head's pallas_call: 5000 rows of the last activation per grid point against the two weights and the
  two bias rows, which every point reads whole. Each point's output block is the head's function of its rows, the twenty
  row blocks tile the [100000,3] result, so the result array is `Head.pred` of the five arrays as the call finds them.
-/
import proofs.«176345_j15290083574239_1_alg».proof.Proof.Gen.KernelIdeal.Frame
import proofs.«176345_j15290083574239_1_alg».proof.Proof.Head
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.HeadCall

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where the grid's index maps send point t: row block t of the activations and of the result; the two weights and
    the two bias rows whole. -/
theorem index_maps : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- Row y of point t's activation block is row 5000 t + y of the activations. -/
theorem rows_block (c : Dev nD) (t : Fin cfg10.N) (y : S5000x128.Idx) (k : S100000x128.Idx)
    (hk0 : (k 0).val = t.val * 5000 + (y 0).val) (hk1 : (k 1).val = (y 1).val) :
    (iblk10 V c 0 t : Vec Ideal S5000x128 .f32) y = (V c main_v189_1 : S100000x128.Idx → EReal) k := by
  have e := index_maps t
  unfold iblk10
  rw [View.read_apply]
  show (V c main_v189_1 : S100000x128.Idx → EReal) _ = _
  refine congrArg (V c main_v189_1 : S100000x128.Idx → EReal) (funext fun a => Fin.ext ?_)
  match a with
  | ⟨0, _⟩ => show win10_0.index t 0 * 5000 + 1 * (y 0).val = (k 0).val; rw [e.1, hk0]; omega
  | ⟨1, _⟩ => show win10_0.index t 1 * 128 + 1 * (y 1).val = (k 1).val; rw [e.2.1, hk1]; omega

/-- Every point's first-weight block is the whole weight. -/
theorem weight1_block (c : Dev nD) (t : Fin cfg10.N) (y : S128x128.Idx) (k : S128x128.Idx)
    (hk0 : (k 0).val = (y 0).val) (hk1 : (k 1).val = (y 1).val) :
    (iblk10 V c 1 t : Vec Ideal S128x128 .f32) y = (V c main_arg7 : S128x128.Idx → EReal) k := by
  have e := index_maps t
  unfold iblk10
  rw [View.read_apply]
  show (V c main_arg7 : S128x128.Idx → EReal) _ = _
  refine congrArg (V c main_arg7 : S128x128.Idx → EReal) (funext fun a => Fin.ext ?_)
  match a with
  | ⟨0, _⟩ => show win10_1.index t 0 * 128 + 1 * (y 0).val = (k 0).val; rw [e.2.2.1, hk0]; omega
  | ⟨1, _⟩ => show win10_1.index t 1 * 128 + 1 * (y 1).val = (k 1).val; rw [e.2.2.2.1, hk1]; omega

/-- Every point's first-bias block is the whole bias row. -/
theorem bias1_block (c : Dev nD) (t : Fin cfg10.N) (y : S1x128.Idx) (k : S1x128.Idx)
    (hk0 : (k 0).val = (y 0).val) (hk1 : (k 1).val = (y 1).val) :
    (iblk10 V c 2 t : Vec Ideal S1x128 .f32) y = (V c main_v190 : S1x128.Idx → EReal) k := by
  have e := index_maps t
  unfold iblk10
  rw [View.read_apply]
  show (V c main_v190 : S1x128.Idx → EReal) _ = _
  refine congrArg (V c main_v190 : S1x128.Idx → EReal) (funext fun a => Fin.ext ?_)
  match a with
  | ⟨0, _⟩ => show win10_2.index t 0 * 1 + 1 * (y 0).val = (k 0).val; rw [e.2.2.2.2.1, hk0]; omega
  | ⟨1, _⟩ => show win10_2.index t 1 * 128 + 1 * (y 1).val = (k 1).val; rw [e.2.2.2.2.2.1, hk1]; omega

/-- Every point's second-weight block is the whole weight. -/
theorem weight2_block (c : Dev nD) (t : Fin cfg10.N) (y : S128x3.Idx) (k : S128x3.Idx)
    (hk0 : (k 0).val = (y 0).val) (hk1 : (k 1).val = (y 1).val) :
    (iblk10 V c 3 t : Vec Ideal S128x3 .f32) y = (V c main_arg9 : S128x3.Idx → EReal) k := by
  have e := index_maps t
  unfold iblk10
  rw [View.read_apply]
  show (V c main_arg9 : S128x3.Idx → EReal) _ = _
  refine congrArg (V c main_arg9 : S128x3.Idx → EReal) (funext fun a => Fin.ext ?_)
  match a with
  | ⟨0, _⟩ => show win10_3.index t 0 * 128 + 1 * (y 0).val = (k 0).val; rw [e.2.2.2.2.2.2.1, hk0]; omega
  | ⟨1, _⟩ => show win10_3.index t 1 * 3 + 1 * (y 1).val = (k 1).val; rw [e.2.2.2.2.2.2.2.1, hk1]; omega

/-- Every point's second-bias block is the whole bias row. -/
theorem bias2_block (c : Dev nD) (t : Fin cfg10.N) (y : S1x3.Idx) (k : S1x3.Idx)
    (hk0 : (k 0).val = (y 0).val) (hk1 : (k 1).val = (y 1).val) :
    (iblk10 V c 4 t : Vec Ideal S1x3 .f32) y = (V c main_v191 : S1x3.Idx → EReal) k := by
  have e := index_maps t
  unfold iblk10
  rw [View.read_apply]
  show (V c main_v191 : S1x3.Idx → EReal) _ = _
  refine congrArg (V c main_v191 : S1x3.Idx → EReal) (funext fun a => Fin.ext ?_)
  match a with
  | ⟨0, _⟩ => show win10_4.index t 0 * 1 + 1 * (y 0).val = (k 0).val; rw [e.2.2.2.2.2.2.2.2.1, hk0]; omega
  | ⟨1, _⟩ => show win10_4.index t 1 * 3 + 1 * (y 1).val = (k 1).val; rw [e.2.2.2.2.2.2.2.2.2.1, hk1]; omega

/-- What point t writes back is block t of the head's function of the five arrays. -/
theorem flushed_eq (c : Dev nD) (t : Fin cfg10.N) :
    (dat10 V c).flushed 5 t = ((cfg10.win 5).blk t).view.read (Elt Ideal) (Head.pred (V c main_v189_1) (V c main_arg7) (V c main_v190) (V c main_arg9) (V c main_v191)) := by
  show (cfg10.win 5).cut (grid10.coords t) ((dat10 V c).after 5 t) = _
  rw [after10_5]
  unfold out10_5
  rw [View.canon_unit_zero zero_offsets]
  simp only [View.ld_unit_zero (S := S5000x128) zero_offsets, View.ld_unit_zero (S := S128x128) zero_offsets,
    View.ld_unit_zero (S := S1x128) zero_offsets, View.ld_unit_zero (S := S128x3) zero_offsets, View.ld_unit_zero (S := S1x3) zero_offsets]
  have e := index_maps t
  funext y
  rw [View.read_apply]
  have hy : (y : S5000x3.Idx) = ix2 (y 0) (y 1) := eq_ix2 y
  show k10_pay1 (F := Ideal) (iblk10 V c 0 t) (iblk10 V c 1 t) (iblk10 V c 2 t) (iblk10 V c 3 t) (iblk10 V c 4 t) y
    = Head.pred (V c main_v189_1) (V c main_arg7) (V c main_v190) (V c main_arg9) (V c main_v191) (((cfg10.win 5).blk t).view.emb y)
  rw [hy]
  have hrow : (((cfg10.win 5).blk t).view.emb (ix2 (y 0) (y 1)) 0).val = t.val * 5000 + (y 0).val := by
    show win10_5.index t 0 * 5000 + 1 * (y 0).val = _; rw [e.2.2.2.2.2.2.2.2.2.2.1]; omega
  have hcol : (((cfg10.win 5).blk t).view.emb (ix2 (y 0) (y 1)) 1).val = (y 1).val := by
    show win10_5.index t 1 * 3 + 1 * (y 1).val = _; rw [e.2.2.2.2.2.2.2.2.2.2.2]; omega
  refine (Head.body_apply _ _ _ _ _ (y 0) (y 1)).trans ?_
  unfold Head.pred Head.hidden
  refine congrArg₂ (· + ·) (Finset.sum_congr rfl fun q _ => congrArg₂ (· * ·) (congrArg₂ max (congrArg₂ (· + ·)
    (Finset.sum_congr rfl fun r _ => congrArg₂ (· * ·) ?_ ?_) ?_) rfl) ?_) ?_
  · exact rows_block V c t _ _ hrow rfl
  · exact weight1_block V c t _ _ rfl rfl
  · exact bias1_block V c t _ _ rfl rfl
  · exact weight2_block V c t _ _ rfl hcol
  · exact bias2_block V c t _ _ rfl hcol

/-- An index of the result is in point t's block iff each coordinate is in the block's range on its axis. -/
theorem mem_block (t : Fin cfg10.N) (i : S100000x3.Idx) :
    i ∈ ((cfg10.win 5).blk t).view.set ↔ ∀ a : Fin 2, win10_5.index t a * S5000x3.size a ≤ (i a).val ∧ (i a).val < win10_5.index t a * S5000x3.size a + S5000x3.size a := by
  show i ∈ ((View.whole main_v192).slice (win10_5.rect t)).set ↔ _
  rw [View.set_slice_whole, Rect.mem_set_unit]
  exact Iff.rfl

/-- Row r of the result lies in the block of point r / 5000: the twenty row blocks tile the array. -/
theorem cover (i : S100000x3.Idx) : ∃ t : Fin cfg10.N, (cfg10.win 5).flush t = true ∧ i ∈ ((cfg10.win 5).blk t).view.set := by
  have hi0 : (i 0).val < 100000 := (i 0).isLt
  have hi1 : (i 1).val < 3 := (i 1).isLt
  have hN : cfg10.N = 20 := N_10
  let t : Fin cfg10.N := ⟨(i 0).val / 5000, by rw [hN]; omega⟩
  have e := index_maps t
  refine ⟨t, flush10_5 t, ?_⟩
  rw [mem_block]
  intro a
  match a with
  | ⟨0, _⟩ => show win10_5.index t 0 * 5000 ≤ (i 0).val ∧ (i 0).val < win10_5.index t 0 * 5000 + 5000; rw [e.2.2.2.2.2.2.2.2.2.2.1]; show (i 0).val / 5000 * 5000 ≤ _ ∧ _ < (i 0).val / 5000 * 5000 + 5000; omega
  | ⟨1, _⟩ => show win10_5.index t 1 * 3 ≤ (i 1).val ∧ (i 1).val < win10_5.index t 1 * 3 + 3; rw [e.2.2.2.2.2.2.2.2.2.2.2]; omega

/-- The prediction array after the call. -/
theorem result (c : Dev nD) :
    (dat10 V c).arrAt 5 cfg10.N = Head.pred (V c main_v189_1) (V c main_arg7) (V c main_v190) (V c main_arg9) (V c main_v191) :=
  (dat10 V c).arrAt_eq_of_cover 5 _ (fun t _ => flushed_eq V c t) cover

end Cert.KernelIdeal.HeadCall

end
-- ==== Proof.Results.lean ====
/-
  The two results at the last boundary of the kernel program. The regression head's call finds the last activation,
  the two weights and the two biases (reshaped to rows by the stretch before it); its result array is the head's
  function of them, which is the reference's two dot_generals with broadcast biases and a maximum with zero. The last
  layer's embedding is none of the head's arrays and no later operation writes it, so it ends as the last epilogue
  call left it.
-/
import proofs.«176345_j15290083574239_1_alg».proof.Proof.Gen.KernelIdeal.Frame
import proofs.«176345_j15290083574239_1_alg».proof.Proof.Gen.ReferenceIdeal.Read
import proofs.«176345_j15290083574239_1_alg».proof.Proof.Carry
import proofs.«176345_j15290083574239_1_alg».proof.Proof.Layer4
import proofs.«176345_j15290083574239_1_alg».proof.Proof.HeadCall
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Results

open Cert.KernelIdeal Cert.KernelIdeal.Gen Cert.ReferenceIdeal.Read
open Cert.KernelIdeal.Carry

variable (m : (ℓ : Loc nD τ sig) → Buf (Elt Ideal) ℓ) (ρ : Dev nD → PrngReg) (c : Dev nD)

/-- The last activation reaches the head unchanged: the stretch before it only reshapes the two biases. -/
theorem entry_act : W21 m ρ c (Proc.devRef .tc main_v189_1) = val_main_v219 (F := Ideal) (A0 m c) (A1 m c) (A2 m c) (A3 m c) (A4 m c) (A5 m c) (A6 m c) := by
  dsimp only [W21, hostOps10]; after_results; exact Layer4.exit_act m ρ c
/-- The head's first bias as a row. -/
theorem bias1_row : W21 m ρ c (Proc.devRef .tc main_v190) = shapeCast S1x128 (A8 m c) shapeCasts_S128_S1x128 := by
  dsimp only [W21, hostOps10]; after_results; rw [W20_arg8 m ρ c]; rfl
/-- The head's second bias as a row. -/
theorem bias2_row : W21 m ρ c (Proc.devRef .tc main_v191) = shapeCast S1x3 (A10 m c) shapeCasts_S3_S1x3 := by
  dsimp only [W21, hostOps10]; after_results; rw [W20_arg10 m ρ c]; rfl

/-- The prediction: the head call's result array is the reference's prediction. -/
theorem pred_eq : W22 m ρ c (Proc.devRef .tc main_v192) = val_main_v228 (F := Ideal) (A0 m c) (A1 m c) (A2 m c) (A3 m c) (A4 m c) (A5 m c) (A6 m c) (A7 m c) (A8 m c) (A9 m c) (A10 m c) := by
  refine (W22_arr m ρ c 5).trans ?_
  refine (HeadCall.result (V21 m ρ) c).trans ?_
  dsimp only [V21]
  rw [entry_act m ρ c, W21_arg7 m ρ c, bias1_row m ρ c, W21_arg9 m ρ c, bias2_row m ρ c]
  exact (Head.pred_host _ rfl _ rfl (val_main_v219 (F := Ideal) (A0 m c) (A1 m c) (A2 m c) (A3 m c) (A4 m c) (A5 m c) (A6 m c)) (A7 m c) (A8 m c) (A9 m c) (A10 m c) _ _ _ _ _ _ _).symm

/-- The embedding: the last epilogue call's embedding array, untouched since. -/
theorem emb_eq : W22 m ρ c (Proc.devRef .tc main_v189_0) = val_main_v218 (F := Ideal) (A0 m c) (A1 m c) (A2 m c) (A3 m c) (A4 m c) (A5 m c) (A6 m c) :=
  (W22_of_ne m ρ c main_v189_0 (by decide)).trans (by
    dsimp only [W21, hostOps10]; after_results; exact Layer4.exit_emb m ρ c)

end Cert.KernelIdeal.Results

end
-- ==== Proof.lean ====
/-
  The kernel program is a five-layer graph convolution network with a regression head: eleven pallas_calls (a linear
  map and an epilogue per layer, and the head) among stretches of host operations that compute the degrees, slice the
  weights and aggregate over the edges. The reference computes the same network on the host alone.

  On the extended reals the two agree result by result. The host operations of the two programs are the same
  operations; each linear call's result array is the matrix product the reference's dot_general computes (a matmul
  into a zero accumulator, roundings to another float format being the identity); each epilogue call's result arrays
  are the reference's aggregation plus self-loop share plus bias, and its maximum with zero; the head's result array is
  the reference's two products with biases and a maximum with zero. No law beyond reading these operations entry by
  entry is used, so the precondition is never opened.

  The frames of the two kernel programs are the generated ones; the reference's frame is its generated run with the
  results dropped; the idealization rewrote nothing, so preserves is trivial.
-/
import proofs.«176345_j15290083574239_1_alg».proof.Defs
import proofs.«176345_j15290083574239_1_alg».proof.Proof.Gen.Kernel
import proofs.«176345_j15290083574239_1_alg».proof.Proof.Gen.Kernel.Skeleton
import proofs.«176345_j15290083574239_1_alg».proof.Proof.Gen.Kernel.Launch
import proofs.«176345_j15290083574239_1_alg».proof.Proof.Gen.Kernel.Points
import proofs.«176345_j15290083574239_1_alg».proof.Proof.Gen.Kernel.Frame
import proofs.«176345_j15290083574239_1_alg».proof.Proof.Gen.KernelIdeal
import proofs.«176345_j15290083574239_1_alg».proof.Proof.Gen.KernelIdeal.Skeleton
import proofs.«176345_j15290083574239_1_alg».proof.Proof.Gen.KernelIdeal.Launch
import proofs.«176345_j15290083574239_1_alg».proof.Proof.Gen.KernelIdeal.Points
import proofs.«176345_j15290083574239_1_alg».proof.Proof.Gen.KernelIdeal.Frame
import proofs.«176345_j15290083574239_1_alg».proof.Proof.Gen.ReferenceIdeal
import proofs.«176345_j15290083574239_1_alg».proof.Proof.Gen.ReferenceIdeal.Run
import proofs.«176345_j15290083574239_1_alg».proof.Proof.Gen.ReferenceIdeal.Read
import proofs.«176345_j15290083574239_1_alg».proof.Proof.Gen.Pre_finite_inputs
import proofs.«176345_j15290083574239_1_alg».proof.Proof.WholeRun
import proofs.«176345_j15290083574239_1_alg».proof.Proof.Results
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

open Cert.KernelIdeal.Carry Cert.ReferenceIdeal.Read in
/-- Both programs end with the embedding at the reference's last embedding stage and the prediction at its prediction
    stage, read at the kernel program's arguments, which the reference's agree with. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => val_main_v218 (F := Ideal) (A0 m c) (A1 m c) (A2 m c) (A3 m c) (A4 m c) (A5 m c) (A6 m c), fun c => val_main_v228 (F := Ideal) (A0 m c) (A1 m c) (A2 m c) (A3 m c) (A4 m c) (A5 m c) (A6 m c) (A7 m c) (A8 m c) (A9 m c) (A10 m c), ?_, ?_⟩
  · refine (θ_run Cert.KernelIdeal.defs _ _).mono (fun r h c => ?_) (Cert.KernelIdeal.WholeRun.run (F := Ideal) m ρ)
    obtain ⟨h0, h1, hargs⟩ := h c
    exact ⟨h0.trans (Cert.KernelIdeal.Results.emb_eq m ρ c), h1.trans (Cert.KernelIdeal.Results.pred_eq m ρ c), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8, e9, e10⟩ := hagree c
    refine ⟨h0.trans ?_, h1.trans ?_, hargs⟩
    · rw [val_main_v218_eq, e0, e1, e2, e3, e4, e5, e6]
    · rw [val_main_v228_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
